-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v68)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v68) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x64 : Shape := ⟨2, ![262144, 64]⟩
abbrev S27x64x64 : Shape := ⟨3, ![27, 64, 64]⟩
abbrev S64 : Shape := ⟨1, ![64]⟩
abbrev S26x65536 : Shape := ⟨2, ![26, 65536]⟩
abbrev S_ : Shape := ⟨0, ![]⟩

class Facts : Prop where
  bcast_S_S262144x64 : S_.BroadcastsInDim S262144x64 (![] : Fin 0 → Fin S262144x64.rank)
  reducesTo_S262144x64_S_d0_1 : S262144x64.ReducesTo [0, 1] S_
  h_S_ : 0 < S_.numel
  bcast_S_S27x64x64 : S_.BroadcastsInDim S27x64x64 (![] : Fin 0 → Fin S27x64x64.rank)
  reducesTo_S27x64x64_S_d0_1_2 : S27x64x64.ReducesTo [0, 1, 2] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64 .f32) (main_v13 : IVec S_ 1) (main_v16 : IVec S27x64x64 1) : IVec S_ 1 :=
  let main_c_5 : IVec S_ 1 := constantI S_ 1 1#1
  let main_v17 : IVec S_ 1 := (fun x v => Host.reduce IntOp.andi x v reducesTo_S27x64x64_S_d0_1_2 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S262144x64 .f32) (main_arg1 : FVec F S27x64x64 .f32) (main_arg2 : FVec F S64 .f32) (main_arg3 : FVec F S27x64x64 .f32) (main_arg4 : FVec F S64 .f32) (main_arg5 : IVec S26x65536 32) (main_arg6 : IVec S26x65536 32) : IVec S_ 1 :=
  let main_v0 : FVec F S262144x64 .f32 := Host.absf main_arg0
  let main_cst : FVec F S_ .f32 := constant S_ .f32 0x7F800000#32
  let main_v1 : FVec F S262144x64 .f32 := broadcastInDim S262144x64 ![] bcast_S_S262144x64 main_cst
  let main_v2 : IVec S262144x64 1 := cmpf .olt main_v0 main_v1
  let main_c : IVec S_ 1 := constantI S_ 1 1#1
  let main_v3 : IVec S_ 1 := (fun x v => Host.reduce IntOp.andi x v reducesTo_S262144x64_S_d0_1 h_S_) main_v2 main_c
  let main_v4 : FVec F S27x64x64 .f32 := Host.absf main_arg1
  let main_cst_0 : FVec F S_ .f32 := constant S_ .f32 0x7F800000#32
  let main_v5 : FVec F S27x64x64 .f32 := broadcastInDim S27x64x64 ![] bcast_S_S27x64x64 main_cst_0
  let main_v6 : IVec S27x64x64 1 := cmpf .olt main_v4 main_v5
  let main_c_1 : IVec S_ 1 := constantI S_ 1 1#1
  let main_v7 : IVec S_ 1 := (fun x v => Host.reduce IntOp.andi x v reducesTo_S27x64x64_S_d0_1_2 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S27x64x64 .f32 := Host.absf main_arg3
  let main_cst_4 : FVec F S_ .f32 := constant S_ .f32 0x7F800000#32
  let main_v15 : FVec F S27x64x64 .f32 := broadcastInDim S27x64x64 ![] bcast_S_S27x64x64 main_cst_4
  let main_v16 : IVec S27x64x64 1 := cmpf .olt main_v14 main_v15
  fn_part1 (F := F) main_arg4 main_v13 main_v16
-- ==== Kernel.lean ====
abbrev S262144x64 : Shape := ⟨2, ![262144, 64]⟩
abbrev S27x64x64 : Shape := ⟨3, ![27, 64, 64]⟩
abbrev S64 : Shape := ⟨1, ![64]⟩
abbrev S26x65536 : Shape := ⟨2, ![26, 65536]⟩
abbrev S_ : Shape := ⟨0, ![]⟩
abbrev S1x64 : Shape := ⟨2, ![1, 64]⟩
abbrev S262145x64 : Shape := ⟨2, ![262145, 64]⟩
abbrev S13x64x64 : Shape := ⟨3, ![13, 64, 64]⟩
abbrev S26x64x64 : Shape := ⟨3, ![26, 64, 64]⟩
abbrev S1x64x64 : Shape := ⟨3, ![1, 64, 64]⟩
abbrev S64x64 : Shape := ⟨2, ![64, 64]⟩
abbrev S26x65536x1 : Shape := ⟨3, ![26, 65536, 1]⟩
abbrev S26x65536x64 : Shape := ⟨3, ![26, 65536, 64]⟩
abbrev S1x16384x64 : Shape := ⟨3, ![1, 16384, 64]⟩
abbrev S16384x64 : Shape := ⟨2, ![16384, 64]⟩

abbrev nBuf : Space → Nat
  | .hbm => 92
  | .vmem => 22
  | .smem => 0
  | _ => 0

abbrev bufTy : (tb : Table) → Fin (tcTables nBuf tb) → BufTy
  | .hbm, ⟨0, _⟩ => ⟨S262144x64, .f32⟩
  | .hbm, ⟨1, _⟩ => ⟨S27x64x64, .f32⟩
  | .hbm, ⟨2, _⟩ => ⟨S64, .f32⟩
  | .hbm, ⟨3, _⟩ => ⟨S27x64x64, .f32⟩
  | .hbm, ⟨4, _⟩ => ⟨S64, .f32⟩
  | .hbm, ⟨5, _⟩ => ⟨S26x65536, .i32⟩
  | .hbm, ⟨6, _⟩ => ⟨S26x65536, .i32⟩
  | .hbm, ⟨7, _⟩ => ⟨S_, .f32⟩
  | .hbm, ⟨8, _⟩ => ⟨S1x64, .f32⟩
  | .hbm, ⟨9, _⟩ => ⟨S262145x64, .f32⟩
  | .hbm, ⟨10, _⟩ => ⟨S262145x64, .bf16⟩
  | .hbm, ⟨11, _⟩ => ⟨S13x64x64, .f32⟩
  | .hbm, ⟨12, _⟩ => ⟨S13x64x64, .f32⟩
  | .hbm, ⟨13, _⟩ => ⟨S26x64x64, .f32⟩
  | .hbm, ⟨14, _⟩ => ⟨S26x64x64, .bf16⟩
  | .hbm, ⟨15, _⟩ => ⟨S1x64x64, .f32⟩
  | .hbm, ⟨16, _⟩ => ⟨S64x64, .f32⟩
  | .hbm, ⟨17, _⟩ => ⟨S64x64, .bf16⟩
  | .hbm, ⟨18, _⟩ => ⟨S_, .i32⟩
  | .hbm, ⟨19, _⟩ => ⟨S26x65536, .i32⟩
  | .hbm, ⟨20, _⟩ => ⟨S26x65536, .i1⟩
  | .hbm, ⟨21, _⟩ => ⟨S_, .i32⟩
  | .hbm, ⟨22, _⟩ => ⟨S26x65536, .i32⟩
  | .hbm, ⟨23, _⟩ => ⟨S26x65536, .i32⟩
  | .hbm, ⟨24, _⟩ => ⟨S26x65536, .i32⟩
  | .hbm, ⟨25, _⟩ => ⟨S26x65536x1, .i32⟩
  | .hbm, ⟨26, _⟩ => ⟨S26x65536x64, .bf16⟩
  | .hbm, ⟨27, _⟩ => ⟨S26x65536x64, .f32⟩
  | .hbm, ⟨28, _⟩ => ⟨S262144x64, .bf16⟩
  | .hbm, ⟨29, _⟩ => ⟨S262144x64, .f32⟩
  | .hbm, ⟨30, _⟩ => ⟨S_, .f32⟩
  | .hbm, ⟨31, _⟩ => ⟨S1x64, .f32⟩
  | .hbm, ⟨32, _⟩ => ⟨S262145x64, .f32⟩
  | .hbm, ⟨33, _⟩ => ⟨S_, .i32⟩
  | .hbm, ⟨34, _⟩ => ⟨S26x65536, .i32⟩
  | .hbm, ⟨35, _⟩ => ⟨S26x65536, .i1⟩
  | .hbm, ⟨36, _⟩ => ⟨S_, .i32⟩
  | .hbm, ⟨37, _⟩ => ⟨S26x65536, .i32⟩
  | .hbm, ⟨38, _⟩ => ⟨S26x65536, .i32⟩
  | .hbm, ⟨39, _⟩ => ⟨S26x65536, .i32⟩
  | .hbm, ⟨40, _⟩ => ⟨S26x65536x1, .i32⟩
  | .hbm, ⟨41, _⟩ => ⟨S262145x64, .f32⟩
  | .hbm, ⟨42, _⟩ => ⟨S262144x64, .f32⟩
  | .hbm, ⟨43, _⟩ => ⟨S1x64, .f32⟩
  | .hbm, ⟨44, _⟩ => ⟨S262144x64, .f32⟩
  | .hbm, ⟨45, _⟩ => ⟨S262144x64, .f32⟩
  | .hbm, ⟨46, _⟩ => ⟨S_, .f32⟩
  | .hbm, ⟨47, _⟩ => ⟨S262144x64, .f32⟩
  | .hbm, ⟨48, _⟩ => ⟨S262144x64, .f32⟩
  | .hbm, ⟨49, _⟩ => ⟨S_, .f32⟩
  | .hbm, ⟨50, _⟩ => ⟨S1x64, .f32⟩
  | .hbm, ⟨51, _⟩ => ⟨S262145x64, .f32⟩
  | .hbm, ⟨52, _⟩ => ⟨S262145x64, .bf16⟩
  | .hbm, ⟨53, _⟩ => ⟨S13x64x64, .f32⟩
  | .hbm, ⟨54, _⟩ => ⟨S13x64x64, .f32⟩
  | .hbm, ⟨55, _⟩ => ⟨S26x64x64, .f32⟩
  | .hbm, ⟨56, _⟩ => ⟨S26x64x64, .bf16⟩
  | .hbm, ⟨57, _⟩ => ⟨S1x64x64, .f32⟩
  | .hbm, ⟨58, _⟩ => ⟨S64x64, .f32⟩
  | .hbm, ⟨59, _⟩ => ⟨S64x64, .bf16⟩
  | .hbm, ⟨60, _⟩ => ⟨S_, .i32⟩
  | .hbm, ⟨61, _⟩ => ⟨S26x65536, .i32⟩
  | .hbm, ⟨62, _⟩ => ⟨S26x65536, .i1⟩
  | .hbm, ⟨63, _⟩ => ⟨S_, .i32⟩
  | .hbm, ⟨64, _⟩ => ⟨S26x65536, .i32⟩
  | .hbm, ⟨65, _⟩ => ⟨S26x65536, .i32⟩
  | .hbm, ⟨66, _⟩ => ⟨S26x65536, .i32⟩
  | .hbm, ⟨67, _⟩ => ⟨S26x65536x1, .i32⟩
  | .hbm, ⟨68, _⟩ => ⟨S26x65536x64, .bf16⟩
  | .hbm, ⟨69, _⟩ => ⟨S26x65536x64, .f32⟩
  | .hbm, ⟨70, _⟩ => ⟨S262144x64, .bf16⟩
  | .hbm, ⟨71, _⟩ => ⟨S262144x64, .f32⟩
  | .hbm, ⟨72, _⟩ => ⟨S_, .f32⟩
  | .hbm, ⟨73, _⟩ => ⟨S1x64, .f32⟩
  | .hbm, ⟨74, _⟩ => ⟨S262145x64, .f32⟩
  | .hbm, ⟨75, _⟩ => ⟨S_, .i32⟩
  | .hbm, ⟨76, _⟩ => ⟨S26x65536, .i32⟩
  | .hbm, ⟨77, _⟩ => ⟨S26x65536, .i1⟩
  | .hbm, ⟨78, _⟩ => ⟨S_, .i32⟩
  | .hbm, ⟨79, _⟩ => ⟨S26x65536, .i32⟩
  | .hbm, ⟨80, _⟩ => ⟨S26x65536, .i32⟩
  | .hbm, ⟨81, _⟩ => ⟨S26x65536, .i32⟩
  | .hbm, ⟨82, _⟩ => ⟨S26x65536x1, .i32⟩
  | .hbm, ⟨83, _⟩ => ⟨S262145x64, .f32⟩
  | .hbm, ⟨84, _⟩ => ⟨S262144x64, .f32⟩
  | .hbm, ⟨85, _⟩ => ⟨S1x64, .f32⟩
  | .hbm, ⟨86, _⟩ => ⟨S262144x64, .f32⟩
  | .hbm, ⟨87, _⟩ => ⟨S262144x64, .f32⟩
  | .hbm, ⟨88, _⟩ => ⟨S262144x64, .f32⟩
  | .hbm, ⟨89, _⟩ => ⟨S_, .f32⟩
  | .hbm, ⟨90, _⟩ => ⟨S262144x64, .f32⟩
  | .hbm, ⟨91, _⟩ => ⟨S262144x64, .f32⟩
  | .local _ .vmem, ⟨0, _⟩ => ⟨S1x16384x64, .bf16⟩
  | .local _ .vmem, ⟨1, _⟩ => ⟨S1x16384x64, .bf16⟩
  | .local _ .vmem, ⟨2, _⟩ => ⟨S1x64x64, .bf16⟩
  | .local _ .vmem, ⟨3, _⟩ => ⟨S1x64x64, .bf16⟩
  | .local _ .vmem, ⟨4, _⟩ => ⟨S1x16384x64, .f32⟩
  | .local _ .vmem, ⟨5, _⟩ => ⟨S1x16384x64, .f32⟩
  | .local _ .vmem, ⟨6, _⟩ => ⟨S16384x64, .bf16⟩
  | .local _ .vmem, ⟨7, _⟩ => ⟨S16384x64, .bf16⟩
  | .local _ .vmem, ⟨8, _⟩ => ⟨S64x64, .bf16⟩
  | .local _ .vmem, ⟨9, _⟩ => ⟨S16384x64, .f32⟩
  | .local _ .vmem, ⟨10, _⟩ => ⟨S16384x64, .f32⟩
  | .local _ .vmem, ⟨11, _⟩ => ⟨S1x16384x64, .bf16⟩
  | .local _ .vmem, ⟨12, _⟩ => ⟨S1x16384x64, .bf16⟩
  | .local _ .vmem, ⟨13, _⟩ => ⟨S1x64x64, .bf16⟩
  | .local _ .vmem, ⟨14, _⟩ => ⟨S1x64x64, .bf16⟩
  | .local _ .vmem, ⟨15, _⟩ => ⟨S1x16384x64, .f32⟩
  | .local _ .vmem, ⟨16, _⟩ => ⟨S1x16384x64, .f32⟩
  | .local _ .vmem, ⟨17, _⟩ => ⟨S16384x64, .bf16⟩
  | .local _ .vmem, ⟨18, _⟩ => ⟨S16384x64, .bf16⟩
  | .local _ .vmem, ⟨19, _⟩ => ⟨S64x64, .bf16⟩
  | .local _ .vmem, ⟨20, _⟩ => ⟨S16384x64, .f32⟩
  | .local _ .vmem, ⟨21, _⟩ => ⟨S16384x64, .f32⟩
  | _, _ => ⟨S262144x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c : Ref sig .tc := ⟨.hbm, 18, rfl⟩
abbrev main_v10 : Ref sig .tc := ⟨.hbm, 19, rfl⟩
abbrev main_v11 : Ref sig .tc := ⟨.hbm, 20, rfl⟩
abbrev main_c_0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_1 : Ref sig .tc := ⟨.hbm, 30, rfl⟩
abbrev main_v20 : Ref sig .tc := ⟨.hbm, 31, rfl⟩
abbrev main_v21 : Ref sig .tc := ⟨.hbm, 32, rfl⟩
abbrev main_c_2 : Ref sig .tc := ⟨.hbm, 33, rfl⟩
abbrev main_v22 : Ref sig .tc := ⟨.hbm, 34, rfl⟩
abbrev main_v23 : Ref sig .tc := ⟨.hbm, 35, rfl⟩
abbrev main_c_3 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_call0_cst : Ref sig .tc := ⟨.hbm, 46, rfl⟩
abbrev main_call0_v0 : Ref sig .tc := ⟨.hbm, 47, rfl⟩
abbrev main_v33 : Ref sig .tc := ⟨.hbm, 48, rfl⟩
abbrev main_cst_4 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_c_5 : Ref sig .tc := ⟨.hbm, 60, rfl⟩
abbrev main_v44 : Ref sig .tc := ⟨.hbm, 61, rfl⟩
abbrev main_v45 : Ref sig .tc := ⟨.hbm, 62, rfl⟩
abbrev main_c_6 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_cst_7 : Ref sig .tc := ⟨.hbm, 72, rfl⟩
abbrev main_v54 : Ref sig .tc := ⟨.hbm, 73, rfl⟩
abbrev main_v55 : Ref sig .tc := ⟨.hbm, 74, rfl⟩
abbrev main_c_8 : Ref sig .tc := ⟨.hbm, 75, rfl⟩
abbrev main_v56 : Ref sig .tc := ⟨.hbm, 76, rfl⟩
abbrev main_v57 : Ref sig .tc := ⟨.hbm, 77, rfl⟩
abbrev main_c_9 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_call1_cst : Ref sig .tc := ⟨.hbm, 89, rfl⟩
abbrev main_call1_v0 : Ref sig .tc := ⟨.hbm, 90, rfl⟩
abbrev main_v68 : Ref sig .tc := ⟨.hbm, 91, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg1_1 : Ref sig .tc := ⟨.vmem, 14, rfl⟩
abbrev cc2_stg2_0 : Ref sig .tc := ⟨.vmem, 15, rfl⟩
abbrev cc2_stg2_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg2_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem1_1 : DmaSem sig := 14
abbrev cc2_sem2_0 : DmaSem sig := 15
abbrev cc2_sem2_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem2_1 : DmaSem sig := 21

abbrev nD : Nat := 1
abbrev τ : Topo := Topo.v7x

variable {F : FTy → Type} [FloatOps F]

abbrev grid0 : Pipeline.Grid := ⟨2, ![26, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x16384x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x16384x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S16384x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S16384x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨2, ![26, 4], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S1x16384x64 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x64x64 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S1x16384x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev grid3 : Pipeline.Grid := ⟨1, ![16], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S16384x64 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x64 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S16384x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  bcast_S_S1x64 : S_.BroadcastsInDim S1x64 (![] : Fin 0 → Fin S1x64.rank)
  concatenates_S262144x64_S1x64_S262145x64_d0 : Shape.Concatenates [S262144x64, S1x64] S262145x64 0
  bitsLt_bf16_f32 : FTy.bits .bf16 < FTy.bits .f32
  slices_S27x64x64_S13x64x64_0_0_0 : S27x64x64.Slices ![0, 0, 0] S13x64x64
  slices_S27x64x64_S13x64x64_14_0_0 : S27x64x64.Slices ![14, 0, 0] S13x64x64
  concatenates_S13x64x64_S13x64x64_S26x64x64_d0 : Shape.Concatenates [S13x64x64, S13x64x64] S26x64x64 0
  slices_S27x64x64_S1x64x64_13_0_0 : S27x64x64.Slices ![13, 0, 0] S1x64x64
  shapeCasts_S1x64x64_S64x64 : S1x64x64.ShapeCasts S64x64
  bcast_S_S26x65536 : S_.BroadcastsInDim S26x65536 (![] : Fin 0 → Fin S26x65536.rank)
  bcast_S26x65536_S26x65536x1_0_1 : S26x65536.BroadcastsInDim S26x65536x1 (![0, 1] : Fin 2 → Fin S26x65536x1.rank)
  inb_S1x16384x64_S1x16384x64_0_0_0 : ∀ a, (![0, 0, 0] : Fin 3 → Nat) a + S1x16384x64.size a ≤ S1x16384x64.size a
  h_S1x16384x64 : 0 < S1x16384x64.numel
  shapeCasts_S1x16384x64_S16384x64 : S1x16384x64.ShapeCasts S16384x64
  inb_S1x64x64_S1x64x64_0_0_0 : ∀ a, (![0, 0, 0] : Fin 3 → Nat) a + S1x64x64.size a ≤ S1x64x64.size a
  h_S1x64x64 : 0 < S1x64x64.numel
  shapeCasts_S16384x64_S1x16384x64 : S16384x64.ShapeCasts S1x16384x64
  inb_S16384x64_S16384x64_0_0 : ∀ a, (![0, 0] : Fin 2 → Nat) a + S16384x64.size a ≤ S16384x64.size a
  h_S16384x64 : 0 < S16384x64.numel
  shapeCasts_S16384x64_S16384x64 : S16384x64.ShapeCasts S16384x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  slices_S262145x64_S262144x64_0_0 : S262145x64.Slices ![0, 0] S262144x64
  bcast_S64_S1x64_1 : S64.BroadcastsInDim S1x64 (![1] : Fin 1 → Fin S1x64.rank)
  bcast_S1x64_S262144x64_0_1 : S1x64.BroadcastsInDim S262144x64 (![0, 1] : Fin 2 → Fin S262144x64.rank)
  bcast_S_S262144x64 : S_.BroadcastsInDim S262144x64 (![] : Fin 0 → Fin S262144x64.rank)
  gather_S262145x64_S26x65536x1_S26x65536x64_2_0_n_n_0_2_164_wf : GatherDims.WF S262145x64 S26x65536x1 S26x65536x64 [2] [0] [] [0] [] 2 ![1, 64]
  dot_S16384x64_S64x64_S16384x64_1_0_0_1_n_n_wf : DotDims.WF S16384x64 S64x64 S16384x64 [1] [0] [0] [1] [] []
  scatter_S262145x64_S26x65536x1_S26x65536x64_2_0_0_2_wf : ScatterDims.WF S262145x64 S26x65536x1 S26x65536x64 [2] [0] [0] 2
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x16384x64.size a ≤ S26x65536x64.size a
  hwx0_0 : ∀ i : grid0.Coords, EltTy.bits .bf16 = 32 ∨ (Rect.block (s := S26x65536x64) S1x16384x64.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x64.size a ≤ S26x64x64.size a
  hwx0_1 : ∀ i : grid0.Coords, EltTy.bits .bf16 = 32 ∨ (Rect.block (s := S26x64x64) S1x64x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x16384x64.size a ≤ S26x65536x64.size a
  hwx0_2 : ∀ i : grid0.Coords, EltTy.bits .f32 = 32 ∨ (Rect.block (s := S26x65536x64) S1x16384x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S16384x64.size a ≤ S262144x64.size a
  hwx1_0 : ∀ i : grid1.Coords, EltTy.bits .bf16 = 32 ∨ (Rect.block (s := S262144x64) S16384x64.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .bf16 = 32 ∨ (Rect.block (s := S64x64) S64x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S16384x64.size a ≤ S262144x64.size a
  hwx1_2 : ∀ i : grid1.Coords, EltTy.bits .f32 = 32 ∨ (Rect.block (s := S262144x64) S16384x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x16384x64.size a ≤ S26x65536x64.size a
  hwx2_0 : ∀ i : grid2.Coords, EltTy.bits .bf16 = 32 ∨ (Rect.block (s := S26x65536x64) S1x16384x64.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x64x64.size a ≤ S26x64x64.size a
  hwx2_1 : ∀ i : grid2.Coords, EltTy.bits .bf16 = 32 ∨ (Rect.block (s := S26x64x64) S1x64x64.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x16384x64.size a ≤ S26x65536x64.size a
  hwx2_2 : ∀ i : grid2.Coords, EltTy.bits .f32 = 32 ∨ (Rect.block (s := S26x65536x64) S1x16384x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S16384x64.size a ≤ S262144x64.size a
  hwx3_0 : ∀ i : grid3.Coords, EltTy.bits .bf16 = 32 ∨ (Rect.block (s := S262144x64) S16384x64.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x64.size a ≤ S64x64.size a
  hwx3_1 : ∀ i : grid3.Coords, EltTy.bits .bf16 = 32 ∨ (Rect.block (s := S64x64) S64x64.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S16384x64.size a ≤ S262144x64.size a
  hwx3_2 : ∀ i : grid3.Coords, EltTy.bits .f32 = 32 ∨ (Rect.block (s := S262144x64) S16384x64.size (cc3_transform_2 i) (hinb3_2 i)).WholeWords (EltTy.packing .f32)

variable [Facts₀]

def gather_S262145x64_S26x65536x1_S26x65536x64_2_0_n_n_0_2_164 : GatherDims S262145x64 S26x65536x1 S26x65536x64 where
  offsetDims := [2]
  collapsedSliceDims := [0]
  operandBatchingDims := []
  startIndicesBatchingDims := []
  startIndexMap := [0]
  indexVectorDim := 2
  sliceSizes := ![1, 64]
  wf := gather_S262145x64_S26x65536x1_S26x65536x64_2_0_n_n_0_2_164_wf
def dot_S16384x64_S64x64_S16384x64_1_0_0_1_n_n : DotDims S16384x64 S64x64 S16384x64 where
  lhsContracting := [1]
  rhsContracting := [0]
  lhsNonContracting := [0]
  rhsNonContracting := [1]
  lhsBatch := []
  rhsBatch := []
  wf := dot_S16384x64_S64x64_S16384x64_1_0_0_1_n_n_wf
def scatter_S262145x64_S26x65536x1_S26x65536x64_2_0_0_2 : ScatterDims S262145x64 S26x65536x1 S26x65536x64 where
  updateWindowDims := [2]
  insertedWindowDims := [0]
  scatterDimsToOperandDims := [0]
  indexVectorDim := 2
  wf := scatter_S262145x64_S26x65536x1_S26x65536x64_2_0_0_2_wf

abbrev win0_0 : Pipeline.Window sig grid0 :=
  Pipeline.Window.ofSpec (Memref.whole main_v16) S1x16384x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S1x64x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v17) S1x16384x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v18) S16384x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v9) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v19) S16384x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v50) S1x16384x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v40) S1x64x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v51) S1x16384x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v52) S16384x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v43) S64x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v53) S16384x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S262144x64 : Shape := ⟨2, ![262144, 64]⟩
abbrev S27x64x64 : Shape := ⟨3, ![27, 64, 64]⟩
abbrev S64 : Shape := ⟨1, ![64]⟩
abbrev S26x65536 : Shape := ⟨2, ![26, 65536]⟩
abbrev S_ : Shape := ⟨0, ![]⟩
abbrev S1x64 : Shape := ⟨2, ![1, 64]⟩
abbrev S262145x64 : Shape := ⟨2, ![262145, 64]⟩
abbrev S13x64x64 : Shape := ⟨3, ![13, 64, 64]⟩
abbrev S26x64x64 : Shape := ⟨3, ![26, 64, 64]⟩
abbrev S26x65536x1 : Shape := ⟨3, ![26, 65536, 1]⟩
abbrev S26x65536x64 : Shape := ⟨3, ![26, 65536, 64]⟩
abbrev S1x64x64 : Shape := ⟨3, ![1, 64, 64]⟩
abbrev S64x64 : Shape := ⟨2, ![64, 64]⟩

abbrev nBuf : Space → Nat
  | .hbm => 84
  | .vmem => 0
  | .smem => 0
  | _ => 0

abbrev bufTy : (tb : Table) → Fin (tcTables nBuf tb) → BufTy
  | .hbm, ⟨0, _⟩ => ⟨S262144x64, .f32⟩
  | .hbm, ⟨1, _⟩ => ⟨S27x64x64, .f32⟩
  | .hbm, ⟨2, _⟩ => ⟨S64, .f32⟩
  | .hbm, ⟨3, _⟩ => ⟨S27x64x64, .f32⟩
  | .hbm, ⟨4, _⟩ => ⟨S64, .f32⟩
  | .hbm, ⟨5, _⟩ => ⟨S26x65536, .i32⟩
  | .hbm, ⟨6, _⟩ => ⟨S26x65536, .i32⟩
  | .hbm, ⟨7, _⟩ => ⟨S_, .f32⟩
  | .hbm, ⟨8, _⟩ => ⟨S1x64, .f32⟩
  | .hbm, ⟨9, _⟩ => ⟨S262145x64, .f32⟩
  | .hbm, ⟨10, _⟩ => ⟨S13x64x64, .f32⟩
  | .hbm, ⟨11, _⟩ => ⟨S13x64x64, .f32⟩
  | .hbm, ⟨12, _⟩ => ⟨S26x64x64, .f32⟩
  | .hbm, ⟨13, _⟩ => ⟨S_, .i32⟩
  | .hbm, ⟨14, _⟩ => ⟨S26x65536, .i32⟩
  | .hbm, ⟨15, _⟩ => ⟨S26x65536, .i1⟩
  | .hbm, ⟨16, _⟩ => ⟨S_, .i32⟩
  | .hbm, ⟨17, _⟩ => ⟨S26x65536, .i32⟩
  | .hbm, ⟨18, _⟩ => ⟨S26x65536, .i32⟩
  | .hbm, ⟨19, _⟩ => ⟨S26x65536, .i32⟩
  | .hbm, ⟨20, _⟩ => ⟨S26x65536x1, .i32⟩
  | .hbm, ⟨21, _⟩ => ⟨S26x65536x64, .f32⟩
  | .hbm, ⟨22, _⟩ => ⟨S26x65536x64, .f32⟩
  | .hbm, ⟨23, _⟩ => ⟨S1x64x64, .f32⟩
  | .hbm, ⟨24, _⟩ => ⟨S64x64, .f32⟩
  | .hbm, ⟨25, _⟩ => ⟨S262144x64, .f32⟩
  | .hbm, ⟨26, _⟩ => ⟨S_, .f32⟩
  | .hbm, ⟨27, _⟩ => ⟨S1x64, .f32⟩
  | .hbm, ⟨28, _⟩ => ⟨S262145x64, .f32⟩
  | .hbm, ⟨29, _⟩ => ⟨S_, .i32⟩
  | .hbm, ⟨30, _⟩ => ⟨S26x65536, .i32⟩
  | .hbm, ⟨31, _⟩ => ⟨S26x65536, .i1⟩
  | .hbm, ⟨32, _⟩ => ⟨S_, .i32⟩
  | .hbm, ⟨33, _⟩ => ⟨S26x65536, .i32⟩
  | .hbm, ⟨34, _⟩ => ⟨S26x65536, .i32⟩
  | .hbm, ⟨35, _⟩ => ⟨S26x65536, .i32⟩
  | .hbm, ⟨36, _⟩ => ⟨S26x65536x1, .i32⟩
  | .hbm, ⟨37, _⟩ => ⟨S262145x64, .f32⟩
  | .hbm, ⟨38, _⟩ => ⟨S262144x64, .f32⟩
  | .hbm, ⟨39, _⟩ => ⟨S1x64, .f32⟩
  | .hbm, ⟨40, _⟩ => ⟨S262144x64, .f32⟩
  | .hbm, ⟨41, _⟩ => ⟨S262144x64, .f32⟩
  | .hbm, ⟨42, _⟩ => ⟨S_, .f32⟩
  | .hbm, ⟨43, _⟩ => ⟨S262144x64, .f32⟩
  | .hbm, ⟨44, _⟩ => ⟨S262144x64, .f32⟩
  | .hbm, ⟨45, _⟩ => ⟨S_, .f32⟩
  | .hbm, ⟨46, _⟩ => ⟨S1x64, .f32⟩
  | .hbm, ⟨47, _⟩ => ⟨S262145x64, .f32⟩
  | .hbm, ⟨48, _⟩ => ⟨S13x64x64, .f32⟩
  | .hbm, ⟨49, _⟩ => ⟨S13x64x64, .f32⟩
  | .hbm, ⟨50, _⟩ => ⟨S26x64x64, .f32⟩
  | .hbm, ⟨51, _⟩ => ⟨S_, .i32⟩
  | .hbm, ⟨52, _⟩ => ⟨S26x65536, .i32⟩
  | .hbm, ⟨53, _⟩ => ⟨S26x65536, .i1⟩
  | .hbm, ⟨54, _⟩ => ⟨S_, .i32⟩
  | .hbm, ⟨55, _⟩ => ⟨S26x65536, .i32⟩
  | .hbm, ⟨56, _⟩ => ⟨S26x65536, .i32⟩
  | .hbm, ⟨57, _⟩ => ⟨S26x65536, .i32⟩
  | .hbm, ⟨58, _⟩ => ⟨S26x65536x1, .i32⟩
  | .hbm, ⟨59, _⟩ => ⟨S26x65536x64, .f32⟩
  | .hbm, ⟨60, _⟩ => ⟨S26x65536x64, .f32⟩
  | .hbm, ⟨61, _⟩ => ⟨S1x64x64, .f32⟩
  | .hbm, ⟨62, _⟩ => ⟨S64x64, .f32⟩
  | .hbm, ⟨63, _⟩ => ⟨S262144x64, .f32⟩
  | .hbm, ⟨64, _⟩ => ⟨S_, .f32⟩
  | .hbm, ⟨65, _⟩ => ⟨S1x64, .f32⟩
  | .hbm, ⟨66, _⟩ => ⟨S262145x64, .f32⟩
  | .hbm, ⟨67, _⟩ => ⟨S_, .i32⟩
  | .hbm, ⟨68, _⟩ => ⟨S26x65536, .i32⟩
  | .hbm, ⟨69, _⟩ => ⟨S26x65536, .i1⟩
  | .hbm, ⟨70, _⟩ => ⟨S_, .i32⟩
  | .hbm, ⟨71, _⟩ => ⟨S26x65536, .i32⟩
  | .hbm, ⟨72, _⟩ => ⟨S26x65536, .i32⟩
  | .hbm, ⟨73, _⟩ => ⟨S26x65536, .i32⟩
  | .hbm, ⟨74, _⟩ => ⟨S26x65536x1, .i32⟩
  | .hbm, ⟨75, _⟩ => ⟨S262145x64, .f32⟩
  | .hbm, ⟨76, _⟩ => ⟨S262144x64, .f32⟩
  | .hbm, ⟨77, _⟩ => ⟨S1x64, .f32⟩
  | .hbm, ⟨78, _⟩ => ⟨S262144x64, .f32⟩
  | .hbm, ⟨79, _⟩ => ⟨S262144x64, .f32⟩
  | .hbm, ⟨80, _⟩ => ⟨S262144x64, .f32⟩
  | .hbm, ⟨81, _⟩ => ⟨S_, .f32⟩
  | .hbm, ⟨82, _⟩ => ⟨S262144x64, .f32⟩
  | .hbm, ⟨83, _⟩ => ⟨S262144x64, .f32⟩
  | _, _ => ⟨S262144x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c : Ref sig .tc := ⟨.hbm, 13, rfl⟩
abbrev main_v5 : Ref sig .tc := ⟨.hbm, 14, rfl⟩
abbrev main_v6 : Ref sig .tc := ⟨.hbm, 15, rfl⟩
abbrev main_c_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_1 : Ref sig .tc := ⟨.hbm, 26, rfl⟩
abbrev main_v16 : Ref sig .tc := ⟨.hbm, 27, rfl⟩
abbrev main_v17 : Ref sig .tc := ⟨.hbm, 28, rfl⟩
abbrev main_c_2 : Ref sig .tc := ⟨.hbm, 29, rfl⟩
abbrev main_v18 : Ref sig .tc := ⟨.hbm, 30, rfl⟩
abbrev main_v19 : Ref sig .tc := ⟨.hbm, 31, rfl⟩
abbrev main_c_3 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_call0_cst : Ref sig .tc := ⟨.hbm, 42, rfl⟩
abbrev main_call0_v0 : Ref sig .tc := ⟨.hbm, 43, rfl⟩
abbrev main_v29 : Ref sig .tc := ⟨.hbm, 44, rfl⟩
abbrev main_cst_4 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_c_5 : Ref sig .tc := ⟨.hbm, 51, rfl⟩
abbrev main_v35 : Ref sig .tc := ⟨.hbm, 52, rfl⟩
abbrev main_v36 : Ref sig .tc := ⟨.hbm, 53, rfl⟩
abbrev main_c_6 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_7 : Ref sig .tc := ⟨.hbm, 64, rfl⟩
abbrev main_v46 : Ref sig .tc := ⟨.hbm, 65, rfl⟩
abbrev main_v47 : Ref sig .tc := ⟨.hbm, 66, rfl⟩
abbrev main_c_8 : Ref sig .tc := ⟨.hbm, 67, rfl⟩
abbrev main_v48 : Ref sig .tc := ⟨.hbm, 68, rfl⟩
abbrev main_v49 : Ref sig .tc := ⟨.hbm, 69, rfl⟩
abbrev main_c_9 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_call1_cst : Ref sig .tc := ⟨.hbm, 81, rfl⟩
abbrev main_call1_v0 : Ref sig .tc := ⟨.hbm, 82, rfl⟩
abbrev main_v60 : Ref sig .tc := ⟨.hbm, 83, rfl⟩

abbrev nD : Nat := 1
abbrev τ : Topo := Topo.v7x

variable {F : FTy → Type} [FloatOps F]

class Facts₀ : Prop where
  bcast_S_S1x64 : S_.BroadcastsInDim S1x64 (![] : Fin 0 → Fin S1x64.rank)
  concatenates_S262144x64_S1x64_S262145x64_d0 : Shape.Concatenates [S262144x64, S1x64] S262145x64 0
  slices_S27x64x64_S13x64x64_0_0_0 : S27x64x64.Slices ![0, 0, 0] S13x64x64
  slices_S27x64x64_S13x64x64_14_0_0 : S27x64x64.Slices ![14, 0, 0] S13x64x64
  concatenates_S13x64x64_S13x64x64_S26x64x64_d0 : Shape.Concatenates [S13x64x64, S13x64x64] S26x64x64 0
  bcast_S_S26x65536 : S_.BroadcastsInDim S26x65536 (![] : Fin 0 → Fin S26x65536.rank)
  bcast_S26x65536_S26x65536x1_0_1 : S26x65536.BroadcastsInDim S26x65536x1 (![0, 1] : Fin 2 → Fin S26x65536x1.rank)
  slices_S27x64x64_S1x64x64_13_0_0 : S27x64x64.Slices ![13, 0, 0] S1x64x64
  shapeCasts_S1x64x64_S64x64 : S1x64x64.ShapeCasts S64x64
  slices_S262145x64_S262144x64_0_0 : S262145x64.Slices ![0, 0] S262144x64
  bcast_S64_S1x64_1 : S64.BroadcastsInDim S1x64 (![1] : Fin 1 → Fin S1x64.rank)
  bcast_S1x64_S262144x64_0_1 : S1x64.BroadcastsInDim S262144x64 (![0, 1] : Fin 2 → Fin S262144x64.rank)
  bcast_S_S262144x64 : S_.BroadcastsInDim S262144x64 (![] : Fin 0 → Fin S262144x64.rank)
  gather_S262145x64_S26x65536x1_S26x65536x64_2_0_n_n_0_2_164_wf : GatherDims.WF S262145x64 S26x65536x1 S26x65536x64 [2] [0] [] [0] [] 2 ![1, 64]
  dot_S26x65536x64_S26x64x64_S26x65536x64_2_1_1_2_0_0_wf : DotDims.WF S26x65536x64 S26x64x64 S26x65536x64 [2] [1] [1] [2] [0] [0]
  dot_S262144x64_S64x64_S262144x64_1_0_0_1_n_n_wf : DotDims.WF S262144x64 S64x64 S262144x64 [1] [0] [0] [1] [] []
  scatter_S262145x64_S26x65536x1_S26x65536x64_2_0_0_2_wf : ScatterDims.WF S262145x64 S26x65536x1 S26x65536x64 [2] [0] [0] 2

variable [Facts₀]

def gather_S262145x64_S26x65536x1_S26x65536x64_2_0_n_n_0_2_164 : GatherDims S262145x64 S26x65536x1 S26x65536x64 where
  offsetDims := [2]
  collapsedSliceDims := [0]
  operandBatchingDims := []
  startIndicesBatchingDims := []
  startIndexMap := [0]
  indexVectorDim := 2
  sliceSizes := ![1, 64]
  wf := gather_S262145x64_S26x65536x1_S26x65536x64_2_0_n_n_0_2_164_wf
def dot_S26x65536x64_S26x64x64_S26x65536x64_2_1_1_2_0_0 : DotDims S26x65536x64 S26x64x64 S26x65536x64 where
  lhsContracting := [2]
  rhsContracting := [1]
  lhsNonContracting := [1]
  rhsNonContracting := [2]
  lhsBatch := [0]
  rhsBatch := [0]
  wf := dot_S26x65536x64_S26x64x64_S26x65536x64_2_1_1_2_0_0_wf
def dot_S262144x64_S64x64_S262144x64_1_0_0_1_n_n : DotDims S262144x64 S64x64 S262144x64 where
  lhsContracting := [1]
  rhsContracting := [0]
  lhsNonContracting := [0]
  rhsNonContracting := [1]
  lhsBatch := []
  rhsBatch := []
  wf := dot_S262144x64_S64x64_S262144x64_1_0_0_1_n_n_wf
def scatter_S262145x64_S26x65536x1_S26x65536x64_2_0_0_2 : ScatterDims S262145x64 S26x65536x1 S26x65536x64 where
  updateWindowDims := [2]
  insertedWindowDims := [0]
  scatterDimsToOperandDims := [0]
  indexVectorDim := 2
  wf := scatter_S262145x64_S26x65536x1_S26x65536x64_2_0_0_2_wf

class Facts : Prop extends Facts₀ where

variable [Facts]
-- ==== Proof.KernelRun.lean ====
/-
  The idealized kernel's whole run with its result named.

  The program is four pipelined matrix-product regions among stretches of host operations. Its buffers' contents at
  each boundary between a stretch and a region form a fold from the launch memory: a stretch applies its operations
  in order, a region leaves each of its arrays at what its write-backs leave and every other buffer as it was. Every
  weakly fair execution terminates, nothing faulting, with every unscoped buffer at the last boundary's contents; read
  at the result buffer that is the statement below, and at the argument buffers the arguments are as launched.
-/
import proofs.«168265_j19971597926625_1_alg».proof.Proof.Gen.KernelIdeal.Frame

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates with the result buffer at the last boundary's contents and the argument
    arrays as launched. -/
theorem run : θ_run defs (onTc (τ := τ) (main (F := F))) ⟨m, fun _ => 0, ρ⟩ (fun r => ∀ c : Dev nD,
      r.2.mem ((c.tc : Thread nD τ).loc main_v68) = W12 m ρ c (Proc.devRef .tc main_v68)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v68 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c)⟩)

end Cert.KernelIdeal.Result

end
-- ==== Proof.LibPlainDot.lean ====
/-
  A plain matrix product read at an index.

  The dimension numbers of an [a, c] × [c, b] → [a, b] product contract the left operand's axis 1 with the right
  operand's axis 0 and have no batch axis. At result index (p, q) and contraction position k the left operand is
  read at (p, k) and the right operand at (k, q), so the sum over the contraction shape's one-axis index set is the
  sum over k : Fin c of lhs (p, k) * rhs (k, q) — in any commutative additive monoid with a product, the extended
  reals included. The statement is over variable extents; a printed record with these six lists is this one by
  reflexivity.
-/
import Idealize.ShloMosaic.Lib.ValueIdx
import Idealize.ShloMosaic.PureOps.Ideal.Laws

noncomputable section

namespace Cert.Lib.PlainDot

open Idealize.ShloMosaic Idealize.ShloMosaic.ValueIdx
open scoped BigOperators

variable {a c b : Nat}

/-- The dimension numbers of the plain product [a, c] × [c, b] → [a, b]. -/
abbrev dims (wf : DotDims.WF ⟨2, ![a, c]⟩ ⟨2, ![c, b]⟩ ⟨2, ![a, b]⟩ [1] [0] [0] [1] [] []) :
    DotDims ⟨2, ![a, c]⟩ ⟨2, ![c, b]⟩ ⟨2, ![a, b]⟩ where
  lhsContracting := [1]
  rhsContracting := [0]
  lhsNonContracting := [0]
  rhsNonContracting := [1]
  lhsBatch := []
  rhsBatch := []
  wf := wf

variable (wf : DotDims.WF ⟨2, ![a, c]⟩ ⟨2, ![c, b]⟩ ⟨2, ![a, b]⟩ [1] [0] [0] [1] [] [])

/-- The left operand's row is the result's row. -/
theorem lhs_row (i : (⟨2, ![a, b]⟩ : Shape).Idx) (k : (dims wf).contr.Idx) :
    ((dims wf).lhsIdx i k 0).val = (i 0).val := by
  unfold DotDims.lhsIdx
  rw [dif_neg (show ¬(0 : Fin 2) ∈ (dims wf).lhsBatch from List.not_mem_nil),
    dif_pos (show (0 : Fin 2) ∈ (dims wf).lhsNonContracting from List.mem_singleton.mpr rfl)]
  rfl

/-- The left operand's column is the contraction position. -/
theorem lhs_col (i : (⟨2, ![a, b]⟩ : Shape).Idx) (k : (dims wf).contr.Idx) :
    ((dims wf).lhsIdx i k 1).val = (k ⟨0, Nat.one_pos⟩).val :=
  (dims wf).lhsIdx_val_of_single rfl i k

/-- The right operand's row is the contraction position. -/
theorem rhs_row (i : (⟨2, ![a, b]⟩ : Shape).Idx) (k : (dims wf).contr.Idx) :
    ((dims wf).rhsIdx i k 0).val = (k ⟨0, Nat.one_pos⟩).val :=
  (dims wf).rhsIdx_val_of_single rfl i k

/-- The right operand's column is the result's column. -/
theorem rhs_col (i : (⟨2, ![a, b]⟩ : Shape).Idx) (k : (dims wf).contr.Idx) :
    ((dims wf).rhsIdx i k 1).val = (i 1).val := by
  unfold DotDims.rhsIdx
  rw [dif_neg (show ¬(1 : Fin 2) ∈ (dims wf).rhsBatch from List.not_mem_nil),
    dif_pos (show (1 : Fin 2) ∈ (dims wf).rhsNonContracting from List.mem_singleton.mpr rfl)]
  rfl

/-- The product's sum at (p, q): over k, the left operand at (p, k) times the right operand at (k, q). -/
theorem sum_apply {M : Type*} [AddCommMonoid M] [Mul M] (lhs : (⟨2, ![a, c]⟩ : Shape).Idx → M)
    (rhs : (⟨2, ![c, b]⟩ : Shape).Idx → M) (p : Fin a) (q : Fin b) :
    ∑ k : (dims wf).contr.Idx, lhs ((dims wf).lhsIdx (ix2 p q) k) * rhs ((dims wf).rhsIdx (ix2 p q) k)
      = ∑ k : Fin c, lhs (ix2 p k) * rhs (ix2 k q) := by
  rw [← Equiv.sum_comp (contrEquiv1 (dims wf) c rfl rfl).symm]
  refine Finset.sum_congr rfl fun k _ => ?_
  have hk := contrEquiv1_symm_val (dims wf) c rfl rfl k
  have el : (dims wf).lhsIdx (ix2 p q) ((contrEquiv1 (dims wf) c rfl rfl).symm k) = ix2 p k :=
    funext fun ax => Fin.ext (by
      match ax with
      | ⟨0, _⟩ => exact lhs_row wf _ _
      | ⟨1, _⟩ => exact (lhs_col wf _ _).trans hk)
  have er : (dims wf).rhsIdx (ix2 p q) ((contrEquiv1 (dims wf) c rfl rfl).symm k) = ix2 k q :=
    funext fun ax => Fin.ext (by
      match ax with
      | ⟨0, _⟩ => exact (rhs_row wf _ _).trans hk
      | ⟨1, _⟩ => exact rhs_col wf _ _)
  rw [el, er]

/-- A kernel's product into a zero accumulator, at the exact values, read at (p, q). -/
theorem matmul_zero_apply {φ₁ φ₂ : FTy} (prec : Option ContractPrecision) (lhs : FVec Ideal ⟨2, ![a, c]⟩ φ₁)
    (rhs : FVec Ideal ⟨2, ![c, b]⟩ φ₂) (p : Fin a) (q : Fin b) :
    matmul (dims wf) prec lhs rhs (constant ⟨2, ![a, b]⟩ .f32 0x00000000#32) (ix2 p q)
      = ∑ k : Fin c, lhs (ix2 p k) * rhs (ix2 k q) :=
  (Ideal.matmul_constant_zero_apply (dims wf) prec lhs rhs (ix2 p q)).trans (sum_apply wf lhs rhs p q)

/-- The host's product, at the exact values, read at (p, q). -/
theorem dotGeneral_apply {φ₁ φ₂ : FTy} (prec : Option ContractPrecision) (lhs : FVec Ideal ⟨2, ![a, c]⟩ φ₁)
    (rhs : FVec Ideal ⟨2, ![c, b]⟩ φ₂) (p : Fin a) (q : Fin b) :
    Host.dotGeneral (dims wf) prec lhs rhs (ix2 p q) = ∑ k : Fin c, lhs (ix2 p k) * rhs (ix2 k q) :=
  (Ideal.dotGeneral_apply (dims wf) prec _ lhs rhs (ix2 p q)).trans (sum_apply wf lhs rhs p q)

end Cert.Lib.PlainDot

end
-- ==== Proof.Products.lean ====
/-
  The two matrix products of a sparse convolution layer, as whole arrays over the extended reals.

  The centre offset multiplies every voxel's feature row by one 64 × 64 matrix: entry (n, d) of the result is the
  sum over the channel k of x (n, k) · w (k, d). An off-centre offset o multiplies the rows gathered for it by its own
  matrix: entry (o, m, d) is the sum over k of g (o, m, k) · w (o, k, d). Both are finite sums of products, so they
  are defined for every extended-real input, infinite ones included; nothing here uses finiteness.
-/
import Idealize.ShloMosaic.Lib.ValueIdx
import Idealize.ShloMosaic.PureOps.Ideal.Laws
import proofs.«168265_j19971597926625_1_alg».proof.Proof.LibPlainDot

noncomputable section

namespace Cert.SparseConv

open Idealize.ShloMosaic Idealize.ShloMosaic.ValueIdx
open scoped BigOperators

/-- The centre product: row n of x against the matrix w. -/
def centreProd (x : (⟨2, ![262144, 64]⟩ : Shape).Idx → EReal) (w : (⟨2, ![64, 64]⟩ : Shape).Idx → EReal) :
    (⟨2, ![262144, 64]⟩ : Shape).Idx → EReal :=
  fun i => ∑ k : Fin 64, x (ix2 (i 0) k) * w (ix2 k (i 1))

theorem centreProd_apply (x : (⟨2, ![262144, 64]⟩ : Shape).Idx → EReal) (w : (⟨2, ![64, 64]⟩ : Shape).Idx → EReal)
    (p : Fin 262144) (q : Fin 64) : centreProd x w (ix2 p q) = ∑ k : Fin 64, x (ix2 p k) * w (ix2 k q) := rfl

/-- The off-centre products: for offset o, row m of g's slab o against w's matrix o. -/
def offsetProd (g : (⟨3, ![26, 65536, 64]⟩ : Shape).Idx → EReal) (w : (⟨3, ![26, 64, 64]⟩ : Shape).Idx → EReal) :
    (⟨3, ![26, 65536, 64]⟩ : Shape).Idx → EReal :=
  fun i => ∑ k : Fin 64, g (ix3 (i 0) (i 1) k) * w (ix3 (i 0) k (i 2))

theorem offsetProd_apply (g : (⟨3, ![26, 65536, 64]⟩ : Shape).Idx → EReal) (w : (⟨3, ![26, 64, 64]⟩ : Shape).Idx → EReal)
    (o : Fin 26) (r : Fin 65536) (d : Fin 64) :
    offsetProd g w (ix3 o r d) = ∑ k : Fin 64, g (ix3 o r k) * w (ix3 o k d) := rfl

/-- The host's plain product of a 262144 × 64 array with a 64 × 64 matrix, at the exact values, is the centre product. -/
theorem dotGeneral_eq_centreProd
    (wf : DotDims.WF ⟨2, ![262144, 64]⟩ ⟨2, ![64, 64]⟩ ⟨2, ![262144, 64]⟩ [1] [0] [0] [1] [] [])
    (x : FVec Ideal ⟨2, ![262144, 64]⟩ .f32) (w : FVec Ideal ⟨2, ![64, 64]⟩ .f32) :
    Host.dotGeneral (F := Ideal) (Cert.Lib.PlainDot.dims wf) none x w = centreProd x w := by
  funext i
  obtain ⟨p, q, rfl⟩ : ∃ (p : Fin 262144) (q : Fin 64), i = ix2 p q := ⟨i 0, i 1, eq_ix2 i⟩
  exact Cert.Lib.PlainDot.dotGeneral_apply wf none x w p q

end Cert.SparseConv

end
-- ==== Proof.Layer.lean ====
/-
  One sparse convolution layer as a pure function of its inputs, with the two matrix products as parameters.

  A layer takes the voxel features h (262144 × 64), the 27 offset matrices W, the bias b and the two index tables.
  It pads h with one zero row, so that the sentinel index 262144 reads zeros; gathers for every off-centre offset o
  and pair m the row the input table names (a negative index counting from the end of the padded array); multiplies
  the gathered rows of offset o by W's matrix for o (the 26 off-centre matrices are W without its 14th) and h itself
  by the centre matrix; pads the centre product with a zero row, adds every off-centre row into the row the output
  table names, drops the padding row and adds the bias to every row. The kernel rounds the operands of both products
  to bfloat16 first; at the exact values a change of float format is the identity.
-/
import proofs.«168265_j19971597926625_1_alg».proof.Proof.Gen.KernelIdeal
import proofs.«168265_j19971597926625_1_alg».proof.Proof.Products

noncomputable section

namespace Cert.KernelIdeal.Layer

open Cert.KernelIdeal Cert.KernelIdeal.Facts₀ Idealize.ShloMosaic

variable {F : FTy → Type} [FloatOps F]

/-- An index table as the gather and the scatter read it: a negative entry counts from the end of the padded array,
    and every entry becomes a one-coordinate index vector. -/
def wrap (ix : IVec S26x65536 32) : IVec S26x65536x1 32 :=
  broadcastInDim S26x65536x1 ![0, 1] bcast_S26x65536_S26x65536x1_0_1
    (select (cmpi .slt ix (broadcastInDim S26x65536 ![] bcast_S_S26x65536 (constantI S_ 32 0#32)))
      (addi ix (broadcastInDim S26x65536 ![] bcast_S_S26x65536 (constantI S_ 32 262145#32))) ix)

/-- The array with one zero row appended. -/
def pad (h : FVec F S262144x64 .f32) : FVec F S262145x64 .f32 :=
  concatenate S262145x64 0 [⟨S262144x64, h⟩, ⟨S1x64, broadcastInDim S1x64 ![] bcast_S_S1x64 (constant S_ .f32 0x00000000#32)⟩]
    concatenates_S262144x64_S1x64_S262145x64_d0

/-- The rows gathered for the 26 off-centre offsets, rounded to bfloat16 before the gather. -/
def gathered (h : FVec F S262144x64 .f32) (ii : IVec S26x65536 32) : FVec F S26x65536x64 .bf16 :=
  Host.gather gather_S262145x64_S26x65536x1_S26x65536x64_2_0_n_n_0_2_164 (truncf .bf16 (pad h) bitsLt_bf16_f32) (wrap ii)

/-- The 26 off-centre matrices: W without its 14th, rounded to bfloat16. -/
def offW (W : FVec F S27x64x64 .f32) : FVec F S26x64x64 .bf16 :=
  truncf .bf16 (concatenate S26x64x64 0
      [⟨S13x64x64, extractStridedSlice S13x64x64 ![0, 0, 0] W slices_S27x64x64_S13x64x64_0_0_0⟩,
       ⟨S13x64x64, extractStridedSlice S13x64x64 ![14, 0, 0] W slices_S27x64x64_S13x64x64_14_0_0⟩]
      concatenates_S13x64x64_S13x64x64_S26x64x64_d0) bitsLt_bf16_f32

/-- The centre matrix: W's 14th, rounded to bfloat16. -/
def cenW (W : FVec F S27x64x64 .f32) : FVec F S64x64 .bf16 :=
  truncf .bf16 (shapeCast S64x64 (extractStridedSlice S1x64x64 ![13, 0, 0] W slices_S27x64x64_S1x64x64_13_0_0)
    shapeCasts_S1x64x64_S64x64) bitsLt_bf16_f32

/-- The layer's result from its two products: scatter-add of the off-centre rows into the padded centre product,
    the padding row dropped, the bias added to every row. -/
def combine (cen : FVec F S262144x64 .f32) (off : FVec F S26x65536x64 .f32) (b : FVec F S64 .f32)
    (oi : IVec S26x65536 32) : FVec F S262144x64 .f32 :=
  addf (extractStridedSlice S262144x64 ![0, 0]
      (Host.scatterAdd scatter_S262145x64_S26x65536x1_S26x65536x64_2_0_0_2 (pad cen) (wrap oi) off)
      slices_S262145x64_S262144x64_0_0)
    (broadcastInDim S262144x64 ![0, 1] bcast_S1x64_S262144x64_0_1 (broadcastInDim S1x64 ![1] bcast_S64_S1x64_1 b))

/-- max(·, 0), entry by entry. -/
def relu (h : FVec F S262144x64 .f32) : FVec F S262144x64 .f32 :=
  maximumf h (broadcastInDim S262144x64 ![] bcast_S_S262144x64 (constant S_ .f32 0x00000000#32))

/-- The layer as the kernel computes it at the exact values: the two products as whole arrays of the rounded
    operands. -/
def layer (h : FVec Ideal S262144x64 .f32) (W : FVec Ideal S27x64x64 .f32) (b : FVec Ideal S64 .f32)
    (ii oi : IVec S26x65536 32) : FVec Ideal S262144x64 .f32 :=
  combine (F := Ideal) (Cert.SparseConv.centreProd (truncf (F := Ideal) .bf16 h bitsLt_bf16_f32) (cenW (F := Ideal) W))
    (Cert.SparseConv.offsetProd (gathered (F := Ideal) h ii) (offW (F := Ideal) W)) b oi

/-- The residual block: two layers with a rectifier between, the input added back, a final rectifier. -/
def block (x : FVec Ideal S262144x64 .f32) (W1 : FVec Ideal S27x64x64 .f32) (b1 : FVec Ideal S64 .f32)
    (W2 : FVec Ideal S27x64x64 .f32) (b2 : FVec Ideal S64 .f32) (ii oi : IVec S26x65536 32) :
    FVec Ideal S262144x64 .f32 :=
  relu (F := Ideal) (addf (F := Ideal) (layer (relu (F := Ideal) (layer x W1 b1 ii oi)) W2 b2 ii oi) x)

end Cert.KernelIdeal.Layer

end
-- ==== Proof.Centre1.lean ====
/-
  The dense centre-offset region of the first layer, as one whole-array function.

  The region walks sixteen grid points. At point t the body loads rows [16384 t, 16384 (t + 1)) of the feature array
  and the whole 64 × 64 centre matrix, multiplies them into a zero accumulator and stores the product as the same
  rows of the output. At the exact values entry (p, q) of a point's product is the sum over k of row-block (p, k)
  times matrix (k, q), and row p of block t is row 16384 t + p of the array; the sixteen blocks tile the output. So
  after the region the output array is the centre product of the two input arrays, entry by entry.
-/
import proofs.«168265_j19971597926625_1_alg».proof.Proof.Gen.KernelIdeal.Frame
import proofs.«168265_j19971597926625_1_alg».proof.Proof.Products
import Idealize.ShloMosaic.Lib.Pipeline.Value
import Idealize.ShloMosaic.Lib.ValueIdx

set_option maxRecDepth 16384

noncomputable section

open Cert.KernelIdeal Cert.KernelIdeal.Gen Cert.SparseConv
open Idealize.ShloMosaic Idealize.ShloMosaic.TcCoe Idealize.ShloMosaic.ValueIdx Idealize.SL.Sem
open Idealize.ShloMosaic.Pipeline (Dat Cfg Window)
open scoped BigOperators

variable (V : (c : Dev nD) → (b : Ref sig .tc) → Buf (Elt Ideal) ((c : Thread nD τ).loc b))

namespace Cert.KernelIdeal.BlocksC1
theorem hz2 : (![0, 0] : Fin 2 → Nat) = fun _ => 0 := funext fun a => by fin_cases a <;> rfl
theorem hz3 : (![0, 0, 0] : Fin 3 → Nat) = fun _ => 0 := funext fun a => by fin_cases a <;> rfl
end Cert.KernelIdeal.BlocksC1
open Cert.KernelIdeal.BlocksC1

/-! ## The centre product of region 1 -/

namespace Cert.KernelIdeal.Centre1

/-- The body's stored value at (p, q): row p of the loaded row block against column q of the loaded matrix. -/
theorem pay_apply (x0 : Vec Ideal S16384x64 .bf16) (x1 : Vec Ideal S64x64 .bf16) (p : Fin 16384) (q : Fin 64) :
    k1_pay1 x0 x1 (ix2 p q) = ∑ k : Fin 64, x0 (ix2 p k) * x1 (ix2 k q) := by
  unfold k1_pay1
  rw [shapeCast_self, shapeCast_self]
  exact Cert.Lib.PlainDot.matmul_zero_apply Facts₀.dot_S16384x64_S64x64_S16384x64_1_0_0_1_n_n_wf none x0 x1 p q

/-- The index maps over the sixteen points: the row block moves with the output's, the matrix stays, no map leaves
    column block 0. -/
theorem idx_facts : ∀ t : Fin cfg1.N,
    win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (1 : Fin 2) = 0
    ∧ win1_2.index t (0 : Fin 2) ≤ 15 :=
  (by decide +kernel : ∀ t : Fin grid1.N, _)

/-- Every row block of the output is some point's. -/
theorem idx_onto : ∀ q0 : Fin 16, ∃ t : Fin cfg1.N, win1_2.index t = ![q0.val, 0] :=
  (by decide +kernel : ∀ q0 : Fin 16, ∃ t : Fin grid1.N, win1_2.index t = ![q0.val, 0])

/-- What point t writes back is block t of the centre product of the two arrays as the region finds them. -/
theorem flushed (c : Dev nD) (t : Fin cfg1.N) :
    (dat1 V c).flushed 2 t
      = ((cfg1.win 2).blk t).view.read (Elt Ideal) (centreProd (V c main_v18) (V c main_v9)) := by
  show (cfg1.win 2).cut (grid1.coords t) ((dat1 V c).after 2 t) = _
  rw [after1_2]
  unfold out1_2
  rw [View.canon_unit_zero hz2]
  simp only [View.ld_unit_zero (S := S16384x64) hz2, View.ld_unit_zero (S := S64x64) hz2]
  obtain ⟨e0, e1, e2, e3, e4, e5⟩ := idx_facts t
  funext j
  obtain ⟨p, q, rfl⟩ : ∃ (p : Fin 16384) (q : Fin 64), j = ix2 p q := ⟨j 0, j 1, eq_ix2 j⟩
  show k1_pay1 (iblk1 V c 0 t) (iblk1 V c 1 t) (ix2 p q)
    = centreProd (V c main_v18) (V c main_v9) (((cfg1.win 2).blk t).view.emb (ix2 p q))
  refine (pay_apply (iblk1 V c 0 t) (iblk1 V c 1 t) p q).trans ?_
  unfold centreProd
  show _ = ∑ k : Fin 64, _
  refine Finset.sum_congr rfl fun k _ => ?_
  have h0 : iblk1 V c 0 t (ix2 p k) = V c main_v18 (ix2 ((((cfg1.win 2).blk t).view.emb (ix2 p q)) 0) k) := by
    show V c main_v18 (((cfg1.win 0).blk t).view.emb (ix2 p k)) = V c main_v18 _
    refine congrArg (V c main_v18) ?_
    funext a; apply Fin.ext
    match a with
    | ⟨0, _⟩ =>
      show win1_0.index t (0 : Fin 2) * 16384 + 1 * p.val = win1_2.index t (0 : Fin 2) * 16384 + 1 * p.val
      omega
    | ⟨1, _⟩ =>
      show win1_0.index t (1 : Fin 2) * 64 + 1 * k.val = k.val
      omega
  have h1 : iblk1 V c 1 t (ix2 k q) = V c main_v9 (ix2 k ((((cfg1.win 2).blk t).view.emb (ix2 p q)) 1)) := by
    show V c main_v9 (((cfg1.win 1).blk t).view.emb (ix2 k q)) = V c main_v9 _
    refine congrArg (V c main_v9) ?_
    funext a; apply Fin.ext
    match a with
    | ⟨0, _⟩ =>
      show win1_1.index t (0 : Fin 2) * 64 + 1 * k.val = k.val
      omega
    | ⟨1, _⟩ =>
      show win1_1.index t (1 : Fin 2) * 64 + 1 * q.val = win1_2.index t (1 : Fin 2) * 64 + 1 * q.val
      omega
  rw [h0, h1]

/-- An index of the output array is in point t's block iff each coordinate is in the block's range on its axis. -/
theorem mem_blk (t : Fin cfg1.N) (i : S262144x64.Idx) :
    i ∈ ((cfg1.win 2).blk t).view.set ↔ ∀ a : Fin 2, win1_2.index t a * S16384x64.size a ≤ (i a).val
      ∧ (i a).val < win1_2.index t a * S16384x64.size a + S16384x64.size a := by
  show i ∈ ((View.whole main_v19).slice (win1_2.rect t)).set ↔ _
  rw [View.set_slice_whole, Rect.mem_set_unit]
  exact Iff.rfl

/-- The sixteen row blocks cover the output: row r is in block r / 16384. -/
theorem cover (i : S262144x64.Idx) :
    ∃ t : Fin cfg1.N, (cfg1.win 2).flush t = true ∧ i ∈ ((cfg1.win 2).blk t).view.set := by
  have hi0 : (i 0).val < 262144 := (i 0).isLt
  have hi1 : (i 1).val < 64 := (i 1).isLt
  obtain ⟨t, ht⟩ := idx_onto ⟨(i 0).val / 16384, by omega⟩
  have q0 : win1_2.index t (0 : Fin 2) = (i 0).val / 16384 := congrFun ht 0
  have q1 : win1_2.index t (1 : Fin 2) = 0 := congrFun ht 1
  refine ⟨t, flush1_2 t, ?_⟩
  rw [mem_blk]
  intro a
  match a with
  | ⟨0, _⟩ =>
    show win1_2.index t (0 : Fin 2) * 16384 ≤ (i 0).val ∧ (i 0).val < win1_2.index t (0 : Fin 2) * 16384 + 16384
    omega
  | ⟨1, _⟩ =>
    show win1_2.index t (1 : Fin 2) * 64 ≤ (i 1).val ∧ (i 1).val < win1_2.index t (1 : Fin 2) * 64 + 64
    omega

/-- The output array after the region: the centre product of the two input arrays as the region finds them. -/
theorem final (c : Dev nD) : (dat1 V c).arrAt 2 cfg1.N = centreProd (V c main_v18) (V c main_v9) :=
  (dat1 V c).arrAt_eq_of_cover 2 _ (fun t _ => flushed V c t) (cover)

end Cert.KernelIdeal.Centre1

end
-- ==== Proof.Centre3.lean ====
/-
  The dense centre-offset region of the second layer, as one whole-array function.

  The region walks sixteen grid points. At point t the body loads rows [16384 t, 16384 (t + 1)) of the first layer's
  rectified output and the whole 64 × 64 centre matrix of the second layer, multiplies them into a zero accumulator
  and stores the product as the same rows of the output. At the exact values entry (p, q) of a point's product is the
  sum over k of row-block (p, k) times matrix (k, q), and row p of block t is row 16384 t + p of the array; the sixteen
  blocks tile the output. So after the region the output array is the centre product of the two input arrays.
-/
import proofs.«168265_j19971597926625_1_alg».proof.Proof.Gen.KernelIdeal.Frame
import proofs.«168265_j19971597926625_1_alg».proof.Proof.Products
import Idealize.ShloMosaic.Lib.Pipeline.Value
import Idealize.ShloMosaic.Lib.ValueIdx

set_option maxRecDepth 16384

noncomputable section

open Cert.KernelIdeal Cert.KernelIdeal.Gen Cert.SparseConv
open Idealize.ShloMosaic Idealize.ShloMosaic.TcCoe Idealize.ShloMosaic.ValueIdx Idealize.SL.Sem
open Idealize.ShloMosaic.Pipeline (Dat Cfg Window)
open scoped BigOperators

variable (V : (c : Dev nD) → (b : Ref sig .tc) → Buf (Elt Ideal) ((c : Thread nD τ).loc b))

namespace Cert.KernelIdeal.BlocksC3
theorem hz2 : (![0, 0] : Fin 2 → Nat) = fun _ => 0 := funext fun a => by fin_cases a <;> rfl
theorem hz3 : (![0, 0, 0] : Fin 3 → Nat) = fun _ => 0 := funext fun a => by fin_cases a <;> rfl
end Cert.KernelIdeal.BlocksC3
open Cert.KernelIdeal.BlocksC3

/-! ## The centre product of region 3 -/

namespace Cert.KernelIdeal.Centre3

/-- The body's stored value at (p, q): row p of the loaded row block against column q of the loaded matrix. -/
theorem pay_apply (x0 : Vec Ideal S16384x64 .bf16) (x1 : Vec Ideal S64x64 .bf16) (p : Fin 16384) (q : Fin 64) :
    k3_pay1 x0 x1 (ix2 p q) = ∑ k : Fin 64, x0 (ix2 p k) * x1 (ix2 k q) := by
  unfold k3_pay1
  rw [shapeCast_self, shapeCast_self]
  exact Cert.Lib.PlainDot.matmul_zero_apply Facts₀.dot_S16384x64_S64x64_S16384x64_1_0_0_1_n_n_wf none x0 x1 p q

/-- The index maps over the sixteen points: the row block moves with the output's, the matrix stays, no map leaves
    column block 0. -/
theorem idx_facts : ∀ t : Fin cfg3.N,
    win3_0.index t (0 : Fin 2) = win3_2.index t (0 : Fin 2)
    ∧ win3_0.index t (1 : Fin 2) = 0
    ∧ win3_1.index t (0 : Fin 2) = 0
    ∧ win3_1.index t (1 : Fin 2) = 0
    ∧ win3_2.index t (1 : Fin 2) = 0
    ∧ win3_2.index t (0 : Fin 2) ≤ 15 :=
  (by decide +kernel : ∀ t : Fin grid3.N, _)

/-- Every row block of the output is some point's. -/
theorem idx_onto : ∀ q0 : Fin 16, ∃ t : Fin cfg3.N, win3_2.index t = ![q0.val, 0] :=
  (by decide +kernel : ∀ q0 : Fin 16, ∃ t : Fin grid3.N, win3_2.index t = ![q0.val, 0])

/-- What point t writes back is block t of the centre product of the two arrays as the region finds them. -/
theorem flushed (c : Dev nD) (t : Fin cfg3.N) :
    (dat3 V c).flushed 2 t
      = ((cfg3.win 2).blk t).view.read (Elt Ideal) (centreProd (V c main_v52) (V c main_v43)) := by
  show (cfg3.win 2).cut (grid3.coords t) ((dat3 V c).after 2 t) = _
  rw [after3_2]
  unfold out3_2
  rw [View.canon_unit_zero hz2]
  simp only [View.ld_unit_zero (S := S16384x64) hz2, View.ld_unit_zero (S := S64x64) hz2]
  obtain ⟨e0, e1, e2, e3, e4, e5⟩ := idx_facts t
  funext j
  obtain ⟨p, q, rfl⟩ : ∃ (p : Fin 16384) (q : Fin 64), j = ix2 p q := ⟨j 0, j 1, eq_ix2 j⟩
  show k3_pay1 (iblk3 V c 0 t) (iblk3 V c 1 t) (ix2 p q)
    = centreProd (V c main_v52) (V c main_v43) (((cfg3.win 2).blk t).view.emb (ix2 p q))
  refine (pay_apply (iblk3 V c 0 t) (iblk3 V c 1 t) p q).trans ?_
  unfold centreProd
  show _ = ∑ k : Fin 64, _
  refine Finset.sum_congr rfl fun k _ => ?_
  have h0 : iblk3 V c 0 t (ix2 p k) = V c main_v52 (ix2 ((((cfg3.win 2).blk t).view.emb (ix2 p q)) 0) k) := by
    show V c main_v52 (((cfg3.win 0).blk t).view.emb (ix2 p k)) = V c main_v52 _
    refine congrArg (V c main_v52) ?_
    funext a; apply Fin.ext
    match a with
    | ⟨0, _⟩ =>
      show win3_0.index t (0 : Fin 2) * 16384 + 1 * p.val = win3_2.index t (0 : Fin 2) * 16384 + 1 * p.val
      omega
    | ⟨1, _⟩ =>
      show win3_0.index t (1 : Fin 2) * 64 + 1 * k.val = k.val
      omega
  have h1 : iblk3 V c 1 t (ix2 k q) = V c main_v43 (ix2 k ((((cfg3.win 2).blk t).view.emb (ix2 p q)) 1)) := by
    show V c main_v43 (((cfg3.win 1).blk t).view.emb (ix2 k q)) = V c main_v43 _
    refine congrArg (V c main_v43) ?_
    funext a; apply Fin.ext
    match a with
    | ⟨0, _⟩ =>
      show win3_1.index t (0 : Fin 2) * 64 + 1 * k.val = k.val
      omega
    | ⟨1, _⟩ =>
      show win3_1.index t (1 : Fin 2) * 64 + 1 * q.val = win3_2.index t (1 : Fin 2) * 64 + 1 * q.val
      omega
  rw [h0, h1]

/-- An index of the output array is in point t's block iff each coordinate is in the block's range on its axis. -/
theorem mem_blk (t : Fin cfg3.N) (i : S262144x64.Idx) :
    i ∈ ((cfg3.win 2).blk t).view.set ↔ ∀ a : Fin 2, win3_2.index t a * S16384x64.size a ≤ (i a).val
      ∧ (i a).val < win3_2.index t a * S16384x64.size a + S16384x64.size a := by
  show i ∈ ((View.whole main_v53).slice (win3_2.rect t)).set ↔ _
  rw [View.set_slice_whole, Rect.mem_set_unit]
  exact Iff.rfl

/-- The sixteen row blocks cover the output: row r is in block r / 16384. -/
theorem cover (i : S262144x64.Idx) :
    ∃ t : Fin cfg3.N, (cfg3.win 2).flush t = true ∧ i ∈ ((cfg3.win 2).blk t).view.set := by
  have hi0 : (i 0).val < 262144 := (i 0).isLt
  have hi1 : (i 1).val < 64 := (i 1).isLt
  obtain ⟨t, ht⟩ := idx_onto ⟨(i 0).val / 16384, by omega⟩
  have q0 : win3_2.index t (0 : Fin 2) = (i 0).val / 16384 := congrFun ht 0
  have q1 : win3_2.index t (1 : Fin 2) = 0 := congrFun ht 1
  refine ⟨t, flush3_2 t, ?_⟩
  rw [mem_blk]
  intro a
  match a with
  | ⟨0, _⟩ =>
    show win3_2.index t (0 : Fin 2) * 16384 ≤ (i 0).val ∧ (i 0).val < win3_2.index t (0 : Fin 2) * 16384 + 16384
    omega
  | ⟨1, _⟩ =>
    show win3_2.index t (1 : Fin 2) * 64 ≤ (i 1).val ∧ (i 1).val < win3_2.index t (1 : Fin 2) * 64 + 64
    omega

/-- The output array after the region: the centre product of the two input arrays as the region finds them. -/
theorem final (c : Dev nD) : (dat3 V c).arrAt 2 cfg3.N = centreProd (V c main_v52) (V c main_v43) :=
  (dat3 V c).arrAt_eq_of_cover 2 _ (fun t _ => flushed V c t) (cover)

end Cert.KernelIdeal.Centre3

end
-- ==== Proof.LibUnitAxis.lean ====
/-
  A leading unit axis read at an index.

  A block of shape [1, h, w] and the matrix of shape [h, w] with the same entries in row-major order: viewing the
  block as the matrix reads (0, r, c) at (r, c), and storing the matrix as a block reads (r, c) at (·, r, c). For any
  element type and any extents.
-/
import Idealize.ShloMosaic.Lib.Pipeline.Value
import Idealize.ShloMosaic.Lib.ValueIdx

noncomputable section

namespace Cert.Lib.UnitAxis

open Idealize.ShloMosaic Idealize.ShloMosaic.ValueIdx

/-- A block [1, h, w] viewed [h, w] reads (0, r, c) at (r, c). -/
theorem drop_apply {h w : Nat} {α : Type} (v : (⟨3, ![1, h, w]⟩ : Shape).Idx → α)
    (hc : (⟨3, ![1, h, w]⟩ : Shape).ShapeCasts ⟨2, ![h, w]⟩) (r : Fin h) (c : Fin w) :
    shapeCast ⟨2, ![h, w]⟩ v hc (ix2 r c) = v (ix3 (0 : Fin 1) r c) :=
  shapeCast_apply v hc _ _ (by
    rw [Shape.rowMajor_val_three, Shape.rowMajor_val_two]
    show (0 * h + r.val) * w + c.val = r.val * w + c.val
    rw [Nat.zero_mul, Nat.zero_add])

/-- An [h, w] value stored as a block [1, h, w] reads (r, c) at (u, r, c). -/
theorem add_apply {h w : Nat} {α : Type} (v : (⟨2, ![h, w]⟩ : Shape).Idx → α)
    (hc : (⟨2, ![h, w]⟩ : Shape).ShapeCasts ⟨3, ![1, h, w]⟩) (u : Fin 1) (r : Fin h) (c : Fin w) :
    shapeCast ⟨3, ![1, h, w]⟩ v hc (ix3 u r c) = v (ix2 r c) :=
  shapeCast_apply v hc _ _ (by
    have hu : u.val = 0 := by omega
    rw [Shape.rowMajor_val_three, Shape.rowMajor_val_two]
    show r.val * w + c.val = (u.val * h + r.val) * w + c.val
    rw [hu, Nat.zero_mul, Nat.zero_add])

end Cert.Lib.UnitAxis

end
-- ==== Proof.Offset0.lean ====
/-
  The off-centre region of the first layer, as one whole-array function.

  The region walks 26 × 4 grid points. At point (o, b) the body loads rows [16384 b, 16384 (b + 1)) of offset o's
  gathered features and offset o's 64 × 64 matrix — each as a block with a leading axis of extent one —, multiplies
  them into a zero accumulator and stores the product as the same rows of offset o's slab of the output. At the exact
  values an entry of a point's product is a sum over the channel k; the 104 blocks tile the output. So after the region
  the output array is the off-centre products of the two input arrays, entry by entry.
-/
import proofs.«168265_j19971597926625_1_alg».proof.Proof.Gen.KernelIdeal.Frame
import proofs.«168265_j19971597926625_1_alg».proof.Proof.Products
import proofs.«168265_j19971597926625_1_alg».proof.Proof.LibUnitAxis
import Idealize.ShloMosaic.Lib.Pipeline.Value
import Idealize.ShloMosaic.Lib.ValueIdx

set_option maxRecDepth 16384

noncomputable section

open Cert.KernelIdeal Cert.KernelIdeal.Gen Cert.SparseConv
open Idealize.ShloMosaic Idealize.ShloMosaic.TcCoe Idealize.ShloMosaic.ValueIdx Idealize.SL.Sem
open Idealize.ShloMosaic.Pipeline (Dat Cfg Window)
open scoped BigOperators

variable (V : (c : Dev nD) → (b : Ref sig .tc) → Buf (Elt Ideal) ((c : Thread nD τ).loc b))

namespace Cert.KernelIdeal.BlocksO0
theorem hz2 : (![0, 0] : Fin 2 → Nat) = fun _ => 0 := funext fun a => by fin_cases a <;> rfl
theorem hz3 : (![0, 0, 0] : Fin 3 → Nat) = fun _ => 0 := funext fun a => by fin_cases a <;> rfl
end Cert.KernelIdeal.BlocksO0
open Cert.KernelIdeal.BlocksO0

/-! ## The off-centre products of region 0 -/

namespace Cert.KernelIdeal.Offset0

/-- The body's stored value at (u, r, d): the loaded blocks have a leading axis of extent one; dropped, they are a
    16384 × 64 block of rows and a 64 × 64 matrix, whose product's entry (r, d) is stored at (u, r, d). -/
theorem pay_apply (x0 : Vec Ideal S1x16384x64 .bf16) (x1 : Vec Ideal S1x64x64 .bf16)
    (u : Fin 1) (r : Fin 16384) (d : Fin 64) :
    k0_pay1 x0 x1 (ix3 u r d) = ∑ k : Fin 64, x0 (ix3 (0 : Fin 1) r k) * x1 (ix3 (0 : Fin 1) k d) := by
  unfold k0_pay1
  refine (Cert.Lib.UnitAxis.add_apply _ Facts₀.shapeCasts_S16384x64_S1x16384x64 u r d).trans ?_
  refine (Cert.Lib.PlainDot.matmul_zero_apply Facts₀.dot_S16384x64_S64x64_S16384x64_1_0_0_1_n_n_wf none _ _ r d).trans ?_
  refine Finset.sum_congr rfl fun k _ => ?_
  rw [Cert.Lib.UnitAxis.drop_apply, Cert.Lib.UnitAxis.drop_apply]

/-- The index maps over the 26 × 4 points: the gathered rows' block moves with the output's on the offset and row
    axes, the matrix block moves with the offset only, and no map leaves channel block 0. -/
theorem idx_facts : ∀ t : Fin cfg0.N,
    win0_0.index t (0 : Fin 3) = win0_2.index t (0 : Fin 3)
    ∧ win0_0.index t (1 : Fin 3) = win0_2.index t (1 : Fin 3)
    ∧ win0_0.index t (2 : Fin 3) = 0
    ∧ win0_1.index t (0 : Fin 3) = win0_2.index t (0 : Fin 3)
    ∧ win0_1.index t (1 : Fin 3) = 0
    ∧ win0_1.index t (2 : Fin 3) = 0
    ∧ win0_2.index t (2 : Fin 3) = 0
    ∧ win0_2.index t (0 : Fin 3) ≤ 25
    ∧ win0_2.index t (1 : Fin 3) ≤ 3 :=
  (by decide +kernel : ∀ t : Fin grid0.N, _)

/-- Every (offset, row block) pair of the output is some point's. -/
theorem idx_onto : ∀ (q0 : Fin 26) (q1 : Fin 4), ∃ t : Fin cfg0.N, win0_2.index t = ![q0.val, q1.val, 0] :=
  (by decide +kernel : ∀ (q0 : Fin 26) (q1 : Fin 4), ∃ t : Fin grid0.N, win0_2.index t = ![q0.val, q1.val, 0])

/-- What point t writes back is block t of the off-centre products of the two arrays as the region finds them. -/
theorem flushed (c : Dev nD) (t : Fin cfg0.N) :
    (dat0 V c).flushed 2 t
      = ((cfg0.win 2).blk t).view.read (Elt Ideal) (offsetProd (V c main_v16) (V c main_v6)) := by
  show (cfg0.win 2).cut (grid0.coords t) ((dat0 V c).after 2 t) = _
  rw [after0_2]
  unfold out0_2
  rw [View.canon_unit_zero hz3]
  simp only [View.ld_unit_zero (S := S1x16384x64) hz3, View.ld_unit_zero (S := S1x64x64) hz3]
  obtain ⟨e0, e1, e2, e3, e4, e5, e6, e7, e8⟩ := idx_facts t
  funext j
  obtain ⟨u, r, d, rfl⟩ : ∃ (u : Fin 1) (r : Fin 16384) (d : Fin 64), j = ix3 u r d := ⟨j 0, j 1, j 2, eq_ix3 j⟩
  have hu : u.val = 0 := by omega
  show k0_pay1 (iblk0 V c 0 t) (iblk0 V c 1 t) (ix3 u r d)
    = offsetProd (V c main_v16) (V c main_v6) (((cfg0.win 2).blk t).view.emb (ix3 u r d))
  refine (pay_apply (iblk0 V c 0 t) (iblk0 V c 1 t) u r d).trans ?_
  unfold offsetProd
  show _ = ∑ k : Fin 64, _
  refine Finset.sum_congr rfl fun k _ => ?_
  have h0 : iblk0 V c 0 t (ix3 (0 : Fin 1) r k)
      = V c main_v16 (ix3 ((((cfg0.win 2).blk t).view.emb (ix3 u r d)) 0) ((((cfg0.win 2).blk t).view.emb (ix3 u r d)) 1) k) := by
    show V c main_v16 (((cfg0.win 0).blk t).view.emb (ix3 (0 : Fin 1) r k)) = V c main_v16 _
    refine congrArg (V c main_v16) ?_
    funext a; apply Fin.ext
    match a with
    | ⟨0, _⟩ =>
      show win0_0.index t (0 : Fin 3) * 1 + 1 * 0 = win0_2.index t (0 : Fin 3) * 1 + 1 * u.val
      omega
    | ⟨1, _⟩ =>
      show win0_0.index t (1 : Fin 3) * 16384 + 1 * r.val = win0_2.index t (1 : Fin 3) * 16384 + 1 * r.val
      omega
    | ⟨2, _⟩ =>
      show win0_0.index t (2 : Fin 3) * 64 + 1 * k.val = k.val
      omega
  have h1 : iblk0 V c 1 t (ix3 (0 : Fin 1) k d)
      = V c main_v6 (ix3 ((((cfg0.win 2).blk t).view.emb (ix3 u r d)) 0) k ((((cfg0.win 2).blk t).view.emb (ix3 u r d)) 2)) := by
    show V c main_v6 (((cfg0.win 1).blk t).view.emb (ix3 (0 : Fin 1) k d)) = V c main_v6 _
    refine congrArg (V c main_v6) ?_
    funext a; apply Fin.ext
    match a with
    | ⟨0, _⟩ =>
      show win0_1.index t (0 : Fin 3) * 1 + 1 * 0 = win0_2.index t (0 : Fin 3) * 1 + 1 * u.val
      omega
    | ⟨1, _⟩ =>
      show win0_1.index t (1 : Fin 3) * 64 + 1 * k.val = k.val
      omega
    | ⟨2, _⟩ =>
      show win0_1.index t (2 : Fin 3) * 64 + 1 * d.val = win0_2.index t (2 : Fin 3) * 64 + 1 * d.val
      omega
  rw [h0, h1]

/-- An index of the output array is in point t's block iff each coordinate is in the block's range on its axis. -/
theorem mem_blk (t : Fin cfg0.N) (i : S26x65536x64.Idx) :
    i ∈ ((cfg0.win 2).blk t).view.set ↔ ∀ a : Fin 3, win0_2.index t a * S1x16384x64.size a ≤ (i a).val
      ∧ (i a).val < win0_2.index t a * S1x16384x64.size a + S1x16384x64.size a := by
  show i ∈ ((View.whole main_v17).slice (win0_2.rect t)).set ↔ _
  rw [View.set_slice_whole, Rect.mem_set_unit]
  exact Iff.rfl

/-- The 104 blocks cover the output: entry (o, m, d) is in the block of offset o and row block m / 16384. -/
theorem cover (i : S26x65536x64.Idx) :
    ∃ t : Fin cfg0.N, (cfg0.win 2).flush t = true ∧ i ∈ ((cfg0.win 2).blk t).view.set := by
  have hi0 : (i 0).val < 26 := (i 0).isLt
  have hi1 : (i 1).val < 65536 := (i 1).isLt
  have hi2 : (i 2).val < 64 := (i 2).isLt
  obtain ⟨t, ht⟩ := idx_onto ⟨(i 0).val, hi0⟩ ⟨(i 1).val / 16384, by omega⟩
  have q0 : win0_2.index t (0 : Fin 3) = (i 0).val := congrFun ht 0
  have q1 : win0_2.index t (1 : Fin 3) = (i 1).val / 16384 := congrFun ht 1
  have q2 : win0_2.index t (2 : Fin 3) = 0 := congrFun ht 2
  refine ⟨t, flush0_2 t, ?_⟩
  rw [mem_blk]
  intro a
  match a with
  | ⟨0, _⟩ =>
    show win0_2.index t (0 : Fin 3) * 1 ≤ (i 0).val ∧ (i 0).val < win0_2.index t (0 : Fin 3) * 1 + 1
    omega
  | ⟨1, _⟩ =>
    show win0_2.index t (1 : Fin 3) * 16384 ≤ (i 1).val ∧ (i 1).val < win0_2.index t (1 : Fin 3) * 16384 + 16384
    omega
  | ⟨2, _⟩ =>
    show win0_2.index t (2 : Fin 3) * 64 ≤ (i 2).val ∧ (i 2).val < win0_2.index t (2 : Fin 3) * 64 + 64
    omega

/-- The output array after the region: the off-centre products of the two input arrays as the region finds them. -/
theorem final (c : Dev nD) : (dat0 V c).arrAt 2 cfg0.N = offsetProd (V c main_v16) (V c main_v6) :=
  (dat0 V c).arrAt_eq_of_cover 2 _ (fun t _ => flushed V c t) (cover)

end Cert.KernelIdeal.Offset0

end
-- ==== Proof.Offset2.lean ====
/-
  The off-centre region of the second layer, as one whole-array function.

  The region walks 26 × 4 grid points. At point (o, b) the body loads rows [16384 b, 16384 (b + 1)) of the rows gathered
  for offset o from the first layer's output and the second layer's matrix for offset o — each as a block with a
  leading axis of extent one —, multiplies them into a zero accumulator and stores the product as the same rows of
  offset o's slab of the output. At the exact values an entry of a point's product is a sum over the channel k; the
  104 blocks tile the output. So after the region the output array is the off-centre products of the two input arrays.
-/
import proofs.«168265_j19971597926625_1_alg».proof.Proof.Gen.KernelIdeal.Frame
import proofs.«168265_j19971597926625_1_alg».proof.Proof.Products
import proofs.«168265_j19971597926625_1_alg».proof.Proof.LibUnitAxis
import Idealize.ShloMosaic.Lib.Pipeline.Value
import Idealize.ShloMosaic.Lib.ValueIdx

set_option maxRecDepth 16384

noncomputable section

open Cert.KernelIdeal Cert.KernelIdeal.Gen Cert.SparseConv
open Idealize.ShloMosaic Idealize.ShloMosaic.TcCoe Idealize.ShloMosaic.ValueIdx Idealize.SL.Sem
open Idealize.ShloMosaic.Pipeline (Dat Cfg Window)
open scoped BigOperators

variable (V : (c : Dev nD) → (b : Ref sig .tc) → Buf (Elt Ideal) ((c : Thread nD τ).loc b))

namespace Cert.KernelIdeal.BlocksO2
theorem hz2 : (![0, 0] : Fin 2 → Nat) = fun _ => 0 := funext fun a => by fin_cases a <;> rfl
theorem hz3 : (![0, 0, 0] : Fin 3 → Nat) = fun _ => 0 := funext fun a => by fin_cases a <;> rfl
end Cert.KernelIdeal.BlocksO2
open Cert.KernelIdeal.BlocksO2

/-! ## The off-centre products of region 2 -/

namespace Cert.KernelIdeal.Offset2

/-- The body's stored value at (u, r, d): the loaded blocks have a leading axis of extent one; dropped, they are a
    16384 × 64 block of rows and a 64 × 64 matrix, whose product's entry (r, d) is stored at (u, r, d). -/
theorem pay_apply (x0 : Vec Ideal S1x16384x64 .bf16) (x1 : Vec Ideal S1x64x64 .bf16)
    (u : Fin 1) (r : Fin 16384) (d : Fin 64) :
    k2_pay1 x0 x1 (ix3 u r d) = ∑ k : Fin 64, x0 (ix3 (0 : Fin 1) r k) * x1 (ix3 (0 : Fin 1) k d) := by
  unfold k2_pay1
  refine (Cert.Lib.UnitAxis.add_apply _ Facts₀.shapeCasts_S16384x64_S1x16384x64 u r d).trans ?_
  refine (Cert.Lib.PlainDot.matmul_zero_apply Facts₀.dot_S16384x64_S64x64_S16384x64_1_0_0_1_n_n_wf none _ _ r d).trans ?_
  refine Finset.sum_congr rfl fun k _ => ?_
  rw [Cert.Lib.UnitAxis.drop_apply, Cert.Lib.UnitAxis.drop_apply]

/-- The index maps over the 26 × 4 points: the gathered rows' block moves with the output's on the offset and row
    axes, the matrix block moves with the offset only, and no map leaves channel block 0. -/
theorem idx_facts : ∀ t : Fin cfg2.N,
    win2_0.index t (0 : Fin 3) = win2_2.index t (0 : Fin 3)
    ∧ win2_0.index t (1 : Fin 3) = win2_2.index t (1 : Fin 3)
    ∧ win2_0.index t (2 : Fin 3) = 0
    ∧ win2_1.index t (0 : Fin 3) = win2_2.index t (0 : Fin 3)
    ∧ win2_1.index t (1 : Fin 3) = 0
    ∧ win2_1.index t (2 : Fin 3) = 0
    ∧ win2_2.index t (2 : Fin 3) = 0
    ∧ win2_2.index t (0 : Fin 3) ≤ 25
    ∧ win2_2.index t (1 : Fin 3) ≤ 3 :=
  (by decide +kernel : ∀ t : Fin grid2.N, _)

/-- Every (offset, row block) pair of the output is some point's. -/
theorem idx_onto : ∀ (q0 : Fin 26) (q1 : Fin 4), ∃ t : Fin cfg2.N, win2_2.index t = ![q0.val, q1.val, 0] :=
  (by decide +kernel : ∀ (q0 : Fin 26) (q1 : Fin 4), ∃ t : Fin grid2.N, win2_2.index t = ![q0.val, q1.val, 0])

/-- What point t writes back is block t of the off-centre products of the two arrays as the region finds them. -/
theorem flushed (c : Dev nD) (t : Fin cfg2.N) :
    (dat2 V c).flushed 2 t
      = ((cfg2.win 2).blk t).view.read (Elt Ideal) (offsetProd (V c main_v50) (V c main_v40)) := by
  show (cfg2.win 2).cut (grid2.coords t) ((dat2 V c).after 2 t) = _
  rw [after2_2]
  unfold out2_2
  rw [View.canon_unit_zero hz3]
  simp only [View.ld_unit_zero (S := S1x16384x64) hz3, View.ld_unit_zero (S := S1x64x64) hz3]
  obtain ⟨e0, e1, e2, e3, e4, e5, e6, e7, e8⟩ := idx_facts t
  funext j
  obtain ⟨u, r, d, rfl⟩ : ∃ (u : Fin 1) (r : Fin 16384) (d : Fin 64), j = ix3 u r d := ⟨j 0, j 1, j 2, eq_ix3 j⟩
  have hu : u.val = 0 := by omega
  show k2_pay1 (iblk2 V c 0 t) (iblk2 V c 1 t) (ix3 u r d)
    = offsetProd (V c main_v50) (V c main_v40) (((cfg2.win 2).blk t).view.emb (ix3 u r d))
  refine (pay_apply (iblk2 V c 0 t) (iblk2 V c 1 t) u r d).trans ?_
  unfold offsetProd
  show _ = ∑ k : Fin 64, _
  refine Finset.sum_congr rfl fun k _ => ?_
  have h0 : iblk2 V c 0 t (ix3 (0 : Fin 1) r k)
      = V c main_v50 (ix3 ((((cfg2.win 2).blk t).view.emb (ix3 u r d)) 0) ((((cfg2.win 2).blk t).view.emb (ix3 u r d)) 1) k) := by
    show V c main_v50 (((cfg2.win 0).blk t).view.emb (ix3 (0 : Fin 1) r k)) = V c main_v50 _
    refine congrArg (V c main_v50) ?_
    funext a; apply Fin.ext
    match a with
    | ⟨0, _⟩ =>
      show win2_0.index t (0 : Fin 3) * 1 + 1 * 0 = win2_2.index t (0 : Fin 3) * 1 + 1 * u.val
      omega
    | ⟨1, _⟩ =>
      show win2_0.index t (1 : Fin 3) * 16384 + 1 * r.val = win2_2.index t (1 : Fin 3) * 16384 + 1 * r.val
      omega
    | ⟨2, _⟩ =>
      show win2_0.index t (2 : Fin 3) * 64 + 1 * k.val = k.val
      omega
  have h1 : iblk2 V c 1 t (ix3 (0 : Fin 1) k d)
      = V c main_v40 (ix3 ((((cfg2.win 2).blk t).view.emb (ix3 u r d)) 0) k ((((cfg2.win 2).blk t).view.emb (ix3 u r d)) 2)) := by
    show V c main_v40 (((cfg2.win 1).blk t).view.emb (ix3 (0 : Fin 1) k d)) = V c main_v40 _
    refine congrArg (V c main_v40) ?_
    funext a; apply Fin.ext
    match a with
    | ⟨0, _⟩ =>
      show win2_1.index t (0 : Fin 3) * 1 + 1 * 0 = win2_2.index t (0 : Fin 3) * 1 + 1 * u.val
      omega
    | ⟨1, _⟩ =>
      show win2_1.index t (1 : Fin 3) * 64 + 1 * k.val = k.val
      omega
    | ⟨2, _⟩ =>
      show win2_1.index t (2 : Fin 3) * 64 + 1 * d.val = win2_2.index t (2 : Fin 3) * 64 + 1 * d.val
      omega
  rw [h0, h1]

/-- An index of the output array is in point t's block iff each coordinate is in the block's range on its axis. -/
theorem mem_blk (t : Fin cfg2.N) (i : S26x65536x64.Idx) :
    i ∈ ((cfg2.win 2).blk t).view.set ↔ ∀ a : Fin 3, win2_2.index t a * S1x16384x64.size a ≤ (i a).val
      ∧ (i a).val < win2_2.index t a * S1x16384x64.size a + S1x16384x64.size a := by
  show i ∈ ((View.whole main_v51).slice (win2_2.rect t)).set ↔ _
  rw [View.set_slice_whole, Rect.mem_set_unit]
  exact Iff.rfl

/-- The 104 blocks cover the output: entry (o, m, d) is in the block of offset o and row block m / 16384. -/
theorem cover (i : S26x65536x64.Idx) :
    ∃ t : Fin cfg2.N, (cfg2.win 2).flush t = true ∧ i ∈ ((cfg2.win 2).blk t).view.set := by
  have hi0 : (i 0).val < 26 := (i 0).isLt
  have hi1 : (i 1).val < 65536 := (i 1).isLt
  have hi2 : (i 2).val < 64 := (i 2).isLt
  obtain ⟨t, ht⟩ := idx_onto ⟨(i 0).val, hi0⟩ ⟨(i 1).val / 16384, by omega⟩
  have q0 : win2_2.index t (0 : Fin 3) = (i 0).val := congrFun ht 0
  have q1 : win2_2.index t (1 : Fin 3) = (i 1).val / 16384 := congrFun ht 1
  have q2 : win2_2.index t (2 : Fin 3) = 0 := congrFun ht 2
  refine ⟨t, flush2_2 t, ?_⟩
  rw [mem_blk]
  intro a
  match a with
  | ⟨0, _⟩ =>
    show win2_2.index t (0 : Fin 3) * 1 ≤ (i 0).val ∧ (i 0).val < win2_2.index t (0 : Fin 3) * 1 + 1
    omega
  | ⟨1, _⟩ =>
    show win2_2.index t (1 : Fin 3) * 16384 ≤ (i 1).val ∧ (i 1).val < win2_2.index t (1 : Fin 3) * 16384 + 16384
    omega
  | ⟨2, _⟩ =>
    show win2_2.index t (2 : Fin 3) * 64 ≤ (i 2).val ∧ (i 2).val < win2_2.index t (2 : Fin 3) * 64 + 64
    omega

/-- The output array after the region: the off-centre products of the two input arrays as the region finds them. -/
theorem final (c : Dev nD) : (dat2 V c).arrAt 2 cfg2.N = offsetProd (V c main_v50) (V c main_v40) :=
  (dat2 V c).arrAt_eq_of_cover 2 _ (fun t _ => flushed V c t) (cover)

end Cert.KernelIdeal.Offset2

end
-- ==== Proof.Fold.lean ====
/-
  The idealized kernel's result buffer as a function of the arguments.

  The contents of the program's buffers at the boundaries between its stretches of host operations and its four
  regions form a fold from the launch memory. Walking it backwards from the result buffer: a buffer a stretch writes
  holds that operation's function of its operands' contents one boundary earlier; a buffer a stretch does not write,
  and a buffer that is not one of a region's arrays, holds what it held one boundary earlier; a region's output array
  holds the whole-array product of its two input arrays as the region found them. The arguments are written by
  nothing. Composed, the result buffer holds the residual block of the argument arrays.
-/
import proofs.«168265_j19971597926625_1_alg».proof.Proof.Gen.KernelIdeal.Frame
import proofs.«168265_j19971597926625_1_alg».proof.Proof.Layer
import proofs.«168265_j19971597926625_1_alg».proof.Proof.Centre1
import proofs.«168265_j19971597926625_1_alg».proof.Proof.Centre3
import proofs.«168265_j19971597926625_1_alg».proof.Proof.Offset0
import proofs.«168265_j19971597926625_1_alg».proof.Proof.Offset2
import Idealize.ShloMosaic.Lib.StableHlo.Run

set_option maxRecDepth 16384

noncomputable section

namespace Cert.KernelIdeal.Fold

open Cert.KernelIdeal Cert.KernelIdeal.Gen Cert.KernelIdeal.Layer Cert.SparseConv
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- A buffer none of a stretch's operations writes keeps its contents over the stretch. -/
macro "unwritten " ops:ident : tactic => `(tactic|
  exact StableHlo.after_of_forall_not_mem _ _ (List.forall_iff_forall_mem.mp (by
    simp only [$ops:ident, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide))))

/-! ## Buffers that keep their contents -/

/-- The features are as launched when the first centre region is prepared. -/
theorem arg0_at2 : W2 m ρ c (Proc.devRef .tc main_arg0) = m ((c : Thread nD τ).loc main_arg0) :=
  calc W2 m ρ c (Proc.devRef .tc main_arg0)
    _ = W1 m ρ c (Proc.devRef .tc main_arg0) := W2_of_ne m ρ c main_arg0 (by decide)
    _ = W0 m ρ c (Proc.devRef .tc main_arg0) := by unwritten hostOps0
    _ = m ((c : Thread nD τ).loc main_arg0) := rfl

/-- The features are as launched when the residual is added. -/
theorem arg0_at10 : W10 m ρ c (Proc.devRef .tc main_arg0) = m ((c : Thread nD τ).loc main_arg0) :=
  calc W10 m ρ c (Proc.devRef .tc main_arg0)
    _ = W9 m ρ c (Proc.devRef .tc main_arg0) := W10_of_ne m ρ c main_arg0 (by decide)
    _ = W8 m ρ c (Proc.devRef .tc main_arg0) := by unwritten hostOps3
    _ = W7 m ρ c (Proc.devRef .tc main_arg0) := W8_of_ne m ρ c main_arg0 (by decide)
    _ = W6 m ρ c (Proc.devRef .tc main_arg0) := by unwritten hostOps2_2
    _ = W5 m ρ c (Proc.devRef .tc main_arg0) := by unwritten hostOps2_1
    _ = W4 m ρ c (Proc.devRef .tc main_arg0) := by unwritten hostOps2
    _ = W3 m ρ c (Proc.devRef .tc main_arg0) := W4_of_ne m ρ c main_arg0 (by decide)
    _ = W2 m ρ c (Proc.devRef .tc main_arg0) := by unwritten hostOps1
    _ = W1 m ρ c (Proc.devRef .tc main_arg0) := W2_of_ne m ρ c main_arg0 (by decide)
    _ = W0 m ρ c (Proc.devRef .tc main_arg0) := by unwritten hostOps0
    _ = m ((c : Thread nD τ).loc main_arg0) := rfl

/-- The first bias is as launched when it is added. -/
theorem arg2_at4 : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := by unwritten hostOps1
    _ = W1 m ρ c (Proc.devRef .tc main_arg2) := W2_of_ne m ρ c main_arg2 (by decide)
    _ = W0 m ρ c (Proc.devRef .tc main_arg2) := by unwritten hostOps0
    _ = m ((c : Thread nD τ).loc main_arg2) := rfl

/-- The second layer's matrices are as launched when they are sliced. -/
theorem arg3_at6 : W6 m ρ c (Proc.devRef .tc main_arg3) = m ((c : Thread nD τ).loc main_arg3) :=
  calc W6 m ρ c (Proc.devRef .tc main_arg3)
    _ = W5 m ρ c (Proc.devRef .tc main_arg3) := by unwritten hostOps2_1
    _ = W4 m ρ c (Proc.devRef .tc main_arg3) := by unwritten hostOps2
    _ = W3 m ρ c (Proc.devRef .tc main_arg3) := W4_of_ne m ρ c main_arg3 (by decide)
    _ = W2 m ρ c (Proc.devRef .tc main_arg3) := by unwritten hostOps1
    _ = W1 m ρ c (Proc.devRef .tc main_arg3) := W2_of_ne m ρ c main_arg3 (by decide)
    _ = W0 m ρ c (Proc.devRef .tc main_arg3) := by unwritten hostOps0
    _ = m ((c : Thread nD τ).loc main_arg3) := rfl

/-- The second bias is as launched when it is added. -/
theorem arg4_at10 : W10 m ρ c (Proc.devRef .tc main_arg4) = m ((c : Thread nD τ).loc main_arg4) :=
  calc W10 m ρ c (Proc.devRef .tc main_arg4)
    _ = W9 m ρ c (Proc.devRef .tc main_arg4) := W10_of_ne m ρ c main_arg4 (by decide)
    _ = W8 m ρ c (Proc.devRef .tc main_arg4) := by unwritten hostOps3
    _ = W7 m ρ c (Proc.devRef .tc main_arg4) := W8_of_ne m ρ c main_arg4 (by decide)
    _ = W6 m ρ c (Proc.devRef .tc main_arg4) := by unwritten hostOps2_2
    _ = W5 m ρ c (Proc.devRef .tc main_arg4) := by unwritten hostOps2_1
    _ = W4 m ρ c (Proc.devRef .tc main_arg4) := by unwritten hostOps2
    _ = W3 m ρ c (Proc.devRef .tc main_arg4) := W4_of_ne m ρ c main_arg4 (by decide)
    _ = W2 m ρ c (Proc.devRef .tc main_arg4) := by unwritten hostOps1
    _ = W1 m ρ c (Proc.devRef .tc main_arg4) := W2_of_ne m ρ c main_arg4 (by decide)
    _ = W0 m ρ c (Proc.devRef .tc main_arg4) := by unwritten hostOps0
    _ = m ((c : Thread nD τ).loc main_arg4) := rfl

/-- The input table is as launched when the second gather reads it. -/
theorem arg5_at6 : W6 m ρ c (Proc.devRef .tc main_arg5) = m ((c : Thread nD τ).loc main_arg5) :=
  calc W6 m ρ c (Proc.devRef .tc main_arg5)
    _ = W5 m ρ c (Proc.devRef .tc main_arg5) := by unwritten hostOps2_1
    _ = W4 m ρ c (Proc.devRef .tc main_arg5) := by unwritten hostOps2
    _ = W3 m ρ c (Proc.devRef .tc main_arg5) := W4_of_ne m ρ c main_arg5 (by decide)
    _ = W2 m ρ c (Proc.devRef .tc main_arg5) := by unwritten hostOps1
    _ = W1 m ρ c (Proc.devRef .tc main_arg5) := W2_of_ne m ρ c main_arg5 (by decide)
    _ = W0 m ρ c (Proc.devRef .tc main_arg5) := by unwritten hostOps0
    _ = m ((c : Thread nD τ).loc main_arg5) := rfl

/-- The output table is as launched when the first scatter reads it. -/
theorem arg6_at4 : W4 m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = W2 m ρ c (Proc.devRef .tc main_arg6) := by unwritten hostOps1
    _ = W1 m ρ c (Proc.devRef .tc main_arg6) := W2_of_ne m ρ c main_arg6 (by decide)
    _ = W0 m ρ c (Proc.devRef .tc main_arg6) := by unwritten hostOps0
    _ = m ((c : Thread nD τ).loc main_arg6) := rfl

/-- The output table is as launched when the second scatter reads it. -/
theorem arg6_at10 : W10 m ρ c (Proc.devRef .tc main_arg6) = m ((c : Thread nD τ).loc main_arg6) :=
  calc W10 m ρ c (Proc.devRef .tc main_arg6)
    _ = W9 m ρ c (Proc.devRef .tc main_arg6) := W10_of_ne m ρ c main_arg6 (by decide)
    _ = W8 m ρ c (Proc.devRef .tc main_arg6) := by unwritten hostOps3
    _ = W7 m ρ c (Proc.devRef .tc main_arg6) := W8_of_ne m ρ c main_arg6 (by decide)
    _ = W6 m ρ c (Proc.devRef .tc main_arg6) := by unwritten hostOps2_2
    _ = W5 m ρ c (Proc.devRef .tc main_arg6) := by unwritten hostOps2_1
    _ = W4 m ρ c (Proc.devRef .tc main_arg6) := by unwritten hostOps2
    _ = W3 m ρ c (Proc.devRef .tc main_arg6) := W4_of_ne m ρ c main_arg6 (by decide)
    _ = W2 m ρ c (Proc.devRef .tc main_arg6) := by unwritten hostOps1
    _ = W1 m ρ c (Proc.devRef .tc main_arg6) := W2_of_ne m ρ c main_arg6 (by decide)
    _ = W0 m ρ c (Proc.devRef .tc main_arg6) := by unwritten hostOps0
    _ = m ((c : Thread nD τ).loc main_arg6) := rfl

/-- The first centre matrix is untouched between its preparation and its region. -/
theorem v9_at3 : W3 m ρ c (Proc.devRef .tc main_v9) = W1 m ρ c (Proc.devRef .tc main_v9) :=
  calc W3 m ρ c (Proc.devRef .tc main_v9)
    _ = W2 m ρ c (Proc.devRef .tc main_v9) := by unwritten hostOps1
    _ = W1 m ρ c (Proc.devRef .tc main_v9) := W2_of_ne m ρ c main_v9 (by decide)

/-- The first off-centre products are untouched until the scatter. -/
theorem v17_at4 : W4 m ρ c (Proc.devRef .tc main_v17) = W2 m ρ c (Proc.devRef .tc main_v17) :=
  calc W4 m ρ c (Proc.devRef .tc main_v17)
    _ = W3 m ρ c (Proc.devRef .tc main_v17) := W4_of_ne m ρ c main_v17 (by decide)
    _ = W2 m ρ c (Proc.devRef .tc main_v17) := by unwritten hostOps1

/-- The first layer's rectified output is untouched until the second centre region is prepared. -/
theorem v33_at8 : W8 m ρ c (Proc.devRef .tc main_v33) = W6 m ρ c (Proc.devRef .tc main_v33) :=
  calc W8 m ρ c (Proc.devRef .tc main_v33)
    _ = W7 m ρ c (Proc.devRef .tc main_v33) := W8_of_ne m ρ c main_v33 (by decide)
    _ = W6 m ρ c (Proc.devRef .tc main_v33) := by unwritten hostOps2_2

/-- The second centre matrix is untouched between its preparation and its region. -/
theorem v43_at9 : W9 m ρ c (Proc.devRef .tc main_v43) = W7 m ρ c (Proc.devRef .tc main_v43) :=
  calc W9 m ρ c (Proc.devRef .tc main_v43)
    _ = W8 m ρ c (Proc.devRef .tc main_v43) := by unwritten hostOps3
    _ = W7 m ρ c (Proc.devRef .tc main_v43) := W8_of_ne m ρ c main_v43 (by decide)

/-- The second off-centre products are untouched until the scatter. -/
theorem v51_at10 : W10 m ρ c (Proc.devRef .tc main_v51) = W8 m ρ c (Proc.devRef .tc main_v51) :=
  calc W10 m ρ c (Proc.devRef .tc main_v51)
    _ = W9 m ρ c (Proc.devRef .tc main_v51) := W10_of_ne m ρ c main_v51 (by decide)
    _ = W8 m ρ c (Proc.devRef .tc main_v51) := by unwritten hostOps3

/-! ## Each stretch from arbitrary starting contents

A stretch's result buffers as functions of the contents it starts from, whatever they are. -/

section Stretches

variable (X : Valuation τ sig (Elt Ideal))

set_option maxHeartbeats 2000000

/-- The rows gathered for the first layer. -/
theorem gather1_of : after hostOps0 X (Proc.devRef .tc main_v16) = gathered (F := Ideal) (X (Proc.devRef .tc main_arg0)) (X (Proc.devRef .tc main_arg5)) := by
  dsimp only [hostOps0]
  after_results <;> rfl

/-- The first layer's off-centre matrices. -/
theorem offW1_of : after hostOps0 X (Proc.devRef .tc main_v6) = offW (F := Ideal) (X (Proc.devRef .tc main_arg1)) := by
  dsimp only [hostOps0]
  after_results <;> rfl

/-- The first layer's centre matrix. -/
theorem cenW1_of : after hostOps0 X (Proc.devRef .tc main_v9) = cenW (F := Ideal) (X (Proc.devRef .tc main_arg1)) := by
  dsimp only [hostOps0]
  after_results <;> rfl

/-- The features rounded for the first centre region. -/
theorem round1_of : after hostOps1 X (Proc.devRef .tc main_v18) = truncf (F := Ideal) .bf16 (X (Proc.devRef .tc main_arg0)) Facts₀.bitsLt_bf16_f32 := by
  dsimp only [hostOps1]
  after_results <;> rfl

/-- The first layer's two products combined. -/
theorem combine1_of : after hostOps2 X (Proc.devRef .tc main_v32) = combine (F := Ideal) (X (Proc.devRef .tc main_v19)) (X (Proc.devRef .tc main_v17)) (X (Proc.devRef .tc main_arg2)) (X (Proc.devRef .tc main_arg6)) := by
  dsimp only [hostOps2]
  after_results <;> rfl

/-- The rectifier between the layers. -/
theorem relu1_of : after hostOps2_1 X (Proc.devRef .tc main_v33) = relu (F := Ideal) (X (Proc.devRef .tc main_v32)) := by
  dsimp only [hostOps2_1]
  after_results <;> rfl

/-- The rows gathered for the second layer. -/
theorem gather2_of : after hostOps2_2 X (Proc.devRef .tc main_v50) = gathered (F := Ideal) (X (Proc.devRef .tc main_v33)) (X (Proc.devRef .tc main_arg5)) := by
  dsimp only [hostOps2_2]
  after_results <;> rfl

/-- The second layer's off-centre matrices. -/
theorem offW2_of : after hostOps2_2 X (Proc.devRef .tc main_v40) = offW (F := Ideal) (X (Proc.devRef .tc main_arg3)) := by
  dsimp only [hostOps2_2]
  after_results <;> rfl

/-- The second layer's centre matrix. -/
theorem cenW2_of : after hostOps2_2 X (Proc.devRef .tc main_v43) = cenW (F := Ideal) (X (Proc.devRef .tc main_arg3)) := by
  dsimp only [hostOps2_2]
  after_results <;> rfl

/-- The first layer's output rounded for the second centre region. -/
theorem round2_of : after hostOps3 X (Proc.devRef .tc main_v52) = truncf (F := Ideal) .bf16 (X (Proc.devRef .tc main_v33)) Facts₀.bitsLt_bf16_f32 := by
  dsimp only [hostOps3]
  after_results <;> rfl

/-- The second layer's two products combined, the input added back. -/
theorem combine2_of : after hostOps4 X (Proc.devRef .tc main_v67) = addf (F := Ideal) (combine (F := Ideal) (X (Proc.devRef .tc main_v53)) (X (Proc.devRef .tc main_v51)) (X (Proc.devRef .tc main_arg4)) (X (Proc.devRef .tc main_arg6))) (X (Proc.devRef .tc main_arg0)) := by
  dsimp only [hostOps4]
  after_results <;> rfl

/-- The final rectifier. -/
theorem relu2_of : after hostOps4_1 X (Proc.devRef .tc main_v68) = relu (F := Ideal) (X (Proc.devRef .tc main_v67)) := by
  dsimp only [hostOps4_1]
  after_results <;> rfl

end Stretches

/-! ## The first layer -/

/-- The rows gathered for the first layer. -/
theorem v16_eq : W1 m ρ c (Proc.devRef .tc main_v16) = gathered (F := Ideal) (m ((c : Thread nD τ).loc main_arg0)) (m ((c : Thread nD τ).loc main_arg5)) := gather1_of (W0 m ρ c)

/-- The first layer's off-centre matrices. -/
theorem v6_eq : W1 m ρ c (Proc.devRef .tc main_v6) = offW (F := Ideal) (m ((c : Thread nD τ).loc main_arg1)) := offW1_of (W0 m ρ c)

/-- The first layer's centre matrix. -/
theorem v9_eq : W1 m ρ c (Proc.devRef .tc main_v9) = cenW (F := Ideal) (m ((c : Thread nD τ).loc main_arg1)) := cenW1_of (W0 m ρ c)

/-- The first off-centre region's output. -/
theorem v17_eq : W2 m ρ c (Proc.devRef .tc main_v17)
    = offsetProd (gathered (F := Ideal) (m ((c : Thread nD τ).loc main_arg0)) (m ((c : Thread nD τ).loc main_arg5))) (offW (F := Ideal) (m ((c : Thread nD τ).loc main_arg1))) := by
  refine (W2_arr m ρ c 2).trans ?_
  refine (Cert.KernelIdeal.Offset0.final (V1 m ρ) c).trans ?_
  show offsetProd (W1 m ρ c (Proc.devRef .tc main_v16)) (W1 m ρ c (Proc.devRef .tc main_v6)) = _
  rw [v16_eq, v6_eq]

/-- The features rounded for the first centre region. -/
theorem v18_eq : W3 m ρ c (Proc.devRef .tc main_v18) = truncf (F := Ideal) .bf16 (m ((c : Thread nD τ).loc main_arg0)) Facts₀.bitsLt_bf16_f32 := by
  refine (round1_of (W2 m ρ c)).trans ?_
  rw [arg0_at2]

/-- The first centre region's output. -/
theorem v19_eq : W4 m ρ c (Proc.devRef .tc main_v19)
    = centreProd (truncf (F := Ideal) .bf16 (m ((c : Thread nD τ).loc main_arg0)) Facts₀.bitsLt_bf16_f32) (cenW (F := Ideal) (m ((c : Thread nD τ).loc main_arg1))) := by
  refine (W4_arr m ρ c 2).trans ?_
  refine (Cert.KernelIdeal.Centre1.final (V3 m ρ) c).trans ?_
  show centreProd (W3 m ρ c (Proc.devRef .tc main_v18)) (W3 m ρ c (Proc.devRef .tc main_v9)) = _
  rw [v18_eq, v9_at3, v9_eq]

/-- The first layer's output before the rectifier. -/
theorem v32_eq : W5 m ρ c (Proc.devRef .tc main_v32) = layer (m ((c : Thread nD τ).loc main_arg0)) (m ((c : Thread nD τ).loc main_arg1)) (m ((c : Thread nD τ).loc main_arg2)) (m ((c : Thread nD τ).loc main_arg5)) (m ((c : Thread nD τ).loc main_arg6)) := by
  refine (combine1_of (W4 m ρ c)).trans ?_
  rw [v19_eq, v17_at4, v17_eq, arg6_at4, arg2_at4]
  rfl

/-- The first layer's output. -/
theorem v33_eq : W6 m ρ c (Proc.devRef .tc main_v33) = relu (F := Ideal) (layer (m ((c : Thread nD τ).loc main_arg0)) (m ((c : Thread nD τ).loc main_arg1)) (m ((c : Thread nD τ).loc main_arg2)) (m ((c : Thread nD τ).loc main_arg5)) (m ((c : Thread nD τ).loc main_arg6))) := by
  refine (relu1_of (W5 m ρ c)).trans ?_
  rw [v32_eq]

/-! ## The second layer -/

/-- The rows gathered for the second layer. -/
theorem v50_eq : W7 m ρ c (Proc.devRef .tc main_v50)
    = gathered (F := Ideal) (relu (F := Ideal) (layer (m ((c : Thread nD τ).loc main_arg0)) (m ((c : Thread nD τ).loc main_arg1)) (m ((c : Thread nD τ).loc main_arg2)) (m ((c : Thread nD τ).loc main_arg5)) (m ((c : Thread nD τ).loc main_arg6)))) (m ((c : Thread nD τ).loc main_arg5)) := by
  refine (gather2_of (W6 m ρ c)).trans ?_
  rw [v33_eq, arg5_at6]

/-- The second layer's off-centre matrices. -/
theorem v40_eq : W7 m ρ c (Proc.devRef .tc main_v40) = offW (F := Ideal) (m ((c : Thread nD τ).loc main_arg3)) := by
  refine (offW2_of (W6 m ρ c)).trans ?_
  rw [arg3_at6]

/-- The second layer's centre matrix. -/
theorem v43_eq : W7 m ρ c (Proc.devRef .tc main_v43) = cenW (F := Ideal) (m ((c : Thread nD τ).loc main_arg3)) := by
  refine (cenW2_of (W6 m ρ c)).trans ?_
  rw [arg3_at6]

/-- The second off-centre region's output. -/
theorem v51_eq : W8 m ρ c (Proc.devRef .tc main_v51)
    = offsetProd (gathered (F := Ideal) (relu (F := Ideal) (layer (m ((c : Thread nD τ).loc main_arg0)) (m ((c : Thread nD τ).loc main_arg1)) (m ((c : Thread nD τ).loc main_arg2)) (m ((c : Thread nD τ).loc main_arg5)) (m ((c : Thread nD τ).loc main_arg6)))) (m ((c : Thread nD τ).loc main_arg5))) (offW (F := Ideal) (m ((c : Thread nD τ).loc main_arg3))) := by
  refine (W8_arr m ρ c 2).trans ?_
  refine (Cert.KernelIdeal.Offset2.final (V7 m ρ) c).trans ?_
  show offsetProd (W7 m ρ c (Proc.devRef .tc main_v50)) (W7 m ρ c (Proc.devRef .tc main_v40)) = _
  rw [v50_eq, v40_eq]

/-- The first layer's output rounded for the second centre region. -/
theorem v52_eq : W9 m ρ c (Proc.devRef .tc main_v52)
    = truncf (F := Ideal) .bf16 (relu (F := Ideal) (layer (m ((c : Thread nD τ).loc main_arg0)) (m ((c : Thread nD τ).loc main_arg1)) (m ((c : Thread nD τ).loc main_arg2)) (m ((c : Thread nD τ).loc main_arg5)) (m ((c : Thread nD τ).loc main_arg6)))) Facts₀.bitsLt_bf16_f32 := by
  refine (round2_of (W8 m ρ c)).trans ?_
  rw [v33_at8, v33_eq]

/-- The second centre region's output. -/
theorem v53_eq : W10 m ρ c (Proc.devRef .tc main_v53)
    = centreProd (truncf (F := Ideal) .bf16 (relu (F := Ideal) (layer (m ((c : Thread nD τ).loc main_arg0)) (m ((c : Thread nD τ).loc main_arg1)) (m ((c : Thread nD τ).loc main_arg2)) (m ((c : Thread nD τ).loc main_arg5)) (m ((c : Thread nD τ).loc main_arg6)))) Facts₀.bitsLt_bf16_f32) (cenW (F := Ideal) (m ((c : Thread nD τ).loc main_arg3))) := by
  refine (W10_arr m ρ c 2).trans ?_
  refine (Cert.KernelIdeal.Centre3.final (V9 m ρ) c).trans ?_
  show centreProd (W9 m ρ c (Proc.devRef .tc main_v52)) (W9 m ρ c (Proc.devRef .tc main_v43)) = _
  rw [v52_eq, v43_at9, v43_eq]

/-- The second layer's output with the input added back. -/
theorem v67_eq : W11 m ρ c (Proc.devRef .tc main_v67)
    = addf (F := Ideal) (layer (relu (F := Ideal) (layer (m ((c : Thread nD τ).loc main_arg0)) (m ((c : Thread nD τ).loc main_arg1)) (m ((c : Thread nD τ).loc main_arg2)) (m ((c : Thread nD τ).loc main_arg5)) (m ((c : Thread nD τ).loc main_arg6)))) (m ((c : Thread nD τ).loc main_arg3)) (m ((c : Thread nD τ).loc main_arg4)) (m ((c : Thread nD τ).loc main_arg5)) (m ((c : Thread nD τ).loc main_arg6))) (m ((c : Thread nD τ).loc main_arg0)) := by
  refine (combine2_of (W10 m ρ c)).trans ?_
  rw [v53_eq, v51_at10, v51_eq, arg6_at10, arg4_at10, arg0_at10]
  rfl

/-- THE RESULT: the residual block of the argument arrays. -/
theorem result_eq : W12 m ρ c (Proc.devRef .tc main_v68)
    = block (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (relu2_of (W11 m ρ c)).trans ?_
  rw [v67_eq]
  rfl

end Cert.KernelIdeal.Fold

end
-- ==== Proof.RefLayer.lean ====
/-
  The reference's layer and its two products.

  The reference computes the same layer as the kernel with plain products: the gathered rows of offset o against the
  matrix for o as one batched product, the features against the centre matrix as one plain product; everything around
  the products — padding with a zero row, the index tables read with negative entries counting from the end, the
  scatter-add, the dropped padding row, the bias — is the same sequence of operations. The program is two applications
  of the layer, a rectifier between, the input added back and a final rectifier. At the exact values the plain product
  is the whole-array centre product and the batched product the whole-array off-centre products.
-/
import proofs.«168265_j19971597926625_1_alg».proof.Proof.Gen.ReferenceIdeal
import Idealize.ShloMosaic.Lib.ValueIdx
import Idealize.ShloMosaic.PureOps.Ideal.Laws
import proofs.«168265_j19971597926625_1_alg».proof.Proof.Products

set_option maxRecDepth 16384

noncomputable section

namespace Cert.ReferenceIdeal.RefValue

open Cert.ReferenceIdeal Cert.ReferenceIdeal.Facts₀
open Idealize.ShloMosaic Idealize.ShloMosaic.TcCoe Idealize.ShloMosaic.ValueIdx Idealize.SL.Sem
open scoped BigOperators

variable {F : FTy → Type} [FloatOps F]

/-- An index table as the gather and the scatter read it: a negative entry counts from the end of the padded array,
    and every entry becomes a one-coordinate index vector. -/
def wrap (ix : IVec S26x65536 32) : IVec S26x65536x1 32 :=
  broadcastInDim S26x65536x1 ![0, 1] bcast_S26x65536_S26x65536x1_0_1
    (select (cmpi .slt ix (broadcastInDim S26x65536 ![] bcast_S_S26x65536 (constantI S_ 32 0#32)))
      (addi ix (broadcastInDim S26x65536 ![] bcast_S_S26x65536 (constantI S_ 32 262145#32))) ix)

/-- The array with one zero row appended. -/
def pad (h : FVec F S262144x64 .f32) : FVec F S262145x64 .f32 :=
  concatenate S262145x64 0 [⟨S262144x64, h⟩, ⟨S1x64, broadcastInDim S1x64 ![] bcast_S_S1x64 (constant S_ .f32 0x00000000#32)⟩]
    concatenates_S262144x64_S1x64_S262145x64_d0

/-- The layer's result from its two products. -/
def combine (cen : FVec F S262144x64 .f32) (off : FVec F S26x65536x64 .f32) (b : FVec F S64 .f32)
    (oi : IVec S26x65536 32) : FVec F S262144x64 .f32 :=
  addf (extractStridedSlice S262144x64 ![0, 0]
      (Host.scatterAdd scatter_S262145x64_S26x65536x1_S26x65536x64_2_0_0_2 (pad cen) (wrap oi) off)
      slices_S262145x64_S262144x64_0_0)
    (broadcastInDim S262144x64 ![0, 1] bcast_S1x64_S262144x64_0_1 (broadcastInDim S1x64 ![1] bcast_S64_S1x64_1 b))

/-- max(·, 0), entry by entry. -/
def relu (h : FVec F S262144x64 .f32) : FVec F S262144x64 .f32 :=
  maximumf h (broadcastInDim S262144x64 ![] bcast_S_S262144x64 (constant S_ .f32 0x00000000#32))

/-- The rows gathered for the 26 off-centre offsets. -/
def gathered (h : FVec F S262144x64 .f32) (ii : IVec S26x65536 32) : FVec F S26x65536x64 .f32 :=
  Host.gather gather_S262145x64_S26x65536x1_S26x65536x64_2_0_n_n_0_2_164 (pad h) (wrap ii)

/-- The 26 off-centre matrices: W without its 14th. -/
def offW (W : FVec F S27x64x64 .f32) : FVec F S26x64x64 .f32 :=
  concatenate S26x64x64 0
    [⟨S13x64x64, extractStridedSlice S13x64x64 ![0, 0, 0] W slices_S27x64x64_S13x64x64_0_0_0⟩,
     ⟨S13x64x64, extractStridedSlice S13x64x64 ![14, 0, 0] W slices_S27x64x64_S13x64x64_14_0_0⟩]
    concatenates_S13x64x64_S13x64x64_S26x64x64_d0

/-- The centre matrix: W's 14th. -/
def cenW (W : FVec F S27x64x64 .f32) : FVec F S64x64 .f32 :=
  shapeCast S64x64 (extractStridedSlice S1x64x64 ![13, 0, 0] W slices_S27x64x64_S1x64x64_13_0_0) shapeCasts_S1x64x64_S64x64

/-- The layer as the reference computes it. -/
def layer (h : FVec F S262144x64 .f32) (W : FVec F S27x64x64 .f32) (b : FVec F S64 .f32) (ii oi : IVec S26x65536 32) :
    FVec F S262144x64 .f32 :=
  combine (Host.dotGeneral dot_S262144x64_S64x64_S262144x64_1_0_0_1_n_n none h (cenW W))
    (Host.dotGeneral dot_S26x65536x64_S26x64x64_S26x65536x64_2_1_1_2_0_0 none (gathered h ii) (offW W)) b oi

/-- The residual block. -/
def block (x : FVec F S262144x64 .f32) (W1 : FVec F S27x64x64 .f32) (b1 : FVec F S64 .f32)
    (W2 : FVec F S27x64x64 .f32) (b2 : FVec F S64 .f32) (ii oi : IVec S26x65536 32) : FVec F S262144x64 .f32 :=
  relu (addf (layer (relu (layer x W1 b1 ii oi)) W2 b2 ii oi) x)

/-! ## The reference's two products at the exact values -/

/-- The plain product is the centre product. -/
theorem centre_dot (x : FVec Ideal S262144x64 .f32) (w : FVec Ideal S64x64 .f32) :
    Host.dotGeneral (F := Ideal) dot_S262144x64_S64x64_S262144x64_1_0_0_1_n_n none x w = Cert.SparseConv.centreProd x w :=
  Cert.SparseConv.dotGeneral_eq_centreProd dot_S262144x64_S64x64_S262144x64_1_0_0_1_n_n_wf x w

/-- Where the batched product reads its operands: at result index i and channel position q the left operand is read
    at (i's offset, i's row, q) and the right at (i's offset, q, i's column) — the offset is the batch axis of both,
    the row and the column the free axes, the channel the contracted one. -/
theorem lhs_offset (i : S26x65536x64.Idx) (q : (dot_S26x65536x64_S26x64x64_S26x65536x64_2_1_1_2_0_0).contr.Idx) :
    ((dot_S26x65536x64_S26x64x64_S26x65536x64_2_1_1_2_0_0).lhsIdx i q 0).val = (i 0).val := by
  unfold DotDims.lhsIdx
  rw [dif_pos (show (0 : Fin S26x65536x64.rank) ∈ (dot_S26x65536x64_S26x64x64_S26x65536x64_2_1_1_2_0_0).lhsBatch by decide)]
  rfl
theorem lhs_row (i : S26x65536x64.Idx) (q : (dot_S26x65536x64_S26x64x64_S26x65536x64_2_1_1_2_0_0).contr.Idx) :
    ((dot_S26x65536x64_S26x64x64_S26x65536x64_2_1_1_2_0_0).lhsIdx i q 1).val = (i 1).val := by
  unfold DotDims.lhsIdx
  rw [dif_neg (show ¬(1 : Fin S26x65536x64.rank) ∈ (dot_S26x65536x64_S26x64x64_S26x65536x64_2_1_1_2_0_0).lhsBatch by decide),
    dif_pos (show (1 : Fin S26x65536x64.rank) ∈ (dot_S26x65536x64_S26x64x64_S26x65536x64_2_1_1_2_0_0).lhsNonContracting by decide)]
  rfl
theorem lhs_channel (i : S26x65536x64.Idx) (q : (dot_S26x65536x64_S26x64x64_S26x65536x64_2_1_1_2_0_0).contr.Idx) :
    ((dot_S26x65536x64_S26x64x64_S26x65536x64_2_1_1_2_0_0).lhsIdx i q 2).val = (q ⟨0, by decide⟩).val :=
  (dot_S26x65536x64_S26x64x64_S26x65536x64_2_1_1_2_0_0).lhsIdx_val_of_single rfl i q
theorem rhs_offset (i : S26x65536x64.Idx) (q : (dot_S26x65536x64_S26x64x64_S26x65536x64_2_1_1_2_0_0).contr.Idx) :
    ((dot_S26x65536x64_S26x64x64_S26x65536x64_2_1_1_2_0_0).rhsIdx i q 0).val = (i 0).val := by
  unfold DotDims.rhsIdx
  rw [dif_pos (show (0 : Fin S26x64x64.rank) ∈ (dot_S26x65536x64_S26x64x64_S26x65536x64_2_1_1_2_0_0).rhsBatch by decide)]
  rfl
theorem rhs_channel (i : S26x65536x64.Idx) (q : (dot_S26x65536x64_S26x64x64_S26x65536x64_2_1_1_2_0_0).contr.Idx) :
    ((dot_S26x65536x64_S26x64x64_S26x65536x64_2_1_1_2_0_0).rhsIdx i q 1).val = (q ⟨0, by decide⟩).val :=
  (dot_S26x65536x64_S26x64x64_S26x65536x64_2_1_1_2_0_0).rhsIdx_val_of_single rfl i q
theorem rhs_col (i : S26x65536x64.Idx) (q : (dot_S26x65536x64_S26x64x64_S26x65536x64_2_1_1_2_0_0).contr.Idx) :
    ((dot_S26x65536x64_S26x64x64_S26x65536x64_2_1_1_2_0_0).rhsIdx i q 2).val = (i 2).val := by
  unfold DotDims.rhsIdx
  rw [dif_neg (show ¬(2 : Fin S26x64x64.rank) ∈ (dot_S26x65536x64_S26x64x64_S26x65536x64_2_1_1_2_0_0).rhsBatch by decide),
    dif_pos (show (2 : Fin S26x64x64.rank) ∈ (dot_S26x65536x64_S26x64x64_S26x65536x64_2_1_1_2_0_0).rhsNonContracting by decide)]
  rfl

/-- The batched product is the off-centre products: the batch axis is the offset, the contracted axis the channel. -/
theorem offset_dot (g : FVec Ideal S26x65536x64 .f32) (w : FVec Ideal S26x64x64 .f32) :
    Host.dotGeneral (F := Ideal) dot_S26x65536x64_S26x64x64_S26x65536x64_2_1_1_2_0_0 none g w = Cert.SparseConv.offsetProd g w := by
  funext i
  obtain ⟨o, r, d, rfl⟩ : ∃ (o : Fin 26) (r : Fin 65536) (d : Fin 64), i = ix3 o r d := ⟨i 0, i 1, i 2, eq_ix3 i⟩
  refine (Ideal.dotGeneral_apply dot_S26x65536x64_S26x64x64_S26x65536x64_2_1_1_2_0_0 none _ g w (ix3 o r d)).trans ?_
  rw [← Equiv.sum_comp (contrEquiv1 dot_S26x65536x64_S26x64x64_S26x65536x64_2_1_1_2_0_0 64 rfl rfl).symm]
  refine Finset.sum_congr rfl fun k _ => ?_
  have hk := contrEquiv1_symm_val dot_S26x65536x64_S26x64x64_S26x65536x64_2_1_1_2_0_0 64 rfl rfl k
  have el : dot_S26x65536x64_S26x64x64_S26x65536x64_2_1_1_2_0_0.lhsIdx (ix3 o r d)
      ((contrEquiv1 dot_S26x65536x64_S26x64x64_S26x65536x64_2_1_1_2_0_0 64 rfl rfl).symm k) = ix3 o r k :=
    funext fun a => Fin.ext (by
      match a with
      | ⟨0, _⟩ => exact lhs_offset _ _
      | ⟨1, _⟩ => exact lhs_row _ _
      | ⟨2, _⟩ => exact (lhs_channel _ _).trans hk)
  have er : dot_S26x65536x64_S26x64x64_S26x65536x64_2_1_1_2_0_0.rhsIdx (ix3 o r d)
      ((contrEquiv1 dot_S26x65536x64_S26x64x64_S26x65536x64_2_1_1_2_0_0 64 rfl rfl).symm k) = ix3 o k d :=
    funext fun a => Fin.ext (by
      match a with
      | ⟨0, _⟩ => exact rhs_offset _ _
      | ⟨1, _⟩ => exact (rhs_channel _ _).trans hk
      | ⟨2, _⟩ => exact rhs_col _ _)
  rw [el, er]

end Cert.ReferenceIdeal.RefValue

end
-- ==== Proof.LibAfterAppend.lean ====
/-
  The contents after two lines of host operations run one after the other.

  The buffers' contents after a list of operations is a fold: each operation in turn rewrites the buffers it writes. Over a
  list that is one line followed by another, the fold is the second line's fold started from the first line's result. This
  lets a long line be read in stretches, the contents between two stretches named once. It holds over any signature and
  any value type.
-/
import Idealize.ShloMosaic.Lib.StableHlo.Run

noncomputable section

namespace Cert.Lib.AfterAppend

open Idealize.ShloMosaic Idealize.ShloMosaic.StableHlo

variable {τ : Topo} {sig : RefSig} {Val : EltTy → Type}

/-- After `l₁` followed by `l₂`: after `l₂`, from what `l₁` left. -/
theorem after_append (l₁ l₂ : List (HloOp τ sig Val)) (V : Valuation τ sig Val) :
    after (l₁ ++ l₂) V = after l₂ (after l₁ V) := by
  induction l₁ generalizing V with
  | nil => rfl
  | cons op l ih => exact ih (op.result V)

end Cert.Lib.AfterAppend

end
-- ==== Proof.RefRun.lean ====
/-
  The reference's run: every execution ends with the result buffer at the residual block of the arguments.

  The reference is a straight line of 77 host operations. Every weakly fair execution of such a line terminates with
  each buffer at the fold of the operations over the launch contents. The fold over a line that is one stretch after
  another is the later stretch's fold from what the earlier one left, so the line is read in six stretches — each
  layer up to its two products, then from the products to the bias, and the two rectifiers —, each stretch's
  result a function of the contents one boundary earlier; a buffer a stretch does not write keeps its contents. The
  arguments are written by nothing.
-/
import proofs.«168265_j19971597926625_1_alg».proof.Proof.Gen.ReferenceIdeal
import proofs.«168265_j19971597926625_1_alg».proof.Proof.RefLayer
import proofs.«168265_j19971597926625_1_alg».proof.Proof.LibAfterAppend
import Idealize.ShloMosaic.Lib.StableHlo.Run

set_option maxRecDepth 16384

noncomputable section

namespace Cert.ReferenceIdeal.RefRun

open Cert.ReferenceIdeal Cert.ReferenceIdeal.Gen Cert.ReferenceIdeal.RefValue
open Idealize.ShloMosaic Idealize.ShloMosaic.TcCoe Idealize.SL.Sem Idealize.ShloMosaic.StableHlo

variable {F : FTy → Type} [FloatOps F]

/-! ## The program as a list of operations -/

/-- @main's 77 operations, in order, the two rectifier calls' operations in their calls' places. -/
abbrev ops : List (HloOp τ sig (Elt F)) :=
  [ nullary main_cst (constant S_ .f32 0x00000000#32),
    unary main_cst main_v0 (broadcastInDim S1x64 ![] bcast_S_S1x64 : (⟨S_, .f32⟩ : BufTy).Contents (Elt F) → (⟨S1x64, .f32⟩ : BufTy).Contents (Elt F)),
    binary main_arg0 main_v0 main_v1 ((fun a b => concatenate S262145x64 0 [⟨S262144x64, a⟩, ⟨S1x64, b⟩] concatenates_S262144x64_S1x64_S262145x64_d0) : (⟨S262144x64, .f32⟩ : BufTy).Contents (Elt F) → (⟨S1x64, .f32⟩ : BufTy).Contents (Elt F) → (⟨S262145x64, .f32⟩ : BufTy).Contents (Elt F)),
    unary main_arg1 main_v2 ((extractStridedSlice S13x64x64 ![0, 0, 0] · slices_S27x64x64_S13x64x64_0_0_0) : (⟨S27x64x64, .f32⟩ : BufTy).Contents (Elt F) → (⟨S13x64x64, .f32⟩ : BufTy).Contents (Elt F)),
    unary main_arg1 main_v3 ((extractStridedSlice S13x64x64 ![14, 0, 0] · slices_S27x64x64_S13x64x64_14_0_0) : (⟨S27x64x64, .f32⟩ : BufTy).Contents (Elt F) → (⟨S13x64x64, .f32⟩ : BufTy).Contents (Elt F)),
    binary main_v2 main_v3 main_v4 ((fun a b => concatenate S26x64x64 0 [⟨S13x64x64, a⟩, ⟨S13x64x64, b⟩] concatenates_S13x64x64_S13x64x64_S26x64x64_d0) : (⟨S13x64x64, .f32⟩ : BufTy).Contents (Elt F) → (⟨S13x64x64, .f32⟩ : BufTy).Contents (Elt F) → (⟨S26x64x64, .f32⟩ : BufTy).Contents (Elt F)),
    nullary main_c (constantI S_ 32 0#32),
    unary main_c main_v5 (broadcastInDim S26x65536 ![] bcast_S_S26x65536 : (⟨S_, .i32⟩ : BufTy).Contents (Elt F) → (⟨S26x65536, .i32⟩ : BufTy).Contents (Elt F)),
    binary main_arg5 main_v5 main_v6 (cmpi .slt : (⟨S26x65536, .i32⟩ : BufTy).Contents (Elt F) → (⟨S26x65536, .i32⟩ : BufTy).Contents (Elt F) → (⟨S26x65536, .i1⟩ : BufTy).Contents (Elt F)),
    nullary main_c_0 (constantI S_ 32 262145#32),
    unary main_c_0 main_v7 (broadcastInDim S26x65536 ![] bcast_S_S26x65536 : (⟨S_, .i32⟩ : BufTy).Contents (Elt F) → (⟨S26x65536, .i32⟩ : BufTy).Contents (Elt F)),
    binary main_arg5 main_v7 main_v8 (addi : (⟨S26x65536, .i32⟩ : BufTy).Contents (Elt F) → (⟨S26x65536, .i32⟩ : BufTy).Contents (Elt F) → (⟨S26x65536, .i32⟩ : BufTy).Contents (Elt F)),
    ternary main_v6 main_v8 main_arg5 main_v9 (select : (⟨S26x65536, .i1⟩ : BufTy).Contents (Elt F) → (⟨S26x65536, .i32⟩ : BufTy).Contents (Elt F) → (⟨S26x65536, .i32⟩ : BufTy).Contents (Elt F) → (⟨S26x65536, .i32⟩ : BufTy).Contents (Elt F)),
    unary main_v9 main_v10 (broadcastInDim S26x65536x1 ![0, 1] bcast_S26x65536_S26x65536x1_0_1 : (⟨S26x65536, .i32⟩ : BufTy).Contents (Elt F) → (⟨S26x65536x1, .i32⟩ : BufTy).Contents (Elt F)),
    binary main_v1 main_v10 main_v11 ((fun x i => Host.gather gather_S262145x64_S26x65536x1_S26x65536x64_2_0_n_n_0_2_164 x i) : (⟨S262145x64, .f32⟩ : BufTy).Contents (Elt F) → (⟨S26x65536x1, .i32⟩ : BufTy).Contents (Elt F) → (⟨S26x65536x64, .f32⟩ : BufTy).Contents (Elt F)),
    binary main_v11 main_v4 main_v12 ((fun l r => Host.dotGeneral dot_S26x65536x64_S26x64x64_S26x65536x64_2_1_1_2_0_0 none l r) : (⟨S26x65536x64, .f32⟩ : BufTy).Contents (Elt F) → (⟨S26x64x64, .f32⟩ : BufTy).Contents (Elt F) → (⟨S26x65536x64, .f32⟩ : BufTy).Contents (Elt F)),
    unary main_arg1 main_v13 ((extractStridedSlice S1x64x64 ![13, 0, 0] · slices_S27x64x64_S1x64x64_13_0_0) : (⟨S27x64x64, .f32⟩ : BufTy).Contents (Elt F) → (⟨S1x64x64, .f32⟩ : BufTy).Contents (Elt F)),
    reshape main_v13 main_v14 rfl shapeCasts_S1x64x64_S64x64,
    binary main_arg0 main_v14 main_v15 ((fun l r => Host.dotGeneral dot_S262144x64_S64x64_S262144x64_1_0_0_1_n_n none l r) : (⟨S262144x64, .f32⟩ : BufTy).Contents (Elt F) → (⟨S64x64, .f32⟩ : BufTy).Contents (Elt F) → (⟨S262144x64, .f32⟩ : BufTy).Contents (Elt F)),
    nullary main_cst_1 (constant S_ .f32 0x00000000#32),
    unary main_cst_1 main_v16 (broadcastInDim S1x64 ![] bcast_S_S1x64 : (⟨S_, .f32⟩ : BufTy).Contents (Elt F) → (⟨S1x64, .f32⟩ : BufTy).Contents (Elt F)),
    binary main_v15 main_v16 main_v17 ((fun a b => concatenate S262145x64 0 [⟨S262144x64, a⟩, ⟨S1x64, b⟩] concatenates_S262144x64_S1x64_S262145x64_d0) : (⟨S262144x64, .f32⟩ : BufTy).Contents (Elt F) → (⟨S1x64, .f32⟩ : BufTy).Contents (Elt F) → (⟨S262145x64, .f32⟩ : BufTy).Contents (Elt F)),
    nullary main_c_2 (constantI S_ 32 0#32),
    unary main_c_2 main_v18 (broadcastInDim S26x65536 ![] bcast_S_S26x65536 : (⟨S_, .i32⟩ : BufTy).Contents (Elt F) → (⟨S26x65536, .i32⟩ : BufTy).Contents (Elt F)),
    binary main_arg6 main_v18 main_v19 (cmpi .slt : (⟨S26x65536, .i32⟩ : BufTy).Contents (Elt F) → (⟨S26x65536, .i32⟩ : BufTy).Contents (Elt F) → (⟨S26x65536, .i1⟩ : BufTy).Contents (Elt F)),
    nullary main_c_3 (constantI S_ 32 262145#32),
    unary main_c_3 main_v20 (broadcastInDim S26x65536 ![] bcast_S_S26x65536 : (⟨S_, .i32⟩ : BufTy).Contents (Elt F) → (⟨S26x65536, .i32⟩ : BufTy).Contents (Elt F)),
    binary main_arg6 main_v20 main_v21 (addi : (⟨S26x65536, .i32⟩ : BufTy).Contents (Elt F) → (⟨S26x65536, .i32⟩ : BufTy).Contents (Elt F) → (⟨S26x65536, .i32⟩ : BufTy).Contents (Elt F)),
    ternary main_v19 main_v21 main_arg6 main_v22 (select : (⟨S26x65536, .i1⟩ : BufTy).Contents (Elt F) → (⟨S26x65536, .i32⟩ : BufTy).Contents (Elt F) → (⟨S26x65536, .i32⟩ : BufTy).Contents (Elt F) → (⟨S26x65536, .i32⟩ : BufTy).Contents (Elt F)),
    unary main_v22 main_v23 (broadcastInDim S26x65536x1 ![0, 1] bcast_S26x65536_S26x65536x1_0_1 : (⟨S26x65536, .i32⟩ : BufTy).Contents (Elt F) → (⟨S26x65536x1, .i32⟩ : BufTy).Contents (Elt F)),
    ternary main_v17 main_v23 main_v12 main_v24 ((fun x i u => Host.scatterAdd scatter_S262145x64_S26x65536x1_S26x65536x64_2_0_0_2 x i u) : (⟨S262145x64, .f32⟩ : BufTy).Contents (Elt F) → (⟨S26x65536x1, .i32⟩ : BufTy).Contents (Elt F) → (⟨S26x65536x64, .f32⟩ : BufTy).Contents (Elt F) → (⟨S262145x64, .f32⟩ : BufTy).Contents (Elt F)),
    unary main_v24 main_v25 ((extractStridedSlice S262144x64 ![0, 0] · slices_S262145x64_S262144x64_0_0) : (⟨S262145x64, .f32⟩ : BufTy).Contents (Elt F) → (⟨S262144x64, .f32⟩ : BufTy).Contents (Elt F)),
    unary main_arg2 main_v26 (broadcastInDim S1x64 ![1] bcast_S64_S1x64_1 : (⟨S64, .f32⟩ : BufTy).Contents (Elt F) → (⟨S1x64, .f32⟩ : BufTy).Contents (Elt F)),
    unary main_v26 main_v27 (broadcastInDim S262144x64 ![0, 1] bcast_S1x64_S262144x64_0_1 : (⟨S1x64, .f32⟩ : BufTy).Contents (Elt F) → (⟨S262144x64, .f32⟩ : BufTy).Contents (Elt F)),
    binary main_v25 main_v27 main_v28 (addf : (⟨S262144x64, .f32⟩ : BufTy).Contents (Elt F) → (⟨S262144x64, .f32⟩ : BufTy).Contents (Elt F) → (⟨S262144x64, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S262144x64, .f32⟩) main_call0_v0) (broadcastInDim S262144x64 ![] bcast_S_S262144x64),
    TRef.binary (TRef.of (T := ⟨S262144x64, .f32⟩) main_v28) (TRef.of (T := ⟨S262144x64, .f32⟩) main_call0_v0) (TRef.of (T := ⟨S262144x64, .f32⟩) main_v29) maximumf,
    nullary main_cst_4 (constant S_ .f32 0x00000000#32),
    unary main_cst_4 main_v30 (broadcastInDim S1x64 ![] bcast_S_S1x64 : (⟨S_, .f32⟩ : BufTy).Contents (Elt F) → (⟨S1x64, .f32⟩ : BufTy).Contents (Elt F)),
    binary main_v29 main_v30 main_v31 ((fun a b => concatenate S262145x64 0 [⟨S262144x64, a⟩, ⟨S1x64, b⟩] concatenates_S262144x64_S1x64_S262145x64_d0) : (⟨S262144x64, .f32⟩ : BufTy).Contents (Elt F) → (⟨S1x64, .f32⟩ : BufTy).Contents (Elt F) → (⟨S262145x64, .f32⟩ : BufTy).Contents (Elt F)),
    unary main_arg3 main_v32 ((extractStridedSlice S13x64x64 ![0, 0, 0] · slices_S27x64x64_S13x64x64_0_0_0) : (⟨S27x64x64, .f32⟩ : BufTy).Contents (Elt F) → (⟨S13x64x64, .f32⟩ : BufTy).Contents (Elt F)),
    unary main_arg3 main_v33 ((extractStridedSlice S13x64x64 ![14, 0, 0] · slices_S27x64x64_S13x64x64_14_0_0) : (⟨S27x64x64, .f32⟩ : BufTy).Contents (Elt F) → (⟨S13x64x64, .f32⟩ : BufTy).Contents (Elt F)),
    binary main_v32 main_v33 main_v34 ((fun a b => concatenate S26x64x64 0 [⟨S13x64x64, a⟩, ⟨S13x64x64, b⟩] concatenates_S13x64x64_S13x64x64_S26x64x64_d0) : (⟨S13x64x64, .f32⟩ : BufTy).Contents (Elt F) → (⟨S13x64x64, .f32⟩ : BufTy).Contents (Elt F) → (⟨S26x64x64, .f32⟩ : BufTy).Contents (Elt F)),
    nullary main_c_5 (constantI S_ 32 0#32),
    unary main_c_5 main_v35 (broadcastInDim S26x65536 ![] bcast_S_S26x65536 : (⟨S_, .i32⟩ : BufTy).Contents (Elt F) → (⟨S26x65536, .i32⟩ : BufTy).Contents (Elt F)),
    binary main_arg5 main_v35 main_v36 (cmpi .slt : (⟨S26x65536, .i32⟩ : BufTy).Contents (Elt F) → (⟨S26x65536, .i32⟩ : BufTy).Contents (Elt F) → (⟨S26x65536, .i1⟩ : BufTy).Contents (Elt F)),
    nullary main_c_6 (constantI S_ 32 262145#32),
    unary main_c_6 main_v37 (broadcastInDim S26x65536 ![] bcast_S_S26x65536 : (⟨S_, .i32⟩ : BufTy).Contents (Elt F) → (⟨S26x65536, .i32⟩ : BufTy).Contents (Elt F)),
    binary main_arg5 main_v37 main_v38 (addi : (⟨S26x65536, .i32⟩ : BufTy).Contents (Elt F) → (⟨S26x65536, .i32⟩ : BufTy).Contents (Elt F) → (⟨S26x65536, .i32⟩ : BufTy).Contents (Elt F)),
    ternary main_v36 main_v38 main_arg5 main_v39 (select : (⟨S26x65536, .i1⟩ : BufTy).Contents (Elt F) → (⟨S26x65536, .i32⟩ : BufTy).Contents (Elt F) → (⟨S26x65536, .i32⟩ : BufTy).Contents (Elt F) → (⟨S26x65536, .i32⟩ : BufTy).Contents (Elt F)),
    unary main_v39 main_v40 (broadcastInDim S26x65536x1 ![0, 1] bcast_S26x65536_S26x65536x1_0_1 : (⟨S26x65536, .i32⟩ : BufTy).Contents (Elt F) → (⟨S26x65536x1, .i32⟩ : BufTy).Contents (Elt F)),
    binary main_v31 main_v40 main_v41 ((fun x i => Host.gather gather_S262145x64_S26x65536x1_S26x65536x64_2_0_n_n_0_2_164 x i) : (⟨S262145x64, .f32⟩ : BufTy).Contents (Elt F) → (⟨S26x65536x1, .i32⟩ : BufTy).Contents (Elt F) → (⟨S26x65536x64, .f32⟩ : BufTy).Contents (Elt F)),
    binary main_v41 main_v34 main_v42 ((fun l r => Host.dotGeneral dot_S26x65536x64_S26x64x64_S26x65536x64_2_1_1_2_0_0 none l r) : (⟨S26x65536x64, .f32⟩ : BufTy).Contents (Elt F) → (⟨S26x64x64, .f32⟩ : BufTy).Contents (Elt F) → (⟨S26x65536x64, .f32⟩ : BufTy).Contents (Elt F)),
    unary main_arg3 main_v43 ((extractStridedSlice S1x64x64 ![13, 0, 0] · slices_S27x64x64_S1x64x64_13_0_0) : (⟨S27x64x64, .f32⟩ : BufTy).Contents (Elt F) → (⟨S1x64x64, .f32⟩ : BufTy).Contents (Elt F)),
    reshape main_v43 main_v44 rfl shapeCasts_S1x64x64_S64x64,
    binary main_v29 main_v44 main_v45 ((fun l r => Host.dotGeneral dot_S262144x64_S64x64_S262144x64_1_0_0_1_n_n none l r) : (⟨S262144x64, .f32⟩ : BufTy).Contents (Elt F) → (⟨S64x64, .f32⟩ : BufTy).Contents (Elt F) → (⟨S262144x64, .f32⟩ : BufTy).Contents (Elt F)),
    nullary main_cst_7 (constant S_ .f32 0x00000000#32),
    unary main_cst_7 main_v46 (broadcastInDim S1x64 ![] bcast_S_S1x64 : (⟨S_, .f32⟩ : BufTy).Contents (Elt F) → (⟨S1x64, .f32⟩ : BufTy).Contents (Elt F)),
    binary main_v45 main_v46 main_v47 ((fun a b => concatenate S262145x64 0 [⟨S262144x64, a⟩, ⟨S1x64, b⟩] concatenates_S262144x64_S1x64_S262145x64_d0) : (⟨S262144x64, .f32⟩ : BufTy).Contents (Elt F) → (⟨S1x64, .f32⟩ : BufTy).Contents (Elt F) → (⟨S262145x64, .f32⟩ : BufTy).Contents (Elt F)),
    nullary main_c_8 (constantI S_ 32 0#32),
    unary main_c_8 main_v48 (broadcastInDim S26x65536 ![] bcast_S_S26x65536 : (⟨S_, .i32⟩ : BufTy).Contents (Elt F) → (⟨S26x65536, .i32⟩ : BufTy).Contents (Elt F)),
    binary main_arg6 main_v48 main_v49 (cmpi .slt : (⟨S26x65536, .i32⟩ : BufTy).Contents (Elt F) → (⟨S26x65536, .i32⟩ : BufTy).Contents (Elt F) → (⟨S26x65536, .i1⟩ : BufTy).Contents (Elt F)),
    nullary main_c_9 (constantI S_ 32 262145#32),
    unary main_c_9 main_v50 (broadcastInDim S26x65536 ![] bcast_S_S26x65536 : (⟨S_, .i32⟩ : BufTy).Contents (Elt F) → (⟨S26x65536, .i32⟩ : BufTy).Contents (Elt F)),
    binary main_arg6 main_v50 main_v51 (addi : (⟨S26x65536, .i32⟩ : BufTy).Contents (Elt F) → (⟨S26x65536, .i32⟩ : BufTy).Contents (Elt F) → (⟨S26x65536, .i32⟩ : BufTy).Contents (Elt F)),
    ternary main_v49 main_v51 main_arg6 main_v52 (select : (⟨S26x65536, .i1⟩ : BufTy).Contents (Elt F) → (⟨S26x65536, .i32⟩ : BufTy).Contents (Elt F) → (⟨S26x65536, .i32⟩ : BufTy).Contents (Elt F) → (⟨S26x65536, .i32⟩ : BufTy).Contents (Elt F)),
    unary main_v52 main_v53 (broadcastInDim S26x65536x1 ![0, 1] bcast_S26x65536_S26x65536x1_0_1 : (⟨S26x65536, .i32⟩ : BufTy).Contents (Elt F) → (⟨S26x65536x1, .i32⟩ : BufTy).Contents (Elt F)),
    ternary main_v47 main_v53 main_v42 main_v54 ((fun x i u => Host.scatterAdd scatter_S262145x64_S26x65536x1_S26x65536x64_2_0_0_2 x i u) : (⟨S262145x64, .f32⟩ : BufTy).Contents (Elt F) → (⟨S26x65536x1, .i32⟩ : BufTy).Contents (Elt F) → (⟨S26x65536x64, .f32⟩ : BufTy).Contents (Elt F) → (⟨S262145x64, .f32⟩ : BufTy).Contents (Elt F)),
    unary main_v54 main_v55 ((extractStridedSlice S262144x64 ![0, 0] · slices_S262145x64_S262144x64_0_0) : (⟨S262145x64, .f32⟩ : BufTy).Contents (Elt F) → (⟨S262144x64, .f32⟩ : BufTy).Contents (Elt F)),
    unary main_arg4 main_v56 (broadcastInDim S1x64 ![1] bcast_S64_S1x64_1 : (⟨S64, .f32⟩ : BufTy).Contents (Elt F) → (⟨S1x64, .f32⟩ : BufTy).Contents (Elt F)),
    unary main_v56 main_v57 (broadcastInDim S262144x64 ![0, 1] bcast_S1x64_S262144x64_0_1 : (⟨S1x64, .f32⟩ : BufTy).Contents (Elt F) → (⟨S262144x64, .f32⟩ : BufTy).Contents (Elt F)),
    binary main_v55 main_v57 main_v58 (addf : (⟨S262144x64, .f32⟩ : BufTy).Contents (Elt F) → (⟨S262144x64, .f32⟩ : BufTy).Contents (Elt F) → (⟨S262144x64, .f32⟩ : BufTy).Contents (Elt F)),
    binary main_v58 main_arg0 main_v59 (addf : (⟨S262144x64, .f32⟩ : BufTy).Contents (Elt F) → (⟨S262144x64, .f32⟩ : BufTy).Contents (Elt F) → (⟨S262144x64, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S262144x64, .f32⟩) main_call1_v0) (broadcastInDim S262144x64 ![] bcast_S_S262144x64),
    TRef.binary (TRef.of (T := ⟨S262144x64, .f32⟩) main_v59) (TRef.of (T := ⟨S262144x64, .f32⟩) main_call1_v0) (TRef.of (T := ⟨S262144x64, .f32⟩) main_v60) maximumf ]

set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., reshape_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., ternary_bufs_sub .., unary_bufs_sub .., unary_bufs_sub .., unary_bufs_sub .., binary_bufs_sub .., nullary_bufs_sub .., unary_bufs_sub .., binary_bufs_sub .., nullary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., reshape_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., ternary_bufs_sub .., unary_bufs_sub .., unary_bufs_sub .., unary_bufs_sub .., binary_bufs_sub .., binary_bufs_sub .., nullary_bufs_sub .., unary_bufs_sub .., binary_bufs_sub ..⟩

/-! ## The six stretches -/

/-- The first layer up to its two products. -/
abbrev layer1a : List (HloOp τ sig (Elt F)) :=
  [ nullary main_cst (constant S_ .f32 0x00000000#32),
    unary main_cst main_v0 (broadcastInDim S1x64 ![] bcast_S_S1x64 : (⟨S_, .f32⟩ : BufTy).Contents (Elt F) → (⟨S1x64, .f32⟩ : BufTy).Contents (Elt F)),
    binary main_arg0 main_v0 main_v1 ((fun a b => concatenate S262145x64 0 [⟨S262144x64, a⟩, ⟨S1x64, b⟩] concatenates_S262144x64_S1x64_S262145x64_d0) : (⟨S262144x64, .f32⟩ : BufTy).Contents (Elt F) → (⟨S1x64, .f32⟩ : BufTy).Contents (Elt F) → (⟨S262145x64, .f32⟩ : BufTy).Contents (Elt F)),
    unary main_arg1 main_v2 ((extractStridedSlice S13x64x64 ![0, 0, 0] · slices_S27x64x64_S13x64x64_0_0_0) : (⟨S27x64x64, .f32⟩ : BufTy).Contents (Elt F) → (⟨S13x64x64, .f32⟩ : BufTy).Contents (Elt F)),
    unary main_arg1 main_v3 ((extractStridedSlice S13x64x64 ![14, 0, 0] · slices_S27x64x64_S13x64x64_14_0_0) : (⟨S27x64x64, .f32⟩ : BufTy).Contents (Elt F) → (⟨S13x64x64, .f32⟩ : BufTy).Contents (Elt F)),
    binary main_v2 main_v3 main_v4 ((fun a b => concatenate S26x64x64 0 [⟨S13x64x64, a⟩, ⟨S13x64x64, b⟩] concatenates_S13x64x64_S13x64x64_S26x64x64_d0) : (⟨S13x64x64, .f32⟩ : BufTy).Contents (Elt F) → (⟨S13x64x64, .f32⟩ : BufTy).Contents (Elt F) → (⟨S26x64x64, .f32⟩ : BufTy).Contents (Elt F)),
    nullary main_c (constantI S_ 32 0#32),
    unary main_c main_v5 (broadcastInDim S26x65536 ![] bcast_S_S26x65536 : (⟨S_, .i32⟩ : BufTy).Contents (Elt F) → (⟨S26x65536, .i32⟩ : BufTy).Contents (Elt F)),
    binary main_arg5 main_v5 main_v6 (cmpi .slt : (⟨S26x65536, .i32⟩ : BufTy).Contents (Elt F) → (⟨S26x65536, .i32⟩ : BufTy).Contents (Elt F) → (⟨S26x65536, .i1⟩ : BufTy).Contents (Elt F)),
    nullary main_c_0 (constantI S_ 32 262145#32),
    unary main_c_0 main_v7 (broadcastInDim S26x65536 ![] bcast_S_S26x65536 : (⟨S_, .i32⟩ : BufTy).Contents (Elt F) → (⟨S26x65536, .i32⟩ : BufTy).Contents (Elt F)),
    binary main_arg5 main_v7 main_v8 (addi : (⟨S26x65536, .i32⟩ : BufTy).Contents (Elt F) → (⟨S26x65536, .i32⟩ : BufTy).Contents (Elt F) → (⟨S26x65536, .i32⟩ : BufTy).Contents (Elt F)),
    ternary main_v6 main_v8 main_arg5 main_v9 (select : (⟨S26x65536, .i1⟩ : BufTy).Contents (Elt F) → (⟨S26x65536, .i32⟩ : BufTy).Contents (Elt F) → (⟨S26x65536, .i32⟩ : BufTy).Contents (Elt F) → (⟨S26x65536, .i32⟩ : BufTy).Contents (Elt F)),
    unary main_v9 main_v10 (broadcastInDim S26x65536x1 ![0, 1] bcast_S26x65536_S26x65536x1_0_1 : (⟨S26x65536, .i32⟩ : BufTy).Contents (Elt F) → (⟨S26x65536x1, .i32⟩ : BufTy).Contents (Elt F)),
    binary main_v1 main_v10 main_v11 ((fun x i => Host.gather gather_S262145x64_S26x65536x1_S26x65536x64_2_0_n_n_0_2_164 x i) : (⟨S262145x64, .f32⟩ : BufTy).Contents (Elt F) → (⟨S26x65536x1, .i32⟩ : BufTy).Contents (Elt F) → (⟨S26x65536x64, .f32⟩ : BufTy).Contents (Elt F)),
    binary main_v11 main_v4 main_v12 ((fun l r => Host.dotGeneral dot_S26x65536x64_S26x64x64_S26x65536x64_2_1_1_2_0_0 none l r) : (⟨S26x65536x64, .f32⟩ : BufTy).Contents (Elt F) → (⟨S26x64x64, .f32⟩ : BufTy).Contents (Elt F) → (⟨S26x65536x64, .f32⟩ : BufTy).Contents (Elt F)),
    unary main_arg1 main_v13 ((extractStridedSlice S1x64x64 ![13, 0, 0] · slices_S27x64x64_S1x64x64_13_0_0) : (⟨S27x64x64, .f32⟩ : BufTy).Contents (Elt F) → (⟨S1x64x64, .f32⟩ : BufTy).Contents (Elt F)),
    reshape main_v13 main_v14 rfl shapeCasts_S1x64x64_S64x64,
    binary main_arg0 main_v14 main_v15 ((fun l r => Host.dotGeneral dot_S262144x64_S64x64_S262144x64_1_0_0_1_n_n none l r) : (⟨S262144x64, .f32⟩ : BufTy).Contents (Elt F) → (⟨S64x64, .f32⟩ : BufTy).Contents (Elt F) → (⟨S262144x64, .f32⟩ : BufTy).Contents (Elt F)) ]
/-- The first layer from its products to the bias. -/
abbrev layer1b : List (HloOp τ sig (Elt F)) :=
  [ nullary main_cst_1 (constant S_ .f32 0x00000000#32),
    unary main_cst_1 main_v16 (broadcastInDim S1x64 ![] bcast_S_S1x64 : (⟨S_, .f32⟩ : BufTy).Contents (Elt F) → (⟨S1x64, .f32⟩ : BufTy).Contents (Elt F)),
    binary main_v15 main_v16 main_v17 ((fun a b => concatenate S262145x64 0 [⟨S262144x64, a⟩, ⟨S1x64, b⟩] concatenates_S262144x64_S1x64_S262145x64_d0) : (⟨S262144x64, .f32⟩ : BufTy).Contents (Elt F) → (⟨S1x64, .f32⟩ : BufTy).Contents (Elt F) → (⟨S262145x64, .f32⟩ : BufTy).Contents (Elt F)),
    nullary main_c_2 (constantI S_ 32 0#32),
    unary main_c_2 main_v18 (broadcastInDim S26x65536 ![] bcast_S_S26x65536 : (⟨S_, .i32⟩ : BufTy).Contents (Elt F) → (⟨S26x65536, .i32⟩ : BufTy).Contents (Elt F)),
    binary main_arg6 main_v18 main_v19 (cmpi .slt : (⟨S26x65536, .i32⟩ : BufTy).Contents (Elt F) → (⟨S26x65536, .i32⟩ : BufTy).Contents (Elt F) → (⟨S26x65536, .i1⟩ : BufTy).Contents (Elt F)),
    nullary main_c_3 (constantI S_ 32 262145#32),
    unary main_c_3 main_v20 (broadcastInDim S26x65536 ![] bcast_S_S26x65536 : (⟨S_, .i32⟩ : BufTy).Contents (Elt F) → (⟨S26x65536, .i32⟩ : BufTy).Contents (Elt F)),
    binary main_arg6 main_v20 main_v21 (addi : (⟨S26x65536, .i32⟩ : BufTy).Contents (Elt F) → (⟨S26x65536, .i32⟩ : BufTy).Contents (Elt F) → (⟨S26x65536, .i32⟩ : BufTy).Contents (Elt F)),
    ternary main_v19 main_v21 main_arg6 main_v22 (select : (⟨S26x65536, .i1⟩ : BufTy).Contents (Elt F) → (⟨S26x65536, .i32⟩ : BufTy).Contents (Elt F) → (⟨S26x65536, .i32⟩ : BufTy).Contents (Elt F) → (⟨S26x65536, .i32⟩ : BufTy).Contents (Elt F)),
    unary main_v22 main_v23 (broadcastInDim S26x65536x1 ![0, 1] bcast_S26x65536_S26x65536x1_0_1 : (⟨S26x65536, .i32⟩ : BufTy).Contents (Elt F) → (⟨S26x65536x1, .i32⟩ : BufTy).Contents (Elt F)),
    ternary main_v17 main_v23 main_v12 main_v24 ((fun x i u => Host.scatterAdd scatter_S262145x64_S26x65536x1_S26x65536x64_2_0_0_2 x i u) : (⟨S262145x64, .f32⟩ : BufTy).Contents (Elt F) → (⟨S26x65536x1, .i32⟩ : BufTy).Contents (Elt F) → (⟨S26x65536x64, .f32⟩ : BufTy).Contents (Elt F) → (⟨S262145x64, .f32⟩ : BufTy).Contents (Elt F)),
    unary main_v24 main_v25 ((extractStridedSlice S262144x64 ![0, 0] · slices_S262145x64_S262144x64_0_0) : (⟨S262145x64, .f32⟩ : BufTy).Contents (Elt F) → (⟨S262144x64, .f32⟩ : BufTy).Contents (Elt F)),
    unary main_arg2 main_v26 (broadcastInDim S1x64 ![1] bcast_S64_S1x64_1 : (⟨S64, .f32⟩ : BufTy).Contents (Elt F) → (⟨S1x64, .f32⟩ : BufTy).Contents (Elt F)),
    unary main_v26 main_v27 (broadcastInDim S262144x64 ![0, 1] bcast_S1x64_S262144x64_0_1 : (⟨S1x64, .f32⟩ : BufTy).Contents (Elt F) → (⟨S262144x64, .f32⟩ : BufTy).Contents (Elt F)),
    binary main_v25 main_v27 main_v28 (addf : (⟨S262144x64, .f32⟩ : BufTy).Contents (Elt F) → (⟨S262144x64, .f32⟩ : BufTy).Contents (Elt F) → (⟨S262144x64, .f32⟩ : BufTy).Contents (Elt F)) ]
/-- The rectifier between the layers. -/
abbrev relu1 : List (HloOp τ sig (Elt F)) :=
  [ nullary main_call0_cst (constant S_ .f32 0x00000000#32),
    unary main_call0_cst main_call0_v0 (broadcastInDim S262144x64 ![] bcast_S_S262144x64 : (⟨S_, .f32⟩ : BufTy).Contents (Elt F) → (⟨S262144x64, .f32⟩ : BufTy).Contents (Elt F)),
    binary main_v28 main_call0_v0 main_v29 (maximumf : (⟨S262144x64, .f32⟩ : BufTy).Contents (Elt F) → (⟨S262144x64, .f32⟩ : BufTy).Contents (Elt F) → (⟨S262144x64, .f32⟩ : BufTy).Contents (Elt F)) ]
/-- The second layer up to its two products. -/
abbrev layer2a : List (HloOp τ sig (Elt F)) :=
  [ nullary main_cst_4 (constant S_ .f32 0x00000000#32),
    unary main_cst_4 main_v30 (broadcastInDim S1x64 ![] bcast_S_S1x64 : (⟨S_, .f32⟩ : BufTy).Contents (Elt F) → (⟨S1x64, .f32⟩ : BufTy).Contents (Elt F)),
    binary main_v29 main_v30 main_v31 ((fun a b => concatenate S262145x64 0 [⟨S262144x64, a⟩, ⟨S1x64, b⟩] concatenates_S262144x64_S1x64_S262145x64_d0) : (⟨S262144x64, .f32⟩ : BufTy).Contents (Elt F) → (⟨S1x64, .f32⟩ : BufTy).Contents (Elt F) → (⟨S262145x64, .f32⟩ : BufTy).Contents (Elt F)),
    unary main_arg3 main_v32 ((extractStridedSlice S13x64x64 ![0, 0, 0] · slices_S27x64x64_S13x64x64_0_0_0) : (⟨S27x64x64, .f32⟩ : BufTy).Contents (Elt F) → (⟨S13x64x64, .f32⟩ : BufTy).Contents (Elt F)),
    unary main_arg3 main_v33 ((extractStridedSlice S13x64x64 ![14, 0, 0] · slices_S27x64x64_S13x64x64_14_0_0) : (⟨S27x64x64, .f32⟩ : BufTy).Contents (Elt F) → (⟨S13x64x64, .f32⟩ : BufTy).Contents (Elt F)),
    binary main_v32 main_v33 main_v34 ((fun a b => concatenate S26x64x64 0 [⟨S13x64x64, a⟩, ⟨S13x64x64, b⟩] concatenates_S13x64x64_S13x64x64_S26x64x64_d0) : (⟨S13x64x64, .f32⟩ : BufTy).Contents (Elt F) → (⟨S13x64x64, .f32⟩ : BufTy).Contents (Elt F) → (⟨S26x64x64, .f32⟩ : BufTy).Contents (Elt F)),
    nullary main_c_5 (constantI S_ 32 0#32),
    unary main_c_5 main_v35 (broadcastInDim S26x65536 ![] bcast_S_S26x65536 : (⟨S_, .i32⟩ : BufTy).Contents (Elt F) → (⟨S26x65536, .i32⟩ : BufTy).Contents (Elt F)),
    binary main_arg5 main_v35 main_v36 (cmpi .slt : (⟨S26x65536, .i32⟩ : BufTy).Contents (Elt F) → (⟨S26x65536, .i32⟩ : BufTy).Contents (Elt F) → (⟨S26x65536, .i1⟩ : BufTy).Contents (Elt F)),
    nullary main_c_6 (constantI S_ 32 262145#32),
    unary main_c_6 main_v37 (broadcastInDim S26x65536 ![] bcast_S_S26x65536 : (⟨S_, .i32⟩ : BufTy).Contents (Elt F) → (⟨S26x65536, .i32⟩ : BufTy).Contents (Elt F)),
    binary main_arg5 main_v37 main_v38 (addi : (⟨S26x65536, .i32⟩ : BufTy).Contents (Elt F) → (⟨S26x65536, .i32⟩ : BufTy).Contents (Elt F) → (⟨S26x65536, .i32⟩ : BufTy).Contents (Elt F)),
    ternary main_v36 main_v38 main_arg5 main_v39 (select : (⟨S26x65536, .i1⟩ : BufTy).Contents (Elt F) → (⟨S26x65536, .i32⟩ : BufTy).Contents (Elt F) → (⟨S26x65536, .i32⟩ : BufTy).Contents (Elt F) → (⟨S26x65536, .i32⟩ : BufTy).Contents (Elt F)),
    unary main_v39 main_v40 (broadcastInDim S26x65536x1 ![0, 1] bcast_S26x65536_S26x65536x1_0_1 : (⟨S26x65536, .i32⟩ : BufTy).Contents (Elt F) → (⟨S26x65536x1, .i32⟩ : BufTy).Contents (Elt F)),
    binary main_v31 main_v40 main_v41 ((fun x i => Host.gather gather_S262145x64_S26x65536x1_S26x65536x64_2_0_n_n_0_2_164 x i) : (⟨S262145x64, .f32⟩ : BufTy).Contents (Elt F) → (⟨S26x65536x1, .i32⟩ : BufTy).Contents (Elt F) → (⟨S26x65536x64, .f32⟩ : BufTy).Contents (Elt F)),
    binary main_v41 main_v34 main_v42 ((fun l r => Host.dotGeneral dot_S26x65536x64_S26x64x64_S26x65536x64_2_1_1_2_0_0 none l r) : (⟨S26x65536x64, .f32⟩ : BufTy).Contents (Elt F) → (⟨S26x64x64, .f32⟩ : BufTy).Contents (Elt F) → (⟨S26x65536x64, .f32⟩ : BufTy).Contents (Elt F)),
    unary main_arg3 main_v43 ((extractStridedSlice S1x64x64 ![13, 0, 0] · slices_S27x64x64_S1x64x64_13_0_0) : (⟨S27x64x64, .f32⟩ : BufTy).Contents (Elt F) → (⟨S1x64x64, .f32⟩ : BufTy).Contents (Elt F)),
    reshape main_v43 main_v44 rfl shapeCasts_S1x64x64_S64x64,
    binary main_v29 main_v44 main_v45 ((fun l r => Host.dotGeneral dot_S262144x64_S64x64_S262144x64_1_0_0_1_n_n none l r) : (⟨S262144x64, .f32⟩ : BufTy).Contents (Elt F) → (⟨S64x64, .f32⟩ : BufTy).Contents (Elt F) → (⟨S262144x64, .f32⟩ : BufTy).Contents (Elt F)) ]
/-- The second layer from its products to the bias and the residual. -/
abbrev layer2b : List (HloOp τ sig (Elt F)) :=
  [ nullary main_cst_7 (constant S_ .f32 0x00000000#32),
    unary main_cst_7 main_v46 (broadcastInDim S1x64 ![] bcast_S_S1x64 : (⟨S_, .f32⟩ : BufTy).Contents (Elt F) → (⟨S1x64, .f32⟩ : BufTy).Contents (Elt F)),
    binary main_v45 main_v46 main_v47 ((fun a b => concatenate S262145x64 0 [⟨S262144x64, a⟩, ⟨S1x64, b⟩] concatenates_S262144x64_S1x64_S262145x64_d0) : (⟨S262144x64, .f32⟩ : BufTy).Contents (Elt F) → (⟨S1x64, .f32⟩ : BufTy).Contents (Elt F) → (⟨S262145x64, .f32⟩ : BufTy).Contents (Elt F)),
    nullary main_c_8 (constantI S_ 32 0#32),
    unary main_c_8 main_v48 (broadcastInDim S26x65536 ![] bcast_S_S26x65536 : (⟨S_, .i32⟩ : BufTy).Contents (Elt F) → (⟨S26x65536, .i32⟩ : BufTy).Contents (Elt F)),
    binary main_arg6 main_v48 main_v49 (cmpi .slt : (⟨S26x65536, .i32⟩ : BufTy).Contents (Elt F) → (⟨S26x65536, .i32⟩ : BufTy).Contents (Elt F) → (⟨S26x65536, .i1⟩ : BufTy).Contents (Elt F)),
    nullary main_c_9 (constantI S_ 32 262145#32),
    unary main_c_9 main_v50 (broadcastInDim S26x65536 ![] bcast_S_S26x65536 : (⟨S_, .i32⟩ : BufTy).Contents (Elt F) → (⟨S26x65536, .i32⟩ : BufTy).Contents (Elt F)),
    binary main_arg6 main_v50 main_v51 (addi : (⟨S26x65536, .i32⟩ : BufTy).Contents (Elt F) → (⟨S26x65536, .i32⟩ : BufTy).Contents (Elt F) → (⟨S26x65536, .i32⟩ : BufTy).Contents (Elt F)),
    ternary main_v49 main_v51 main_arg6 main_v52 (select : (⟨S26x65536, .i1⟩ : BufTy).Contents (Elt F) → (⟨S26x65536, .i32⟩ : BufTy).Contents (Elt F) → (⟨S26x65536, .i32⟩ : BufTy).Contents (Elt F) → (⟨S26x65536, .i32⟩ : BufTy).Contents (Elt F)),
    unary main_v52 main_v53 (broadcastInDim S26x65536x1 ![0, 1] bcast_S26x65536_S26x65536x1_0_1 : (⟨S26x65536, .i32⟩ : BufTy).Contents (Elt F) → (⟨S26x65536x1, .i32⟩ : BufTy).Contents (Elt F)),
    ternary main_v47 main_v53 main_v42 main_v54 ((fun x i u => Host.scatterAdd scatter_S262145x64_S26x65536x1_S26x65536x64_2_0_0_2 x i u) : (⟨S262145x64, .f32⟩ : BufTy).Contents (Elt F) → (⟨S26x65536x1, .i32⟩ : BufTy).Contents (Elt F) → (⟨S26x65536x64, .f32⟩ : BufTy).Contents (Elt F) → (⟨S262145x64, .f32⟩ : BufTy).Contents (Elt F)),
    unary main_v54 main_v55 ((extractStridedSlice S262144x64 ![0, 0] · slices_S262145x64_S262144x64_0_0) : (⟨S262145x64, .f32⟩ : BufTy).Contents (Elt F) → (⟨S262144x64, .f32⟩ : BufTy).Contents (Elt F)),
    unary main_arg4 main_v56 (broadcastInDim S1x64 ![1] bcast_S64_S1x64_1 : (⟨S64, .f32⟩ : BufTy).Contents (Elt F) → (⟨S1x64, .f32⟩ : BufTy).Contents (Elt F)),
    unary main_v56 main_v57 (broadcastInDim S262144x64 ![0, 1] bcast_S1x64_S262144x64_0_1 : (⟨S1x64, .f32⟩ : BufTy).Contents (Elt F) → (⟨S262144x64, .f32⟩ : BufTy).Contents (Elt F)),
    binary main_v55 main_v57 main_v58 (addf : (⟨S262144x64, .f32⟩ : BufTy).Contents (Elt F) → (⟨S262144x64, .f32⟩ : BufTy).Contents (Elt F) → (⟨S262144x64, .f32⟩ : BufTy).Contents (Elt F)),
    binary main_v58 main_arg0 main_v59 (addf : (⟨S262144x64, .f32⟩ : BufTy).Contents (Elt F) → (⟨S262144x64, .f32⟩ : BufTy).Contents (Elt F) → (⟨S262144x64, .f32⟩ : BufTy).Contents (Elt F)) ]
/-- The final rectifier. -/
abbrev relu2 : List (HloOp τ sig (Elt F)) :=
  [ nullary main_call1_cst (constant S_ .f32 0x00000000#32),
    unary main_call1_cst main_call1_v0 (broadcastInDim S262144x64 ![] bcast_S_S262144x64 : (⟨S_, .f32⟩ : BufTy).Contents (Elt F) → (⟨S262144x64, .f32⟩ : BufTy).Contents (Elt F)),
    binary main_v59 main_call1_v0 main_v60 (maximumf : (⟨S262144x64, .f32⟩ : BufTy).Contents (Elt F) → (⟨S262144x64, .f32⟩ : BufTy).Contents (Elt F) → (⟨S262144x64, .f32⟩ : BufTy).Contents (Elt F)) ]

/-- The line is the six stretches in order (a rectifier call's operations over references that carry their own
    types are the plain operations). -/
theorem ops_split : (ops : List (HloOp τ sig (Elt F)))
    = layer1a ++ (layer1b ++ (relu1 ++ (layer2a ++ (layer2b ++ relu2)))) := rfl

variable (V : Valuation τ sig (Elt F))

/-- The contents after each stretch. -/
abbrev Y1 : Valuation τ sig (Elt F) := after layer1a V
abbrev Y2 : Valuation τ sig (Elt F) := after layer1b (Y1 V)
abbrev Y3 : Valuation τ sig (Elt F) := after relu1 (Y2 V)
abbrev Y4 : Valuation τ sig (Elt F) := after layer2a (Y3 V)
abbrev Y5 : Valuation τ sig (Elt F) := after layer2b (Y4 V)
abbrev Y6 : Valuation τ sig (Elt F) := after relu2 (Y5 V)

theorem after_ops : after ops V = Y6 V := by
  rw [ops_split]
  simp only [Cert.Lib.AfterAppend.after_append]

/-- A buffer none of a stretch's operations writes keeps its contents over the stretch. -/
macro "unwritten " ops:ident : tactic => `(tactic|
  exact StableHlo.after_of_forall_not_mem _ _ (List.forall_iff_forall_mem.mp (by
    simp only [$ops:ident, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide))))

/-! ## Buffers that keep their contents -/

/-- The first bias when it is added. -/
theorem a2_at1 : Y1 V (Proc.devRef .tc main_arg2) = V (Proc.devRef .tc main_arg2) :=
  calc Y1 V (Proc.devRef .tc main_arg2)
    _ = V (Proc.devRef .tc main_arg2) := by unwritten layer1a

/-- The output table when the first scatter reads it. -/
theorem a6_at1 : Y1 V (Proc.devRef .tc main_arg6) = V (Proc.devRef .tc main_arg6) :=
  calc Y1 V (Proc.devRef .tc main_arg6)
    _ = V (Proc.devRef .tc main_arg6) := by unwritten layer1a

/-- The features when the residual's layer starts. -/
theorem a0_at3 : Y3 V (Proc.devRef .tc main_arg0) = V (Proc.devRef .tc main_arg0) :=
  calc Y3 V (Proc.devRef .tc main_arg0)
    _ = Y2 V (Proc.devRef .tc main_arg0) := by unwritten relu1
    _ = Y1 V (Proc.devRef .tc main_arg0) := by unwritten layer1b
    _ = V (Proc.devRef .tc main_arg0) := by unwritten layer1a

/-- The second layer's matrices when they are sliced. -/
theorem a3_at3 : Y3 V (Proc.devRef .tc main_arg3) = V (Proc.devRef .tc main_arg3) :=
  calc Y3 V (Proc.devRef .tc main_arg3)
    _ = Y2 V (Proc.devRef .tc main_arg3) := by unwritten relu1
    _ = Y1 V (Proc.devRef .tc main_arg3) := by unwritten layer1b
    _ = V (Proc.devRef .tc main_arg3) := by unwritten layer1a

/-- The input table when the second gather reads it. -/
theorem a5_at3 : Y3 V (Proc.devRef .tc main_arg5) = V (Proc.devRef .tc main_arg5) :=
  calc Y3 V (Proc.devRef .tc main_arg5)
    _ = Y2 V (Proc.devRef .tc main_arg5) := by unwritten relu1
    _ = Y1 V (Proc.devRef .tc main_arg5) := by unwritten layer1b
    _ = V (Proc.devRef .tc main_arg5) := by unwritten layer1a

/-- The features when they are added back. -/
theorem a0_at4 : Y4 V (Proc.devRef .tc main_arg0) = V (Proc.devRef .tc main_arg0) :=
  calc Y4 V (Proc.devRef .tc main_arg0)
    _ = Y3 V (Proc.devRef .tc main_arg0) := by unwritten layer2a
    _ = Y2 V (Proc.devRef .tc main_arg0) := by unwritten relu1
    _ = Y1 V (Proc.devRef .tc main_arg0) := by unwritten layer1b
    _ = V (Proc.devRef .tc main_arg0) := by unwritten layer1a

/-- The second bias when it is added. -/
theorem a4_at4 : Y4 V (Proc.devRef .tc main_arg4) = V (Proc.devRef .tc main_arg4) :=
  calc Y4 V (Proc.devRef .tc main_arg4)
    _ = Y3 V (Proc.devRef .tc main_arg4) := by unwritten layer2a
    _ = Y2 V (Proc.devRef .tc main_arg4) := by unwritten relu1
    _ = Y1 V (Proc.devRef .tc main_arg4) := by unwritten layer1b
    _ = V (Proc.devRef .tc main_arg4) := by unwritten layer1a

/-- The output table when the second scatter reads it. -/
theorem a6_at4 : Y4 V (Proc.devRef .tc main_arg6) = V (Proc.devRef .tc main_arg6) :=
  calc Y4 V (Proc.devRef .tc main_arg6)
    _ = Y3 V (Proc.devRef .tc main_arg6) := by unwritten layer2a
    _ = Y2 V (Proc.devRef .tc main_arg6) := by unwritten relu1
    _ = Y1 V (Proc.devRef .tc main_arg6) := by unwritten layer1b
    _ = V (Proc.devRef .tc main_arg6) := by unwritten layer1a

/-- Argument 0 is written by nothing. -/
theorem a0_end : Y6 V (Proc.devRef .tc main_arg0) = V (Proc.devRef .tc main_arg0) :=
  calc Y6 V (Proc.devRef .tc main_arg0)
    _ = Y5 V (Proc.devRef .tc main_arg0) := by unwritten relu2
    _ = Y4 V (Proc.devRef .tc main_arg0) := by unwritten layer2b
    _ = Y3 V (Proc.devRef .tc main_arg0) := by unwritten layer2a
    _ = Y2 V (Proc.devRef .tc main_arg0) := by unwritten relu1
    _ = Y1 V (Proc.devRef .tc main_arg0) := by unwritten layer1b
    _ = V (Proc.devRef .tc main_arg0) := by unwritten layer1a

/-- Argument 1 is written by nothing. -/
theorem a1_end : Y6 V (Proc.devRef .tc main_arg1) = V (Proc.devRef .tc main_arg1) :=
  calc Y6 V (Proc.devRef .tc main_arg1)
    _ = Y5 V (Proc.devRef .tc main_arg1) := by unwritten relu2
    _ = Y4 V (Proc.devRef .tc main_arg1) := by unwritten layer2b
    _ = Y3 V (Proc.devRef .tc main_arg1) := by unwritten layer2a
    _ = Y2 V (Proc.devRef .tc main_arg1) := by unwritten relu1
    _ = Y1 V (Proc.devRef .tc main_arg1) := by unwritten layer1b
    _ = V (Proc.devRef .tc main_arg1) := by unwritten layer1a

/-- Argument 2 is written by nothing. -/
theorem a2_end : Y6 V (Proc.devRef .tc main_arg2) = V (Proc.devRef .tc main_arg2) :=
  calc Y6 V (Proc.devRef .tc main_arg2)
    _ = Y5 V (Proc.devRef .tc main_arg2) := by unwritten relu2
    _ = Y4 V (Proc.devRef .tc main_arg2) := by unwritten layer2b
    _ = Y3 V (Proc.devRef .tc main_arg2) := by unwritten layer2a
    _ = Y2 V (Proc.devRef .tc main_arg2) := by unwritten relu1
    _ = Y1 V (Proc.devRef .tc main_arg2) := by unwritten layer1b
    _ = V (Proc.devRef .tc main_arg2) := by unwritten layer1a

/-- Argument 3 is written by nothing. -/
theorem a3_end : Y6 V (Proc.devRef .tc main_arg3) = V (Proc.devRef .tc main_arg3) :=
  calc Y6 V (Proc.devRef .tc main_arg3)
    _ = Y5 V (Proc.devRef .tc main_arg3) := by unwritten relu2
    _ = Y4 V (Proc.devRef .tc main_arg3) := by unwritten layer2b
    _ = Y3 V (Proc.devRef .tc main_arg3) := by unwritten layer2a
    _ = Y2 V (Proc.devRef .tc main_arg3) := by unwritten relu1
    _ = Y1 V (Proc.devRef .tc main_arg3) := by unwritten layer1b
    _ = V (Proc.devRef .tc main_arg3) := by unwritten layer1a

/-- Argument 4 is written by nothing. -/
theorem a4_end : Y6 V (Proc.devRef .tc main_arg4) = V (Proc.devRef .tc main_arg4) :=
  calc Y6 V (Proc.devRef .tc main_arg4)
    _ = Y5 V (Proc.devRef .tc main_arg4) := by unwritten relu2
    _ = Y4 V (Proc.devRef .tc main_arg4) := by unwritten layer2b
    _ = Y3 V (Proc.devRef .tc main_arg4) := by unwritten layer2a
    _ = Y2 V (Proc.devRef .tc main_arg4) := by unwritten relu1
    _ = Y1 V (Proc.devRef .tc main_arg4) := by unwritten layer1b
    _ = V (Proc.devRef .tc main_arg4) := by unwritten layer1a

/-- Argument 5 is written by nothing. -/
theorem a5_end : Y6 V (Proc.devRef .tc main_arg5) = V (Proc.devRef .tc main_arg5) :=
  calc Y6 V (Proc.devRef .tc main_arg5)
    _ = Y5 V (Proc.devRef .tc main_arg5) := by unwritten relu2
    _ = Y4 V (Proc.devRef .tc main_arg5) := by unwritten layer2b
    _ = Y3 V (Proc.devRef .tc main_arg5) := by unwritten layer2a
    _ = Y2 V (Proc.devRef .tc main_arg5) := by unwritten relu1
    _ = Y1 V (Proc.devRef .tc main_arg5) := by unwritten layer1b
    _ = V (Proc.devRef .tc main_arg5) := by unwritten layer1a

/-- Argument 6 is written by nothing. -/
theorem a6_end : Y6 V (Proc.devRef .tc main_arg6) = V (Proc.devRef .tc main_arg6) :=
  calc Y6 V (Proc.devRef .tc main_arg6)
    _ = Y5 V (Proc.devRef .tc main_arg6) := by unwritten relu2
    _ = Y4 V (Proc.devRef .tc main_arg6) := by unwritten layer2b
    _ = Y3 V (Proc.devRef .tc main_arg6) := by unwritten layer2a
    _ = Y2 V (Proc.devRef .tc main_arg6) := by unwritten relu1
    _ = Y1 V (Proc.devRef .tc main_arg6) := by unwritten layer1b
    _ = V (Proc.devRef .tc main_arg6) := by unwritten layer1a

/-! ## Each stretch from arbitrary starting contents

A stretch's result buffers as functions of the contents it starts from, whatever they are. -/

section Stretches

variable (X : Valuation τ sig (Elt F))

set_option maxHeartbeats 2000000

/-- The first batched product. -/
theorem batched1_of : after layer1a X (Proc.devRef .tc main_v12) = Host.dotGeneral dot_S26x65536x64_S26x64x64_S26x65536x64_2_1_1_2_0_0 none (gathered (X (Proc.devRef .tc main_arg0)) (X (Proc.devRef .tc main_arg5))) (offW (X (Proc.devRef .tc main_arg1))) := by
  dsimp only [layer1a]
  after_results
  rfl

/-- The first plain product. -/
theorem plain1_of : after layer1a X (Proc.devRef .tc main_v15) = Host.dotGeneral dot_S262144x64_S64x64_S262144x64_1_0_0_1_n_n none (X (Proc.devRef .tc main_arg0)) (cenW (X (Proc.devRef .tc main_arg1))) := by
  dsimp only [layer1a]
  after_results
  rfl

/-- The first layer's two products combined. -/
theorem combine1_of : after layer1b X (Proc.devRef .tc main_v28) = combine (X (Proc.devRef .tc main_v15)) (X (Proc.devRef .tc main_v12)) (X (Proc.devRef .tc main_arg2)) (X (Proc.devRef .tc main_arg6)) := by
  dsimp only [layer1b]
  after_results
  rfl

/-- The rectifier between the layers. -/
theorem relu1_of : after relu1 X (Proc.devRef .tc main_v29) = relu (X (Proc.devRef .tc main_v28)) := by
  dsimp only [relu1]
  after_results
  rfl

/-- The second batched product. -/
theorem batched2_of : after layer2a X (Proc.devRef .tc main_v42) = Host.dotGeneral dot_S26x65536x64_S26x64x64_S26x65536x64_2_1_1_2_0_0 none (gathered (X (Proc.devRef .tc main_v29)) (X (Proc.devRef .tc main_arg5))) (offW (X (Proc.devRef .tc main_arg3))) := by
  dsimp only [layer2a]
  after_results
  rfl

/-- The second plain product. -/
theorem plain2_of : after layer2a X (Proc.devRef .tc main_v45) = Host.dotGeneral dot_S262144x64_S64x64_S262144x64_1_0_0_1_n_n none (X (Proc.devRef .tc main_v29)) (cenW (X (Proc.devRef .tc main_arg3))) := by
  dsimp only [layer2a]
  after_results
  rfl

/-- The second layer's two products combined, the input added back. -/
theorem combine2_of : after layer2b X (Proc.devRef .tc main_v59) = addf (combine (X (Proc.devRef .tc main_v45)) (X (Proc.devRef .tc main_v42)) (X (Proc.devRef .tc main_arg4)) (X (Proc.devRef .tc main_arg6))) (X (Proc.devRef .tc main_arg0)) := by
  dsimp only [layer2b]
  after_results
  rfl

/-- The final rectifier. -/
theorem relu2_of : after relu2 X (Proc.devRef .tc main_v60) = relu (X (Proc.devRef .tc main_v59)) := by
  dsimp only [relu2]
  after_results
  rfl

end Stretches

/-! ## The first layer -/

/-- The first layer's output before the rectifier. -/
theorem v28_eq : Y2 V (Proc.devRef .tc main_v28) = layer (V (Proc.devRef .tc main_arg0)) (V (Proc.devRef .tc main_arg1)) (V (Proc.devRef .tc main_arg2)) (V (Proc.devRef .tc main_arg5)) (V (Proc.devRef .tc main_arg6)) := by
  refine (combine1_of (Y1 V)).trans ?_
  rw [show (Y1 V (Proc.devRef .tc main_v15)) = _ from plain1_of V, show (Y1 V (Proc.devRef .tc main_v12)) = _ from batched1_of V, a2_at1, a6_at1]
  rfl

/-- The first layer's output. -/
theorem v29_eq : Y3 V (Proc.devRef .tc main_v29) = relu (layer (V (Proc.devRef .tc main_arg0)) (V (Proc.devRef .tc main_arg1)) (V (Proc.devRef .tc main_arg2)) (V (Proc.devRef .tc main_arg5)) (V (Proc.devRef .tc main_arg6))) := by
  refine (relu1_of (Y2 V)).trans ?_
  rw [v28_eq]

/-! ## The second layer -/

/-- The second batched product. -/
theorem v42_eq : Y4 V (Proc.devRef .tc main_v42)
    = Host.dotGeneral dot_S26x65536x64_S26x64x64_S26x65536x64_2_1_1_2_0_0 none (gathered (relu (layer (V (Proc.devRef .tc main_arg0)) (V (Proc.devRef .tc main_arg1)) (V (Proc.devRef .tc main_arg2)) (V (Proc.devRef .tc main_arg5)) (V (Proc.devRef .tc main_arg6)))) (V (Proc.devRef .tc main_arg5))) (offW (V (Proc.devRef .tc main_arg3))) := by
  refine (batched2_of (Y3 V)).trans ?_
  rw [v29_eq, a5_at3, a3_at3]

/-- The second plain product. -/
theorem v45_eq : Y4 V (Proc.devRef .tc main_v45) = Host.dotGeneral dot_S262144x64_S64x64_S262144x64_1_0_0_1_n_n none (relu (layer (V (Proc.devRef .tc main_arg0)) (V (Proc.devRef .tc main_arg1)) (V (Proc.devRef .tc main_arg2)) (V (Proc.devRef .tc main_arg5)) (V (Proc.devRef .tc main_arg6)))) (cenW (V (Proc.devRef .tc main_arg3))) := by
  refine (plain2_of (Y3 V)).trans ?_
  rw [v29_eq, a3_at3]

/-- The second layer's output with the input added back. -/
theorem v59_eq : Y5 V (Proc.devRef .tc main_v59)
    = addf (layer (relu (layer (V (Proc.devRef .tc main_arg0)) (V (Proc.devRef .tc main_arg1)) (V (Proc.devRef .tc main_arg2)) (V (Proc.devRef .tc main_arg5)) (V (Proc.devRef .tc main_arg6)))) (V (Proc.devRef .tc main_arg3)) (V (Proc.devRef .tc main_arg4)) (V (Proc.devRef .tc main_arg5)) (V (Proc.devRef .tc main_arg6))) (V (Proc.devRef .tc main_arg0)) := by
  refine (combine2_of (Y4 V)).trans ?_
  rw [v45_eq, v42_eq, a4_at4, a6_at4, a0_at4]
  rfl

/-- THE RESULT: the residual block of the arguments. -/
theorem result_eq : after ops V (Proc.devRef .tc main_v60)
    = block (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [after_ops]
  refine (relu2_of (Y5 V)).trans ?_
  rw [v59_eq]
  rfl

theorem arg0_kept : after ops V (Proc.devRef .tc main_arg0) = V (Proc.devRef .tc main_arg0) := by
  rw [after_ops]; exact a0_end V
theorem arg1_kept : after ops V (Proc.devRef .tc main_arg1) = V (Proc.devRef .tc main_arg1) := by
  rw [after_ops]; exact a1_end V
theorem arg2_kept : after ops V (Proc.devRef .tc main_arg2) = V (Proc.devRef .tc main_arg2) := by
  rw [after_ops]; exact a2_end V
theorem arg3_kept : after ops V (Proc.devRef .tc main_arg3) = V (Proc.devRef .tc main_arg3) := by
  rw [after_ops]; exact a3_end V
theorem arg4_kept : after ops V (Proc.devRef .tc main_arg4) = V (Proc.devRef .tc main_arg4) := by
  rw [after_ops]; exact a4_end V
theorem arg5_kept : after ops V (Proc.devRef .tc main_arg5) = V (Proc.devRef .tc main_arg5) := by
  rw [after_ops]; exact a5_end V
theorem arg6_kept : after ops V (Proc.devRef .tc main_arg6) = V (Proc.devRef .tc main_arg6) := by
  rw [after_ops]; exact a6_end V

/-! ## The run -/

/-- Every weakly fair execution terminates with the result at the residual block of the arguments and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v60)
          = block (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c main_v60).trans (result_eq _),
      (h c main_arg0).trans (arg0_kept _),
      (h c main_arg1).trans (arg1_kept _),
      (h c main_arg2).trans (arg2_kept _),
      (h c main_arg3).trans (arg3_kept _),
      (h c main_arg4).trans (arg4_kept _),
      (h c main_arg5).trans (arg5_kept _),
      (h c main_arg6).trans (arg6_kept _)⟩)
    (run_seq scopedRefs_eq scopedSems_eq defs main (fun _ => ops) main_eq (fun _ => ops_sub) m ρ)

end Cert.ReferenceIdeal.RefRun

end
-- ==== Proof.Bridge.lean ====
/-
  The kernel's layer and the reference's layer are one function at the exact values.

  Around the two products both sides apply the same operations to the same operands. The kernel's products are the
  whole-array sums over the channel of rounded operands, and rounding to bfloat16 is the identity at the exact values;
  the reference's plain product and batched product are those same sums. So the two layers agree on every input,
  and with them the two residual blocks.
-/
import proofs.«168265_j19971597926625_1_alg».proof.Proof.Layer
import proofs.«168265_j19971597926625_1_alg».proof.Proof.RefLayer

set_option maxRecDepth 16384

noncomputable section

namespace Cert.Bridge

open Idealize.ShloMosaic

/-- One layer: the kernel's is the reference's. -/
theorem layer_eq (h : FVec Ideal Cert.KernelIdeal.S262144x64 .f32) (W : FVec Ideal Cert.KernelIdeal.S27x64x64 .f32)
    (b : FVec Ideal Cert.KernelIdeal.S64 .f32) (ii oi : IVec Cert.KernelIdeal.S26x65536 32) :
    Cert.KernelIdeal.Layer.layer h W b ii oi = Cert.ReferenceIdeal.RefValue.layer (F := Ideal) h W b ii oi := by
  unfold Cert.KernelIdeal.Layer.layer Cert.ReferenceIdeal.RefValue.layer
  rw [Cert.ReferenceIdeal.RefValue.centre_dot, Cert.ReferenceIdeal.RefValue.offset_dot]
  rfl

/-- The residual block: the kernel's is the reference's. -/
theorem block_eq (x : FVec Ideal Cert.KernelIdeal.S262144x64 .f32) (W1 : FVec Ideal Cert.KernelIdeal.S27x64x64 .f32)
    (b1 : FVec Ideal Cert.KernelIdeal.S64 .f32) (W2 : FVec Ideal Cert.KernelIdeal.S27x64x64 .f32)
    (b2 : FVec Ideal Cert.KernelIdeal.S64 .f32) (ii oi : IVec Cert.KernelIdeal.S26x65536 32) :
    Cert.KernelIdeal.Layer.block x W1 b1 W2 b2 ii oi = Cert.ReferenceIdeal.RefValue.block (F := Ideal) x W1 b1 W2 b2 ii oi := by
  unfold Cert.KernelIdeal.Layer.block Cert.ReferenceIdeal.RefValue.block
  rw [layer_eq, layer_eq]
  rfl

end Cert.Bridge

end
-- ==== Proof.lean ====
/-
  A sparse 3-D convolution residual block: a Pallas kernel against its jnp reference, equal over the extended reals.

  Both programs compute relu (layer₂ (relu (layer₁ x)) + x). A layer pads the 262144 × 64 feature array with a zero
  row, gathers for each of the 26 off-centre offsets the 65536 rows its input table names, multiplies the rows of
  offset o by the o-th off-centre 64 × 64 matrix and the features themselves by the centre matrix, scatter-adds the
  off-centre rows into the padded centre product at the rows the output table names, drops the padding row and adds
  the bias. The kernel computes the two products in pipelined regions, 16384 rows at a time, from operands rounded to
  bfloat16, each block multiplied into a zero accumulator; the reference computes them as one batched and one plain
  product. At the exact values rounding is the identity and an entry of either product is the same finite sum over
  the channel, so block by block the kernel's output arrays are the reference's products, and everything around the
  products is the same sequence of operations on both sides. No step uses the finiteness of the inputs.

  The three frames: the two kernel programs' are generated; the reference's is its run with the result dropped. The idealization rewrote nothing, so there is nothing to preserve.
-/
import proofs.«168265_j19971597926625_1_alg».proof.Defs
import proofs.«168265_j19971597926625_1_alg».proof.Proof.Gen.Kernel
import proofs.«168265_j19971597926625_1_alg».proof.Proof.Gen.Kernel.Frame
import proofs.«168265_j19971597926625_1_alg».proof.Proof.Gen.KernelIdeal
import proofs.«168265_j19971597926625_1_alg».proof.Proof.Gen.KernelIdeal.Frame
import proofs.«168265_j19971597926625_1_alg».proof.Proof.Gen.ReferenceIdeal
import proofs.«168265_j19971597926625_1_alg».proof.Proof.Gen.Pre_finite_inputs
import proofs.«168265_j19971597926625_1_alg».proof.Proof.KernelRun
import proofs.«168265_j19971597926625_1_alg».proof.Proof.Fold
import proofs.«168265_j19971597926625_1_alg».proof.Proof.RefLayer
import proofs.«168265_j19971597926625_1_alg».proof.Proof.RefRun
import proofs.«168265_j19971597926625_1_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run terminates with the arguments unchanged: its run, the result dropped. -/
theorem frame_referenceIdeal : Cert.frame_ReferenceIdeal := fun m ρ _ =>
  (θ_run Cert.ReferenceIdeal.defs _ _).mono (fun _ h c => (h c).2) (Cert.ReferenceIdeal.RefRun.run (F := Ideal) m ρ)

/-- The idealization rewrote no operation. -/
theorem preserves : Cert.preserves_Kernel_KernelIdeal := trivial

/-- From memories agreeing on the arguments both programs end with the residual block of the arguments: the kernel's
    result buffer by the fold through its regions, the reference's by its run, the two blocks one
    function. -/
theorem algebraic : Cert.algebraic_KernelIdeal_ReferenceIdeal := by
  intro m ρ m' ρ' _ hagree
  refine ⟨fun c => Cert.KernelIdeal.Layer.block (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run Cert.KernelIdeal.defs _ _).mono
      (fun _ h c => ⟨(h c).1.trans (Cert.KernelIdeal.Fold.result_eq m ρ c), (h c).2⟩)
      (Cert.KernelIdeal.Result.run (F := Ideal) m ρ)
  · refine (θ_run Cert.ReferenceIdeal.defs _ _).mono (fun _ h c => ⟨(h c).1.trans ?_, (h c).2⟩)
      (Cert.ReferenceIdeal.RefRun.run (F := Ideal) m' ρ')
    rw [(hagree c).1, (hagree c).2.1, (hagree c).2.2.1, (hagree c).2.2.2.1,
      (hagree c).2.2.2.2.1, (hagree c).2.2.2.2.2.1, (hagree c).2.2.2.2.2.2]
    exact (Cert.Bridge.block_eq _ _ _ _ _ _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
